-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S2x256x256 : Shape := ⟨3, ![2, 256, 256]⟩
abbrev S2x256 : Shape := ⟨2, ![2, 256]⟩
abbrev S3x256 : Shape := ⟨2, ![3, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S3x256 : S_.BroadcastsInDim S3x256 (![] : Fin 0 → Fin S3x256.rank)
  reducesTo_S3x256_S_d0_1 : S3x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg11 : FVec F S3x256 .f32) (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_cst_28 : FVec F S_ .f32 := constant S_ .f32 0x00000000#32
  let main_v74 : FVec F S3x256 .f32 := broadcastInDim S3x256 ![] bcast_S_S3x256 main_cst_28
  let main_v75 : IVec S3x256 1 := cmpf .oge main_arg11 main_v74
  let main_c_29 : IVec S_ 1 := constantI S_ 1 1#1
  let main_v76 : IVec S_ 1 := (fun x v => Host.reduce IntOp.andi x v reducesTo_S3x256_S_d0_1 h_S_) main_v75 main_c_29
  let main_v77 : IVec S_ 1 := andi main_v73 main_v76
  main_v77

def fn_part3 {F : FTy → Type} [FloatOps F] (main_arg11 : FVec F S3x256 .f32) (main_arg12 : FVec F S256x128 .f32) (main_arg13 : FVec F S128 .f32) (main_arg14 : FVec F S128x2 .f32) (main_arg15 : FVec F S2 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x2 .f32 := Host.absf main_arg14
  let main_cst_24 : FVec F S_ .f32 := constant S_ .f32 0x7F800000#32
  let main_v65 : FVec F S128x2 .f32 := broadcastInDim S128x2 ![] bcast_S_S128x2 main_cst_24
  let main_v66 : IVec S128x2 1 := cmpf .olt main_v64 main_v65
  let main_c_25 : IVec S_ 1 := constantI S_ 1 1#1
  let main_v67 : IVec S_ 1 := (fun x v => Host.reduce IntOp.andi x v reducesTo_S128x2_S_d0_1 h_S_) main_v66 main_c_25
  fn_part4 (F := F) main_arg11 main_arg15 main_v63 main_v67

def fn_part2 {F : FTy → Type} [FloatOps F] (main_arg8 : FVec F S3x256 .f32) (main_arg9 : FVec F S3x256 .f32) (main_arg10 : FVec F S3x256 .f32) (main_arg11 : FVec F S3x256 .f32) (main_arg12 : FVec F S256x128 .f32) (main_arg13 : FVec F S128 .f32) (main_arg14 : FVec F S128x2 .f32) (main_arg15 : FVec F S2 .f32) (main_v33 : IVec S_ 1) : IVec S_ 1 :=
  let main_v34 : FVec F S3x256 .f32 := Host.absf main_arg8
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256 .f32 := Host.absf main_arg9
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256 .f32 := Host.absf main_arg10
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S3x256 .f32 := Host.absf main_arg11
  let main_cst_18 : FVec F S_ .f32 := constant S_ .f32 0x7F800000#32
  let main_v50 : FVec F S3x256 .f32 := broadcastInDim S3x256 ![] bcast_S_S3x256 main_cst_18
  fn_part3 (F := F) main_arg11 main_arg12 main_arg13 main_arg14 main_arg15 main_v48 main_v49 main_v50

def fn_part1 {F : FTy → Type} [FloatOps F] (main_arg5 : FVec F S2x256x256 .f32) (main_arg6 : FVec F S2x256x256 .f32) (main_arg7 : FVec F S2x256 .f32) (main_arg8 : FVec F S3x256 .f32) (main_arg9 : FVec F S3x256 .f32) (main_arg10 : FVec F S3x256 .f32) (main_arg11 : FVec F S3x256 .f32) (main_arg12 : FVec F S256x128 .f32) (main_arg13 : FVec F S128 .f32) (main_arg14 : FVec F S128x2 .f32) (main_arg15 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2x256x256 .f32 := Host.absf main_arg5
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256x256 .f32 := Host.absf main_arg6
  let main_cst_8 : FVec F S_ .f32 := constant S_ .f32 0x7F800000#32
  let main_v25 : FVec F S2x256x256 .f32 := broadcastInDim S2x256x256 ![] bcast_S_S2x256x256 main_cst_8
  let main_v26 : IVec S2x256x256 1 := cmpf .olt main_v24 main_v25
  let main_c_9 : IVec S_ 1 := constantI S_ 1 1#1
  let main_v27 : IVec S_ 1 := (fun x v => Host.reduce IntOp.andi x v reducesTo_S2x256x256_S_d0_1_2 h_S_) main_v26 main_c_9
  let main_v28 : IVec S_ 1 := andi main_v23 main_v27
  let main_v29 : FVec F S2x256 .f32 := Host.absf main_arg7
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S2x256x256 .f32) (main_arg6 : FVec F S2x256x256 .f32) (main_arg7 : FVec F S2x256 .f32) (main_arg8 : FVec F S3x256 .f32) (main_arg9 : FVec F S3x256 .f32) (main_arg10 : FVec F S3x256 .f32) (main_arg11 : FVec F S3x256 .f32) (main_arg12 : FVec F S256x128 .f32) (main_arg13 : FVec F S128 .f32) (main_arg14 : FVec F S128x2 .f32) (main_arg15 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S2x256x256 : Shape := ⟨3, ![2, 256, 256]⟩
abbrev S2x256 : Shape := ⟨2, ![2, 256]⟩
abbrev S3x256 : Shape := ⟨2, ![3, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256x256 : Shape := ⟨3, ![1, 256, 256]⟩
abbrev S256x256 : Shape := ⟨2, ![256, 256]⟩
abbrev S1x256 : Shape := ⟨2, ![1, 256]⟩
abbrev S800000x128 : Shape := ⟨2, ![800000, 128]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S1x128 : Shape := ⟨2, ![1, 128]⟩
abbrev S1x2 : Shape := ⟨2, ![1, 2]⟩
abbrev S50000x2 : Shape := ⟨2, ![50000, 2]⟩
abbrev S2000x2 : Shape := ⟨2, ![2000, 2]⟩
abbrev S2000 : Shape := ⟨1, ![2000]⟩

abbrev nBuf : Space → Nat
  | .hbm => 155
  | .vmem => 43
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S128x256, .f32⟩
  | 4 => ⟨S256, .f32⟩
  | 5 => ⟨S2x256x256, .f32⟩
  | 6 => ⟨S2x256x256, .f32⟩
  | 7 => ⟨S2x256, .f32⟩
  | 8 => ⟨S3x256, .f32⟩
  | 9 => ⟨S3x256, .f32⟩
  | 10 => ⟨S3x256, .f32⟩
  | 11 => ⟨S3x256, .f32⟩
  | 12 => ⟨S256x128, .f32⟩
  | 13 => ⟨S128, .f32⟩
  | 14 => ⟨S128x2, .f32⟩
  | 15 => ⟨S2, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x1, .f32⟩
  | 33 => ⟨S1x256x256, .f32⟩
  | 34 => ⟨S256x256, .f32⟩
  | 35 => ⟨S1x256x256, .f32⟩
  | 36 => ⟨S256x256, .f32⟩
  | 37 => ⟨S1x256x256, .f32⟩
  | 38 => ⟨S256x256, .f32⟩
  | 39 => ⟨S1x256x256, .f32⟩
  | 40 => ⟨S256x256, .f32⟩
  | 41 => ⟨S1x256, .f32⟩
  | 42 => ⟨S256, .f32⟩
  | 43 => ⟨S1x256, .f32⟩
  | 44 => ⟨S256, .f32⟩
  | 45 => ⟨S128x256, .bf16⟩
  | 46 => ⟨S256x256, .bf16⟩
  | 47 => ⟨S256x256, .bf16⟩
  | 48 => ⟨S128x256, .bf16⟩
  | 49 => ⟨S256x256, .bf16⟩
  | 50 => ⟨S256x256, .bf16⟩
  | 51 => ⟨S256x128, .bf16⟩
  | 52 => ⟨S128x2, .bf16⟩
  | 53 => ⟨S50000x128, .bf16⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .bf16⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S1x256, .f32⟩
  | 69 => ⟨S256, .f32⟩
  | 70 => ⟨S1x256, .f32⟩
  | 71 => ⟨S256, .f32⟩
  | 72 => ⟨S_, .f32⟩
  | 73 => ⟨S256, .f32⟩
  | 74 => ⟨S256, .f32⟩
  | 75 => ⟨S256, .f32⟩
  | 76 => ⟨S256, .f32⟩
  | 77 => ⟨S1x256, .f32⟩
  | 78 => ⟨S256, .f32⟩
  | 79 => ⟨S1x256, .f32⟩
  | 80 => ⟨S256, .f32⟩
  | 81 => ⟨S256, .f32⟩
  | 82 => ⟨S256, .f32⟩
  | 83 => ⟨S1x256, .f32⟩
  | 84 => ⟨S1x256, .f32⟩
  | 85 => ⟨S1x256, .f32⟩
  | 86 => ⟨S50000x256, .bf16⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x256, .bf16⟩
  | 96 => ⟨S800000x256, .f32⟩
  | 97 => ⟨S_, .f32⟩
  | 98 => ⟨S50000x256, .f32⟩
  | 99 => ⟨S800000x1, .i32⟩
  | 100 => ⟨S50000x256, .f32⟩
  | 101 => ⟨S1x256, .f32⟩
  | 102 => ⟨S256, .f32⟩
  | 103 => ⟨S1x256, .f32⟩
  | 104 => ⟨S256, .f32⟩
  | 105 => ⟨S_, .f32⟩
  | 106 => ⟨S256, .f32⟩
  | 107 => ⟨S256, .f32⟩
  | 108 => ⟨S256, .f32⟩
  | 109 => ⟨S256, .f32⟩
  | 110 => ⟨S1x256, .f32⟩
  | 111 => ⟨S256, .f32⟩
  | 112 => ⟨S1x256, .f32⟩
  | 113 => ⟨S256, .f32⟩
  | 114 => ⟨S256, .f32⟩
  | 115 => ⟨S256, .f32⟩
  | 116 => ⟨S1x256, .f32⟩
  | 117 => ⟨S1x256, .f32⟩
  | 118 => ⟨S1x256, .f32⟩
  | 119 => ⟨S50000x256, .bf16⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x256, .bf16⟩
  | 1 => ⟨S800000x256, .f32⟩
  | 2 => ⟨S_, .f32⟩
  | 3 => ⟨S50000x256, .f32⟩
  | 4 => ⟨S800000x1, .i32⟩
  | 5 => ⟨S50000x256, .f32⟩
  | 6 => ⟨S1x256, .f32⟩
  | 7 => ⟨S256, .f32⟩
  | 8 => ⟨S1x256, .f32⟩
  | 9 => ⟨S256, .f32⟩
  | 10 => ⟨S_, .f32⟩
  | 11 => ⟨S256, .f32⟩
  | 12 => ⟨S256, .f32⟩
  | 13 => ⟨S256, .f32⟩
  | 14 => ⟨S256, .f32⟩
  | 15 => ⟨S1x256, .f32⟩
  | 16 => ⟨S256, .f32⟩
  | 17 => ⟨S1x256, .f32⟩
  | 18 => ⟨S256, .f32⟩
  | 19 => ⟨S256, .f32⟩
  | 20 => ⟨S256, .f32⟩
  | 21 => ⟨S1x256, .f32⟩
  | 22 => ⟨S1x256, .f32⟩
  | 23 => ⟨S1x256, .f32⟩
  | 24 => ⟨S1x128, .f32⟩
  | 25 => ⟨S1x2, .f32⟩
  | 26 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .bf16⟩
  | .local _ .vmem, ⟨5, _⟩ => ⟨S2000x128, .bf16⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S2000x256, .bf16⟩
  | .local _ .vmem, ⟨12, _⟩ => ⟨S2000x256, .bf16⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S2000x256, .bf16⟩
  | .local _ .vmem, ⟨18, _⟩ => ⟨S2000x256, .bf16⟩
  | .local _ .vmem, ⟨19, _⟩ => ⟨S256x256, .bf16⟩
  | .local _ .vmem, ⟨20, _⟩ => ⟨S256x256, .bf16⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2000x256, .bf16⟩
  | .local _ .vmem, ⟨25, _⟩ => ⟨S2000x256, .bf16⟩
  | .local _ .vmem, ⟨26, _⟩ => ⟨S2000x256, .f32⟩
  | .local _ .vmem, ⟨27, _⟩ => ⟨S2000x256, .f32⟩
  | .local _ .vmem, ⟨28, _⟩ => ⟨S2000x1, .f32⟩
  | .local _ .vmem, ⟨29, _⟩ => ⟨S2000x1, .f32⟩
  | .local _ .vmem, ⟨30, _⟩ => ⟨S2000x256, .bf16⟩
  | .local _ .vmem, ⟨31, _⟩ => ⟨S2000x256, .bf16⟩
  | .local _ .vmem, ⟨32, _⟩ => ⟨S256x256, .bf16⟩
  | .local _ .vmem, ⟨33, _⟩ => ⟨S256x256, .bf16⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S256x128, .bf16⟩
  | .local _ .vmem, ⟨38, _⟩ => ⟨S1x128, .f32⟩
  | .local _ .vmem, ⟨39, _⟩ => ⟨S128x2, .bf16⟩
  | .local _ .vmem, ⟨40, _⟩ => ⟨S1x2, .f32⟩
  | .local _ .vmem, ⟨41, _⟩ => ⟨S2000x2, .f32⟩
  | .local _ .vmem, ⟨42, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c : Ref sig .tc := ⟨.hbm, 54, rfl⟩
abbrev main_v34 : Ref sig .tc := ⟨.hbm, 55, rfl⟩
abbrev main_v35 : Ref sig .tc := ⟨.hbm, 56, rfl⟩
abbrev main_c_3 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_6 : Ref sig .tc := ⟨.hbm, 87, rfl⟩
abbrev main_v63 : Ref sig .tc := ⟨.hbm, 88, rfl⟩
abbrev main_v64 : Ref sig .tc := ⟨.hbm, 89, rfl⟩
abbrev main_c_7 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_8 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_9 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_10 : Ref sig .tc := ⟨.hbm, 120, rfl⟩
abbrev main_v92 : Ref sig .tc := ⟨.hbm, 121, rfl⟩
abbrev main_v93 : Ref sig .tc := ⟨.hbm, 122, rfl⟩
abbrev main_c_11 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_12 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_13 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg9_0 : Ref sig .tc := ⟨.vmem, 38, rfl⟩
abbrev cc2_stg10_0 : Ref sig .tc := ⟨.vmem, 39, rfl⟩
abbrev cc2_stg11_0 : Ref sig .tc := ⟨.vmem, 40, rfl⟩
abbrev cc2_stg12_0 : Ref sig .tc := ⟨.vmem, 41, rfl⟩
abbrev cc2_stg12_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem9_0 : DmaSem sig := 38
abbrev cc2_sem10_0 : DmaSem sig := 39
abbrev cc2_sem11_0 : DmaSem sig := 40
abbrev cc2_sem12_0 : DmaSem sig := 41
abbrev cc2_sem12_1 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x128 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x2 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x2 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S2000x2 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S2x256x256_S1x256x256_0_0_0 : S2x256x256.Slices ![0, 0, 0] S1x256x256
  shapeCasts_S1x256x256_S256x256 : S1x256x256.ShapeCasts S256x256
  slices_S2x256x256_S1x256x256_1_0_0 : S2x256x256.Slices ![1, 0, 0] S1x256x256
  slices_S2x256_S1x256_0_0 : S2x256.Slices ![0, 0] S1x256
  shapeCasts_S1x256_S256 : S1x256.ShapeCasts S256
  slices_S2x256_S1x256_1_0 : S2x256.Slices ![1, 0] S1x256
  bitsLt_bf16_f32 : FTy.bits .bf16 < FTy.bits .f32
  bcast_S_S50000x128 : S_.BroadcastsInDim S50000x128 (![] : Fin 0 → Fin S50000x128.rank)
  slices_S3x256_S1x256_0_0 : S3x256.Slices ![0, 0] S1x256
  bcast_S_S256 : S_.BroadcastsInDim S256 (![] : Fin 0 → Fin S256.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  slices_S3x256_S1x256_1_0 : S3x256.Slices ![1, 0] S1x256
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S3x256_S1x256_2_0 : S3x256.Slices ![2, 0] S1x256
  shapeCasts_S128_S1x128 : S128.ShapeCasts S1x128
  shapeCasts_S2_S1x2 : S2.ShapeCasts S1x2
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S50000x256.size a
  hwx0_8 : ∀ i : grid0.Coords, EltTy.bits .bf16 = 32 ∨ (Rect.block (s := S50000x256) S2000x256.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .bf16 = 32 ∨ (Rect.block (s := S50000x256) S2000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .bf16 = 32 ∨ (Rect.block (s := S50000x256) S2000x256.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .bf16 = 32 ∨ (Rect.block (s := S50000x256) S2000x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S256x128.size a
  hwx2_8 : ∀ i : grid2.Coords, EltTy.bits .bf16 = 32 ∨ (Rect.block (s := S256x128) S256x128.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x2.size a ≤ S128x2.size a
  hwx2_10 : ∀ i : grid2.Coords, EltTy.bits .bf16 = 32 ∨ (Rect.block (s := S128x2) S128x2.size (cc2_transform_10 i) (hinb2_10 i)).WholeWords (EltTy.packing .bf16)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x2.size a ≤ S1x2.size a
  hwx2_11 : ∀ i : grid2.Coords, EltTy.bits .f32 = 32 ∨ (Rect.block (s := S1x2) S1x2.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S2000x2.size a ≤ S50000x2.size a
  hwx2_12 : ∀ i : grid2.Coords, EltTy.bits .f32 = 32 ∨ (Rect.block (s := S50000x2) S2000x2.size (cc2_transform_12 i) (hinb2_12 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_v44) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v61) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v62) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v73) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v88) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v89) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v90) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v91) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v102) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v91) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v117) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v118) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v119) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v31) S256x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v120) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v32) S128x2.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v121) S1x2.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v122) S2000x2.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S2x256x256 : Shape := ⟨3, ![2, 256, 256]⟩
abbrev S2x256 : Shape := ⟨2, ![2, 256]⟩
abbrev S3x256 : Shape := ⟨2, ![3, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x256x256 : Shape := ⟨3, ![1, 256, 256]⟩
abbrev S256x256 : Shape := ⟨2, ![256, 256]⟩
abbrev S1x256 : Shape := ⟨2, ![1, 256]⟩
abbrev S800000x128 : Shape := ⟨2, ![800000, 128]⟩
abbrev S50000x1 : Shape := ⟨2, ![50000, 1]⟩
abbrev S50000x256 : Shape := ⟨2, ![50000, 256]⟩
abbrev S800000x256 : Shape := ⟨2, ![800000, 256]⟩
abbrev S1x128 : Shape := ⟨2, ![1, 128]⟩
abbrev S50000x2 : Shape := ⟨2, ![50000, 2]⟩
abbrev S1x2 : Shape := ⟨2, ![1, 2]⟩

abbrev nBuf : Space → Nat
  | .hbm => 217
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S128x256, .f32⟩
  | 4 => ⟨S256, .f32⟩
  | 5 => ⟨S2x256x256, .f32⟩
  | 6 => ⟨S2x256x256, .f32⟩
  | 7 => ⟨S2x256, .f32⟩
  | 8 => ⟨S3x256, .f32⟩
  | 9 => ⟨S3x256, .f32⟩
  | 10 => ⟨S3x256, .f32⟩
  | 11 => ⟨S3x256, .f32⟩
  | 12 => ⟨S256x128, .f32⟩
  | 13 => ⟨S128, .f32⟩
  | 14 => ⟨S128x2, .f32⟩
  | 15 => ⟨S2, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S1x256x256, .f32⟩
  | 33 => ⟨S256x256, .f32⟩
  | 34 => ⟨S1x256x256, .f32⟩
  | 35 => ⟨S256x256, .f32⟩
  | 36 => ⟨S1x256x256, .f32⟩
  | 37 => ⟨S256x256, .f32⟩
  | 38 => ⟨S1x256x256, .f32⟩
  | 39 => ⟨S256x256, .f32⟩
  | 40 => ⟨S1x256, .f32⟩
  | 41 => ⟨S256, .f32⟩
  | 42 => ⟨S1x256, .f32⟩
  | 43 => ⟨S256, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000x1, .f32⟩
  | 58 => ⟨S50000x128, .f32⟩
  | 59 => ⟨S50000x128, .f32⟩
  | 60 => ⟨S50000x256, .f32⟩
  | 61 => ⟨S1x256, .f32⟩
  | 62 => ⟨S50000x256, .f32⟩
  | 63 => ⟨S50000x256, .f32⟩
  | 64 => ⟨S50000x256, .f32⟩
  | 65 => ⟨S50000x256, .f32⟩
  | 66 => ⟨S1x256, .f32⟩
  | 67 => ⟨S256, .f32⟩
  | 68 => ⟨S1x256, .f32⟩
  | 69 => ⟨S50000x256, .f32⟩
  | 70 => ⟨S50000x256, .f32⟩
  | 71 => ⟨S1x256, .f32⟩
  | 72 => ⟨S256, .f32⟩
  | 73 => ⟨S_, .f32⟩
  | 74 => ⟨S256, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S1x256, .f32⟩
  | 81 => ⟨S256, .f32⟩
  | 82 => ⟨S1x256, .f32⟩
  | 83 => ⟨S50000x256, .f32⟩
  | 84 => ⟨S50000x256, .f32⟩
  | 85 => ⟨S1x256, .f32⟩
  | 86 => ⟨S256, .f32⟩
  | 87 => ⟨S1x256, .f32⟩
  | 88 => ⟨S50000x256, .f32⟩
  | 89 => ⟨S50000x256, .f32⟩
  | 90 => ⟨S_, .f32⟩
  | 91 => ⟨S50000x256, .f32⟩
  | 92 => ⟨S50000x256, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x256, .f32⟩
  | 102 => ⟨S_, .f32⟩
  | 103 => ⟨S50000x256, .f32⟩
  | 104 => ⟨S800000x1, .i32⟩
  | 105 => ⟨S50000x256, .f32⟩
  | 106 => ⟨S50000x1, .f32⟩
  | 107 => ⟨S50000x256, .f32⟩
  | 108 => ⟨S50000x256, .f32⟩
  | 109 => ⟨S50000x256, .f32⟩
  | 110 => ⟨S1x256, .f32⟩
  | 111 => ⟨S50000x256, .f32⟩
  | 112 => ⟨S50000x256, .f32⟩
  | 113 => ⟨S50000x256, .f32⟩
  | 114 => ⟨S50000x256, .f32⟩
  | 115 => ⟨S1x256, .f32⟩
  | 116 => ⟨S256, .f32⟩
  | 117 => ⟨S1x256, .f32⟩
  | 118 => ⟨S50000x256, .f32⟩
  | 119 => ⟨S50000x256, .f32⟩
  | 120 => ⟨S1x256, .f32⟩
  | 121 => ⟨S256, .f32⟩
  | 122 => ⟨S_, .f32⟩
  | 123 => ⟨S256, .f32⟩
  | 124 => ⟨S256, .f32⟩
  | 125 => ⟨S256, .f32⟩
  | 126 => ⟨S1x256, .f32⟩
  | 127 => ⟨S50000x256, .f32⟩
  | _ => ⟨S50000x128, .f32⟩

abbrev hbmTy0_1 (i : Nat) : BufTy := match i % 128 with
  | 0 => ⟨S50000x256, .f32⟩
  | 1 => ⟨S1x256, .f32⟩
  | 2 => ⟨S256, .f32⟩
  | 3 => ⟨S1x256, .f32⟩
  | 4 => ⟨S50000x256, .f32⟩
  | 5 => ⟨S50000x256, .f32⟩
  | 6 => ⟨S1x256, .f32⟩
  | 7 => ⟨S256, .f32⟩
  | 8 => ⟨S1x256, .f32⟩
  | 9 => ⟨S50000x256, .f32⟩
  | 10 => ⟨S50000x256, .f32⟩
  | 11 => ⟨S_, .f32⟩
  | 12 => ⟨S50000x256, .f32⟩
  | 13 => ⟨S50000x256, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x256, .f32⟩
  | 23 => ⟨S_, .f32⟩
  | 24 => ⟨S50000x256, .f32⟩
  | 25 => ⟨S800000x1, .i32⟩
  | 26 => ⟨S50000x256, .f32⟩
  | 27 => ⟨S50000x1, .f32⟩
  | 28 => ⟨S50000x256, .f32⟩
  | 29 => ⟨S50000x256, .f32⟩
  | 30 => ⟨S50000x256, .f32⟩
  | 31 => ⟨S1x256, .f32⟩
  | 32 => ⟨S50000x256, .f32⟩
  | 33 => ⟨S50000x256, .f32⟩
  | 34 => ⟨S50000x256, .f32⟩
  | 35 => ⟨S50000x256, .f32⟩
  | 36 => ⟨S1x256, .f32⟩
  | 37 => ⟨S256, .f32⟩
  | 38 => ⟨S1x256, .f32⟩
  | 39 => ⟨S50000x256, .f32⟩
  | 40 => ⟨S50000x256, .f32⟩
  | 41 => ⟨S1x256, .f32⟩
  | 42 => ⟨S256, .f32⟩
  | 43 => ⟨S_, .f32⟩
  | 44 => ⟨S256, .f32⟩
  | 45 => ⟨S256, .f32⟩
  | 46 => ⟨S256, .f32⟩
  | 47 => ⟨S1x256, .f32⟩
  | 48 => ⟨S50000x256, .f32⟩
  | 49 => ⟨S50000x256, .f32⟩
  | 50 => ⟨S1x256, .f32⟩
  | 51 => ⟨S256, .f32⟩
  | 52 => ⟨S1x256, .f32⟩
  | 53 => ⟨S50000x256, .f32⟩
  | 54 => ⟨S50000x256, .f32⟩
  | 55 => ⟨S1x256, .f32⟩
  | 56 => ⟨S256, .f32⟩
  | 57 => ⟨S1x256, .f32⟩
  | 58 => ⟨S50000x256, .f32⟩
  | 59 => ⟨S50000x256, .f32⟩
  | 60 => ⟨S_, .f32⟩
  | 61 => ⟨S50000x256, .f32⟩
  | 62 => ⟨S50000x256, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x2, .f32⟩
  | 71 => ⟨S1x2, .f32⟩
  | 72 => ⟨S50000x2, .f32⟩
  | 73 => ⟨S50000x2, .f32⟩
  | 74 => ⟨S_, .f32⟩
  | 75 => ⟨S50000, .f32⟩
  | 76 => ⟨S_, .f32⟩
  | 77 => ⟨S50000, .f32⟩
  | 78 => ⟨S50000, .f32⟩
  | 79 => ⟨S50000x1, .f32⟩
  | 80 => ⟨S50000x2, .f32⟩
  | 81 => ⟨S50000x2, .f32⟩
  | 82 => ⟨S50000x2, .f32⟩
  | 83 => ⟨S_, .f32⟩
  | 84 => ⟨S50000, .f32⟩
  | 85 => ⟨S50000x1, .f32⟩
  | 86 => ⟨S50000x1, .f32⟩
  | 87 => ⟨S50000x2, .f32⟩
  | 88 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c : Ref sig .tc := ⟨.hbm, 44, rfl⟩
abbrev main_v24 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call0_cst : Ref sig .tc := ⟨.hbm, 90, rfl⟩
abbrev main_call0_v0 : Ref sig .tc := ⟨.hbm, 91, rfl⟩
abbrev main_v66 : Ref sig .tc := ⟨.hbm, 92, rfl⟩
abbrev main_c_6 : Ref sig .tc := ⟨.hbm, 93, rfl⟩
abbrev main_v67 : Ref sig .tc := ⟨.hbm, 94, rfl⟩
abbrev main_v68 : Ref sig .tc := ⟨.hbm, 95, rfl⟩
abbrev main_c_7 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_8 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_9 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_call1_cst : Ref sig .tc := ⟨.hbm, 139, rfl⟩
abbrev main_call1_v0 : Ref sig .tc := ⟨.hbm, 140, rfl⟩
abbrev main_v109 : Ref sig .tc := ⟨.hbm, 141, rfl⟩
abbrev main_c_10 : Ref sig .tc := ⟨.hbm, 142, rfl⟩
abbrev main_v110 : Ref sig .tc := ⟨.hbm, 143, rfl⟩
abbrev main_v111 : Ref sig .tc := ⟨.hbm, 144, rfl⟩
abbrev main_c_11 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_12 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_13 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_call2_cst : Ref sig .tc := ⟨.hbm, 188, rfl⟩
abbrev main_call2_v0 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_call3_cst : Ref sig .tc := ⟨.hbm, 195, rfl⟩
abbrev main_call3_v0 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_call4_cst : Ref sig .tc := ⟨.hbm, 202, rfl⟩
abbrev main_call4_v0 : Ref sig .tc := ⟨.hbm, 203, rfl⟩
abbrev main_call4_cst_0 : Ref sig .tc := ⟨.hbm, 204, rfl⟩
abbrev main_call4_v1 : Ref sig .tc := ⟨.hbm, 205, rfl⟩
abbrev main_call4_v2 : Ref sig .tc := ⟨.hbm, 206, rfl⟩
abbrev main_call4_v3 : Ref sig .tc := ⟨.hbm, 207, rfl⟩
abbrev main_call4_v4 : Ref sig .tc := ⟨.hbm, 208, rfl⟩
abbrev main_call4_v5 : Ref sig .tc := ⟨.hbm, 209, rfl⟩
abbrev main_call4_v6 : Ref sig .tc := ⟨.hbm, 210, rfl⟩
abbrev main_call4_cst_1 : Ref sig .tc := ⟨.hbm, 211, rfl⟩
abbrev main_call4_v7 : Ref sig .tc := ⟨.hbm, 212, rfl⟩
abbrev main_call4_v8 : Ref sig .tc := ⟨.hbm, 213, rfl⟩
abbrev main_call4_v9 : Ref sig .tc := ⟨.hbm, 214, rfl⟩
abbrev main_call4_v10 : Ref sig .tc := ⟨.hbm, 215, rfl⟩
abbrev main_v162 : Ref sig .tc := ⟨.hbm, 216, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S2x256x256_S1x256x256_0_0_0 : S2x256x256.Slices ![0, 0, 0] S1x256x256
  shapeCasts_S1x256x256_S256x256 : S1x256x256.ShapeCasts S256x256
  slices_S2x256x256_S1x256x256_1_0_0 : S2x256x256.Slices ![1, 0, 0] S1x256x256
  slices_S2x256_S1x256_0_0 : S2x256.Slices ![0, 0] S1x256
  shapeCasts_S1x256_S256 : S1x256.ShapeCasts S256
  slices_S2x256_S1x256_1_0 : S2x256.Slices ![1, 0] S1x256
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256_S1x256_0_0 : S3x256.Slices ![0, 0] S1x256
  bcast_S_S256 : S_.BroadcastsInDim S256 (![] : Fin 0 → Fin S256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S3x256_S1x256_1_0 : S3x256.Slices ![1, 0] S1x256
  slices_S3x256_S1x256_2_0 : S3x256.Slices ![2, 0] S1x256
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000x1_S50000x2_0_1 : S50000x1.BroadcastsInDim S50000x2 (![0, 1] : Fin 2 → Fin S50000x2.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x2_S50000x2_1_0_0_1_n_n_wf : DotDims.WF S50000x128 S128x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KRun.lean ====
/-
  The idealized kernel's run with its result named.

  @main is six segments: three stretches of host operations, each followed by a pipelined region. The buffer
  contents at the segment boundaries are a fold from the launch memory; after the last region every unscoped
  buffer holds the fold's last stage. Read at the result buffer this names the program's value (the last
  region's output array as its write-backs leave it); read at an argument it walks back to the launch contents.
-/
import proofs.«149779_j9311489098206_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; in its final state the result buffer holds the
    last stage of the fold at that buffer, and every argument array what it held at launch. -/
theorem run_value : θ_run defs (onTc (τ := τ) (main (F := F))) ⟨m, fun _ => 0, ρ⟩ (fun r => ∀ c : Dev nD,
      r.2.mem ((c.tc : Thread nD τ).loc main_v122) = W6 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v122 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.KRun

end
-- ==== Proof.KHops.lean ====
/-
  The kernel program's buffers across its three pipelined regions.

  A region rewrites only its own arrays. Its output array ends at what the write-backs of all grid points leave; an
  input window's array is left as it was found; every other buffer is untouched.
-/
import proofs.«149779_j9311489098206_2_alg».proof.Proof.Gen.KernelIdeal.Frame

set_option maxRecDepth 16384

noncomputable section

namespace Cert.KernelIdeal.KHops

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-! ## The output arrays -/

theorem out0 : W2 m ρ c (Proc.devRef .tc main_v62) = (dat0 (V1 m ρ) c).arrAt 8 cfg0.N := W2_arr m ρ c 8
theorem out1 : W4 m ρ c (Proc.devRef .tc main_v91) = (dat1 (V3 m ρ) c).arrAt 8 cfg1.N := W4_arr m ρ c 8
theorem out2 : W6 m ρ c (Proc.devRef .tc main_v122) = (dat2 (V5 m ρ) c).arrAt 12 cfg2.N := W6_arr m ρ c 12

/-! ## The reciprocal-degree column is an input window of every region: each leaves it as found -/

theorem W2_v12 : W2 m ρ c (Proc.devRef .tc main_v12) = W1 m ρ c (Proc.devRef .tc main_v12) :=
  (W2_arr m ρ c 1).trans (((dat0 (V1 m ρ) c).arrAt_in 1 rfl cfg0.N).trans (A_eq0 (V1 m ρ) c 1))
theorem W4_v12 : W4 m ρ c (Proc.devRef .tc main_v12) = W3 m ρ c (Proc.devRef .tc main_v12) :=
  (W4_arr m ρ c 1).trans (((dat1 (V3 m ρ) c).arrAt_in 1 rfl cfg1.N).trans (A_eq1 (V3 m ρ) c 1))

/-! ## Buffers that are no array of the region -/
theorem W2_main_v1 : W2 m ρ c (Proc.devRef .tc main_v1) = W1 m ρ c (Proc.devRef .tc main_v1) := W2_of_ne m ρ c main_v1 (by decide)
theorem W2_main_v3 : W2 m ρ c (Proc.devRef .tc main_v3) = W1 m ρ c (Proc.devRef .tc main_v3) := W2_of_ne m ρ c main_v3 (by decide)
theorem W2_main_v22 : W2 m ρ c (Proc.devRef .tc main_v22) = W1 m ρ c (Proc.devRef .tc main_v22) := W2_of_ne m ρ c main_v22 (by decide)
theorem W2_main_v24 : W2 m ρ c (Proc.devRef .tc main_v24) = W1 m ρ c (Proc.devRef .tc main_v24) := W2_of_ne m ρ c main_v24 (by decide)
theorem W2_main_v26 : W2 m ρ c (Proc.devRef .tc main_v26) = W1 m ρ c (Proc.devRef .tc main_v26) := W2_of_ne m ρ c main_v26 (by decide)
theorem W2_main_v27 : W2 m ρ c (Proc.devRef .tc main_v27) = W1 m ρ c (Proc.devRef .tc main_v27) := W2_of_ne m ρ c main_v27 (by decide)
theorem W2_main_v29 : W2 m ρ c (Proc.devRef .tc main_v29) = W1 m ρ c (Proc.devRef .tc main_v29) := W2_of_ne m ρ c main_v29 (by decide)
theorem W2_main_v30 : W2 m ρ c (Proc.devRef .tc main_v30) = W1 m ρ c (Proc.devRef .tc main_v30) := W2_of_ne m ρ c main_v30 (by decide)
theorem W2_main_v31 : W2 m ρ c (Proc.devRef .tc main_v31) = W1 m ρ c (Proc.devRef .tc main_v31) := W2_of_ne m ρ c main_v31 (by decide)
theorem W2_main_v32 : W2 m ρ c (Proc.devRef .tc main_v32) = W1 m ρ c (Proc.devRef .tc main_v32) := W2_of_ne m ρ c main_v32 (by decide)
theorem W2_main_arg8 : W2 m ρ c (Proc.devRef .tc main_arg8) = W1 m ρ c (Proc.devRef .tc main_arg8) := W2_of_ne m ρ c main_arg8 (by decide)
theorem W2_main_arg9 : W2 m ρ c (Proc.devRef .tc main_arg9) = W1 m ρ c (Proc.devRef .tc main_arg9) := W2_of_ne m ρ c main_arg9 (by decide)
theorem W2_main_arg10 : W2 m ρ c (Proc.devRef .tc main_arg10) = W1 m ρ c (Proc.devRef .tc main_arg10) := W2_of_ne m ρ c main_arg10 (by decide)
theorem W2_main_arg11 : W2 m ρ c (Proc.devRef .tc main_arg11) = W1 m ρ c (Proc.devRef .tc main_arg11) := W2_of_ne m ρ c main_arg11 (by decide)
theorem W2_main_arg13 : W2 m ρ c (Proc.devRef .tc main_arg13) = W1 m ρ c (Proc.devRef .tc main_arg13) := W2_of_ne m ρ c main_arg13 (by decide)
theorem W2_main_arg15 : W2 m ρ c (Proc.devRef .tc main_arg15) = W1 m ρ c (Proc.devRef .tc main_arg15) := W2_of_ne m ρ c main_arg15 (by decide)
theorem W4_main_v1 : W4 m ρ c (Proc.devRef .tc main_v1) = W3 m ρ c (Proc.devRef .tc main_v1) := W4_of_ne m ρ c main_v1 (by decide)
theorem W4_main_v3 : W4 m ρ c (Proc.devRef .tc main_v3) = W3 m ρ c (Proc.devRef .tc main_v3) := W4_of_ne m ρ c main_v3 (by decide)
theorem W4_main_v24 : W4 m ρ c (Proc.devRef .tc main_v24) = W3 m ρ c (Proc.devRef .tc main_v24) := W4_of_ne m ρ c main_v24 (by decide)
theorem W4_main_v27 : W4 m ρ c (Proc.devRef .tc main_v27) = W3 m ρ c (Proc.devRef .tc main_v27) := W4_of_ne m ρ c main_v27 (by decide)
theorem W4_main_v30 : W4 m ρ c (Proc.devRef .tc main_v30) = W3 m ρ c (Proc.devRef .tc main_v30) := W4_of_ne m ρ c main_v30 (by decide)
theorem W4_main_v31 : W4 m ρ c (Proc.devRef .tc main_v31) = W3 m ρ c (Proc.devRef .tc main_v31) := W4_of_ne m ρ c main_v31 (by decide)
theorem W4_main_v32 : W4 m ρ c (Proc.devRef .tc main_v32) = W3 m ρ c (Proc.devRef .tc main_v32) := W4_of_ne m ρ c main_v32 (by decide)
theorem W4_main_arg8 : W4 m ρ c (Proc.devRef .tc main_arg8) = W3 m ρ c (Proc.devRef .tc main_arg8) := W4_of_ne m ρ c main_arg8 (by decide)
theorem W4_main_arg9 : W4 m ρ c (Proc.devRef .tc main_arg9) = W3 m ρ c (Proc.devRef .tc main_arg9) := W4_of_ne m ρ c main_arg9 (by decide)
theorem W4_main_arg10 : W4 m ρ c (Proc.devRef .tc main_arg10) = W3 m ρ c (Proc.devRef .tc main_arg10) := W4_of_ne m ρ c main_arg10 (by decide)
theorem W4_main_arg11 : W4 m ρ c (Proc.devRef .tc main_arg11) = W3 m ρ c (Proc.devRef .tc main_arg11) := W4_of_ne m ρ c main_arg11 (by decide)
theorem W4_main_arg13 : W4 m ρ c (Proc.devRef .tc main_arg13) = W3 m ρ c (Proc.devRef .tc main_arg13) := W4_of_ne m ρ c main_arg13 (by decide)
theorem W4_main_arg15 : W4 m ρ c (Proc.devRef .tc main_arg15) = W3 m ρ c (Proc.devRef .tc main_arg15) := W4_of_ne m ρ c main_arg15 (by decide)

end Cert.KernelIdeal.KHops

end
-- ==== Proof.Spec.lean ====
/-
  The mathematics both programs compute, index by index, over the extended reals.

  A graph-convolution layer takes, for every node `n`, the sum `agg n` of its in-neighbours' feature rows, the
  reciprocal `inv n` of its clamped in-degree and its own feature row `h n`, and returns
      relu (BN ((agg n · inv n) · Wn + h n · Wr + b)),
  where BN is the evaluation-mode batch normalisation `(y - mean) · rsqrt (var + eps) · gamma + beta`.
  One program computes BN as a folded affine map `y · scale + shift` with `scale = gamma · rsqrt (var + eps)` and
  `shift = beta - mean · scale` and adds the bias last (`layerKat`); the other subtracts the mean, multiplies by the
  reciprocal root, then by gamma, adds beta, and adds the bias between the two matrix products (`layerRat`).
  The classifier head is a two-layer perceptron followed by a log-softmax over two classes, written once as
  `x - (max + log (sum exp (x - max)))` (`lsmK`) and once as `(x - max) - log (sum exp (x - max))` (`lsmR`).
-/
import Idealize.ShloMosaic.PureOps.Ideal
import Idealize.ShloMosaic.Lib.ValueIdx

noncomputable section

namespace Sage

open Idealize.ShloMosaic Idealize.ShloMosaic.ValueIdx

/-- Arrays of rank one, two and three over the extended reals, indexed by literal extents. -/
abbrev A1 (a : Nat) := (⟨1, ![a]⟩ : Shape).Idx → EReal
abbrev A2 (a b : Nat) := (⟨2, ![a, b]⟩ : Shape).Idx → EReal

/-- The variance guard of the batch normalisation: the single-precision number nearest to 1e-5, at its exact value. -/
def eps : EReal := Ideal.ofBits .f32 0x3727C5AC#32

/-- One entry of a layer in the folded-affine arrangement: both matrix products, then the bias, then
    `· scale + shift`, then the rectifier. `inv`, `b`, `sc`, `sh` are a column and three rows. -/
def layerKat {N d o : Nat} (agg : A2 N d) (inv : A2 N 1) (h : A2 N d) (wn wr : A2 d o) (b sc sh : A2 1 o)
    (n : Fin N) (j : Fin o) : EReal :=
  max ((((∑ k : Fin d, (agg (ix2 n k) * inv (ix2 n 0)) * wn (ix2 k j)) + ∑ k : Fin d, h (ix2 n k) * wr (ix2 k j))
    + b (ix2 0 j)) * sc (ix2 0 j) + sh (ix2 0 j)) 0

/-- One entry of a layer in the textbook arrangement: the neighbour product, the bias, the root product, then
    `(· - mean) · rsqrt (var + eps) · gamma + beta`, then the rectifier. `inv` and the five parameters are vectors. -/
def layerRat {N d o : Nat} (agg : A2 N d) (inv : A1 N) (h : A2 N d) (wn wr : A2 d o) (b mean var gamma beta : A1 o)
    (n : Fin N) (j : Fin o) : EReal :=
  max ((((((∑ k : Fin d, (agg (ix2 n k) * inv (ix1 n)) * wn (ix2 k j)) + b (ix1 j))
    + ∑ k : Fin d, h (ix2 n k) * wr (ix2 k j)) - mean (ix1 j)) * Ideal.rsqrt (var (ix1 j) + eps)) * gamma (ix1 j)
    + beta (ix1 j)) 0

/-- The hidden unit `k` of node `n`: `relu (h n · W1 + b1)`. -/
def hiddenAt {N d e : Nat} (h : Fin N → Fin d → EReal) (w1 : A2 d e) (b1 : Fin e → EReal) (n : Fin N) (k : Fin e) : EReal :=
  max ((∑ k' : Fin d, h n k' * w1 (ix2 k' k)) + b1 k) 0

/-- The logit of class `j` of node `n`: `hidden n · W2 + b2`. -/
def logitAt {N d e : Nat} (h : Fin N → Fin d → EReal) (w1 : A2 d e) (b1 : Fin e → EReal) (w2 : A2 e 2) (b2 : Fin 2 → EReal)
    (n : Fin N) (j : Fin 2) : EReal :=
  (∑ k : Fin e, hiddenAt h w1 b1 n k * w2 (ix2 k j)) + b2 j

/-- Log-softmax of `x` among two logits, the shift added back before it is subtracted. -/
def lsmK (l0 l1 x : EReal) : EReal :=
  x - (max l0 l1 + Ideal.log (Ideal.exp (l0 - max l0 l1) + Ideal.exp (l1 - max l0 l1)))

/-- Log-softmax of `x` among two logits, the shift subtracted first. -/
def lsmR (l0 l1 x : EReal) : EReal :=
  (x - max l0 l1) - Ideal.log (Ideal.exp (l0 - max l0 l1) + Ideal.exp (l1 - max l0 l1))

/-- The classifier head on top of a last layer in the folded-affine arrangement. -/
def headKat {N d o e : Nat} (agg : A2 N d) (inv : A2 N 1) (h : A2 N d) (wn wr : A2 d o) (b sc sh : A2 1 o)
    (w1 : A2 o e) (b1 : A2 1 e) (w2 : A2 e 2) (b2 : A2 1 2) (n : Fin N) (j : Fin 2) : EReal :=
  lsmK (logitAt (layerKat agg inv h wn wr b sc sh) w1 (fun k => b1 (ix2 0 k)) w2 (fun c => b2 (ix2 0 c)) n 0)
    (logitAt (layerKat agg inv h wn wr b sc sh) w1 (fun k => b1 (ix2 0 k)) w2 (fun c => b2 (ix2 0 c)) n 1)
    (logitAt (layerKat agg inv h wn wr b sc sh) w1 (fun k => b1 (ix2 0 k)) w2 (fun c => b2 (ix2 0 c)) n j)

/-- The classifier head on top of a last layer given as an array. -/
def headRat {N o e : Nat} (h3 : A2 N o) (w1 : A2 o e) (b1 : A1 e) (w2 : A2 e 2) (b2 : A1 2) (n : Fin N) (j : Fin 2) : EReal :=
  lsmR (logitAt (fun n k => h3 (ix2 n k)) w1 (fun k => b1 (ix1 k)) w2 (fun c => b2 (ix1 c)) n 0)
    (logitAt (fun n k => h3 (ix2 n k)) w1 (fun k => b1 (ix1 k)) w2 (fun c => b2 (ix1 c)) n 1)
    (logitAt (fun n k => h3 (ix2 n k)) w1 (fun k => b1 (ix1 k)) w2 (fun c => b2 (ix1 c)) n j)

end Sage

end
-- ==== Proof.Algebra.lean ====
/-
  The algebra that identifies the two arrangements of a graph-convolution layer and of the two-class
  log-softmax, over the extended reals.

  Distributivity, cancellation and moving a factor across a sum fail at the infinities, so every law here is
  proved where all entries are finite: each entry is replaced by the real number it is, the coercion is pushed
  outwards through sums, products, differences and maxima, and the identity is then one of the real field.
-/
import proofs.«149779_j9311489098206_2_alg».proof.Proof.Spec
import Idealize.ShloMosaic.PureOps.Contract

noncomputable section

namespace Sage

open Idealize.ShloMosaic Idealize.ShloMosaic.ValueIdx

/-! ## Finite extended reals -/

/-- An extended real is finite when it is (the image of) a real number. -/
def IsFin (x : EReal) : Prop := ∃ r : ℝ, x = (r : EReal)

theorem isFin_coe (r : ℝ) : IsFin (r : EReal) := ⟨r, rfl⟩

theorem isFin_zero : IsFin (0 : EReal) := ⟨0, rfl⟩

theorem IsFin.ne_top {x : EReal} (h : IsFin x) : x ≠ ⊤ := by
  obtain ⟨r, rfl⟩ := h; exact EReal.coe_ne_top r

theorem IsFin.ne_bot {x : EReal} (h : IsFin x) : x ≠ ⊥ := by
  obtain ⟨r, rfl⟩ := h; exact EReal.coe_ne_bot r

/-- Finite means neither infinity. -/
theorem IsFin.of_ne {x : EReal} (h1 : x ≠ ⊤) (h2 : x ≠ ⊥) : IsFin x := by
  lift x to ℝ using ⟨h1, h2⟩; exact ⟨x, rfl⟩

theorem isFin_iff (x : EReal) : IsFin x ↔ x ≠ ⊤ ∧ x ≠ ⊥ :=
  ⟨fun h => ⟨h.ne_top, h.ne_bot⟩, fun h => IsFin.of_ne h.1 h.2⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

/-- The coercion commutes with the maximum. -/
theorem coe_max (a b : ℝ) : ((max a b : ℝ) : EReal) = max (a : EReal) (b : EReal) :=
  EReal.coe_strictMono.monotone.map_max

theorem isFin_max {x y : EReal} (hx : IsFin x) (hy : IsFin y) : IsFin (max x y) := by
  obtain ⟨a, rfl⟩ := hx; obtain ⟨b, rfl⟩ := hy; exact ⟨max a b, (coe_max a b).symm⟩

theorem isFin_max_zero {x : EReal} (hx : IsFin x) : IsFin (max x 0) := isFin_max hx isFin_zero

/-- The coercion of a finite real sum is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The exponential of a finite number is a positive real. -/
theorem exp_fin {x : EReal} (h : IsFin x) : ∃ r : ℝ, 0 < r ∧ Ideal.exp x = (r : EReal) := by
  obtain ⟨a, rfl⟩ := h; exact ⟨Real.exp a, Real.exp_pos a, rfl⟩

/-- The logarithm of a positive real is finite. -/
theorem log_fin {r : ℝ} (h : 0 < r) : Ideal.log (r : EReal) = ((Real.log r : ℝ) : EReal) := by
  rw [Ideal.log_coe, if_neg (not_le.mpr h)]

/-- The variance guard is a positive real. -/
theorem eps_pos : ∃ r : ℝ, 0 < r ∧ eps = (r : EReal) := by
  refine ⟨(10995116 : ℝ) * (2 : ℝ) ^ (-40 : Int), by positivity, ?_⟩
  simp [eps, Ideal.ofBits, Ideal.ieee, -EReal.coe_mul]

/-- The reciprocal root of a finite non-negative number plus the guard is a positive real. -/
theorem rsqrt_fin {v : EReal} (hv : IsFin v) (h0 : 0 ≤ v) : ∃ r : ℝ, 0 < r ∧ Ideal.rsqrt (v + eps) = (r : EReal) := by
  obtain ⟨a, rfl⟩ := hv
  obtain ⟨e, he, hE⟩ := eps_pos
  have ha : 0 ≤ a := by exact_mod_cast h0
  have hpos : 0 < a + e := by linarith
  refine ⟨(Real.sqrt (a + e))⁻¹, inv_pos.mpr (Real.sqrt_pos.mpr hpos), ?_⟩
  rw [hE, ← EReal.coe_add, Ideal.rsqrt_coe, if_neg (not_lt.mpr hpos.le), if_neg hpos.ne']

/-! ## One layer -/

/-- The folded-affine arrangement of a layer equals the textbook one where every entry is finite, the variance is
    non-negative, and the column, the rows, the scale and the shift are what the textbook parameters make them. -/
theorem layer_eq {N d o : Nat} (agg : A2 N d) (inv2 : A2 N 1) (inv1 : A1 N) (h : A2 N d) (wn wr : A2 d o)
    (b2 sc sh : A2 1 o) (b1 mean var gamma beta : A1 o) (n : Fin N) (j : Fin o)
    (hagg : ∀ i, IsFin (agg i)) (hinv : ∀ i, IsFin (inv1 i)) (hh : ∀ i, IsFin (h i))
    (hwn : ∀ i, IsFin (wn i)) (hwr : ∀ i, IsFin (wr i)) (hb : ∀ i, IsFin (b1 i))
    (hmean : ∀ i, IsFin (mean i)) (hvar : ∀ i, IsFin (var i)) (hgamma : ∀ i, IsFin (gamma i))
    (hbeta : ∀ i, IsFin (beta i)) (hvar0 : 0 ≤ var (ix1 j))
    (einv : inv2 (ix2 n 0) = inv1 (ix1 n)) (eb : b2 (ix2 0 j) = b1 (ix1 j))
    (esc : sc (ix2 0 j) = gamma (ix1 j) * Ideal.rsqrt (var (ix1 j) + eps))
    (esh : sh (ix2 0 j) = beta (ix1 j) - mean (ix1 j) * (gamma (ix1 j) * Ideal.rsqrt (var (ix1 j) + eps))) :
    layerKat agg inv2 h wn wr b2 sc sh n j = layerRat agg inv1 h wn wr b1 mean var gamma beta n j := by
  obtain ⟨rs, -, hrs⟩ := rsqrt_fin (hvar (ix1 j)) hvar0
  choose aggR hagg using hagg
  choose invR hinv using hinv
  choose hR hh using hh
  choose wnR hwn using hwn
  choose wrR hwr using hwr
  choose bR hb using hb
  choose meanR hmean using hmean
  choose gR hgamma using hgamma
  choose betaR hbeta using hbeta
  unfold layerKat layerRat
  rw [einv, eb, esc, esh, hrs]
  simp only [hagg, hinv, hh, hwn, hwr, hb, hmean, hgamma, hbeta]
  simp only [← EReal.coe_mul, ← coe_sum, ← EReal.coe_add, ← EReal.coe_sub]
  rw [← EReal.coe_zero, ← coe_max, ← coe_max]
  congr 2
  ring

/-- An entry of a layer in the textbook arrangement is finite where every entry that goes in is. -/
theorem layerRat_finite {N d o : Nat} (agg : A2 N d) (inv1 : A1 N) (h : A2 N d) (wn wr : A2 d o)
    (b1 mean var gamma beta : A1 o) (n : Fin N) (j : Fin o)
    (hagg : ∀ i, IsFin (agg i)) (hinv : ∀ i, IsFin (inv1 i)) (hh : ∀ i, IsFin (h i))
    (hwn : ∀ i, IsFin (wn i)) (hwr : ∀ i, IsFin (wr i)) (hb : ∀ i, IsFin (b1 i))
    (hmean : ∀ i, IsFin (mean i)) (hvar : ∀ i, IsFin (var i)) (hgamma : ∀ i, IsFin (gamma i))
    (hbeta : ∀ i, IsFin (beta i)) (hvar0 : 0 ≤ var (ix1 j)) :
    IsFin (layerRat agg inv1 h wn wr b1 mean var gamma beta n j) := by
  obtain ⟨rs, -, hrs⟩ := rsqrt_fin (hvar (ix1 j)) hvar0
  unfold layerRat
  rw [hrs]
  have s1 : IsFin (∑ k : Fin d, (agg (ix2 n k) * inv1 (ix1 n)) * wn (ix2 k j)) :=
    isFin_sum _ _ fun k _ => ((hagg _).mul (hinv _)).mul (hwn _)
  have s2 : IsFin (∑ k : Fin d, h (ix2 n k) * wr (ix2 k j)) := isFin_sum _ _ fun k _ => (hh _).mul (hwr _)
  exact isFin_max_zero
    ((((((s1.add (hb _)).add s2).sub (hmean _)).mul (isFin_coe rs)).mul (hgamma _)).add (hbeta _))

/-- The accumulating scatter of finite updates into a finite operand is finite at every element. -/
theorem scatterAdd_finite {s si su : Shape} (d : ScatterDims s si su) {w : Nat} (x : s.Idx → EReal) (idx : IVec si w)
    (upd : su.Idx → EReal) (hx : ∀ i, IsFin (x i)) (hupd : ∀ j, IsFin (upd j)) (i : s.Idx) :
    IsFin (Ideal.hostScatterAdd d x idx upd i) := by
  unfold Ideal.hostScatterAdd
  exact (hx i).add (isFin_sum _ _ fun j _ => hupd j)

/-- The same for the host operation at the ideal values, which is that scatter. -/
theorem host_scatterAdd_finite {φ : FTy} {s si su : Shape} (d : ScatterDims s si su) {w : Nat} (x : FVec Ideal s φ)
    (idx : IVec si w) (upd : FVec Ideal su φ) (hx : ∀ i, IsFin (x i)) (hupd : ∀ j, IsFin (upd j)) (i : s.Idx) :
    IsFin (Host.scatterAdd (F := Ideal) d x idx upd i) :=
  scatterAdd_finite d x idx upd hx hupd i

/-! ## The head -/

/-- The two spellings of the two-class log-softmax agree on finite logits. -/
theorem lsm_eq {l0 l1 x : EReal} (h0 : IsFin l0) (h1 : IsFin l1) (hx : IsFin x) : lsmK l0 l1 x = lsmR l0 l1 x := by
  obtain ⟨a, rfl⟩ := h0; obtain ⟨b, rfl⟩ := h1; obtain ⟨c, rfl⟩ := hx
  unfold lsmK lsmR
  simp only [← coe_max, ← EReal.coe_sub, Ideal.exp_coe, ← EReal.coe_add]
  rw [log_fin (add_pos (Real.exp_pos _) (Real.exp_pos _))]
  simp only [← EReal.coe_sub, ← EReal.coe_add]
  congr 1
  ring

theorem hiddenAt_finite {N d e : Nat} (h : Fin N → Fin d → EReal) (w1 : A2 d e) (b1 : Fin e → EReal)
    (hh : ∀ n k, IsFin (h n k)) (hw1 : ∀ i, IsFin (w1 i)) (hb1 : ∀ k, IsFin (b1 k)) (n : Fin N) (k : Fin e) :
    IsFin (hiddenAt h w1 b1 n k) := by
  unfold hiddenAt
  exact isFin_max_zero ((isFin_sum _ _ fun k' _ => (hh _ _).mul (hw1 _)).add (hb1 _))

theorem logitAt_finite {N d e : Nat} (h : Fin N → Fin d → EReal) (w1 : A2 d e) (b1 : Fin e → EReal) (w2 : A2 e 2)
    (b2 : Fin 2 → EReal) (hh : ∀ n k, IsFin (h n k)) (hw1 : ∀ i, IsFin (w1 i)) (hb1 : ∀ k, IsFin (b1 k))
    (hw2 : ∀ i, IsFin (w2 i)) (hb2 : ∀ c, IsFin (b2 c)) (n : Fin N) (j : Fin 2) :
    IsFin (logitAt h w1 b1 w2 b2 n j) := by
  unfold logitAt
  exact (isFin_sum _ _ fun k _ => (hiddenAt_finite h w1 b1 hh hw1 hb1 n k).mul (hw2 _)).add (hb2 _)

/-- The head on the folded-affine last layer is the head on the array that layer equals, where everything is finite. -/
theorem head_eq {N d o e : Nat} (agg : A2 N d) (inv : A2 N 1) (h : A2 N d) (wn wr : A2 d o) (b sc sh : A2 1 o)
    (h3 : A2 N o) (w1 : A2 o e) (b1' : A2 1 e) (b1 : A1 e) (w2 : A2 e 2) (b2' : A2 1 2) (b2 : A1 2)
    (n : Fin N) (j : Fin 2)
    (hK : ∀ n k, layerKat agg inv h wn wr b sc sh n k = h3 (ix2 n k))
    (hh3 : ∀ i, IsFin (h3 i)) (hw1 : ∀ i, IsFin (w1 i)) (hb1 : ∀ i, IsFin (b1 i))
    (hw2 : ∀ i, IsFin (w2 i)) (hb2 : ∀ i, IsFin (b2 i))
    (eb1 : ∀ k, b1' (ix2 0 k) = b1 (ix1 k)) (eb2 : ∀ c, b2' (ix2 0 c) = b2 (ix1 c)) :
    headKat agg inv h wn wr b sc sh w1 b1' w2 b2' n j = headRat h3 w1 b1 w2 b2 n j := by
  have e1 : layerKat agg inv h wn wr b sc sh = fun n k => h3 (ix2 n k) := funext fun n => funext fun k => hK n k
  have e2 : (fun k => b1' (ix2 0 k)) = fun k => b1 (ix1 k) := funext eb1
  have e3 : (fun c => b2' (ix2 0 c)) = fun c => b2 (ix1 c) := funext eb2
  have hl : ∀ c, IsFin (logitAt (fun n k => h3 (ix2 n k)) w1 (fun k => b1 (ix1 k)) w2 (fun c => b2 (ix1 c)) n c) :=
    fun c => logitAt_finite _ _ _ _ _ (fun n k => hh3 _) hw1 (fun k => hb1 _) hw2 (fun c => hb2 _) n c
  unfold headKat headRat
  rw [e1, e2, e3]
  exact lsm_eq (hl 0) (hl 1) (hl j)

end Sage

end
-- ==== Proof.RefAgg.lean ====
/-
  The neighbour sum of the reference, as a function of the feature array it sums.

  For every edge the source node's feature row is gathered (a negative source index wrapped once by the node count)
  and added into the destination node's row of an all-zero array; an edge whose destination is out of range adds
  nothing. The three layers do this with the same operations: at the 128-wide input features, and at the 256-wide
  outputs of the first and of the second layer. The sum of finite rows is finite, and so is the reciprocal of the
  clamped in-degree.
-/
import proofs.«149779_j9311489098206_2_alg».proof.Proof.RefReadP
import proofs.«149779_j9311489098206_2_alg».proof.Proof.Algebra

set_option maxRecDepth 16384

noncomputable section

namespace Cert.ReferenceIdeal.RefAgg

open Cert.ReferenceIdeal Cert.ReferenceIdeal.Gen Cert.ReferenceIdeal.ReadP Idealize.ShloMosaic Sage

/-- Rows of `h` (128 wide) summed over the in-edges of each node. -/
def agg128 (h : (⟨S50000x128, .f32⟩ : BufTy).Contents (Elt Ideal)) (x1 : (⟨S2x800000, .i32⟩ : BufTy).Contents (Elt Ideal)) : (⟨S50000x128, .f32⟩ : BufTy).Contents (Elt Ideal) :=
  Host.scatterAdd (F := Ideal) (φ := .f32) scatter_S50000x128_S800000x1_S800000x128_1_0_0_1 (val_main_v31 (F := Ideal)) (val_main_v32 (F := Ideal) x1)
    (Host.gather (α := EReal) gather_S50000x128_S800000x1_S800000x128_1_0_n_n_0_1_1128 h (val_main_v29 (F := Ideal) x1))

/-- Rows of `h` (256 wide) summed over the in-edges of each node. -/
def agg256 (h : (⟨S50000x256, .f32⟩ : BufTy).Contents (Elt Ideal)) (x1 : (⟨S2x800000, .i32⟩ : BufTy).Contents (Elt Ideal)) : (⟨S50000x256, .f32⟩ : BufTy).Contents (Elt Ideal) :=
  Host.scatterAdd (F := Ideal) (φ := .f32) scatter_S50000x256_S800000x1_S800000x256_1_0_0_1 (val_main_v74 (F := Ideal)) (val_main_v75 (F := Ideal) x1)
    (Host.gather (α := EReal) gather_S50000x256_S800000x1_S800000x256_1_0_n_n_0_1_1256 h (val_main_v72 (F := Ideal) x1))

/-- The first layer sums the input features. -/
theorem v33_eq (x0 : (⟨S50000x128, .f32⟩ : BufTy).Contents (Elt Ideal)) (x1 : (⟨S2x800000, .i32⟩ : BufTy).Contents (Elt Ideal)) :
    val_main_v33 (F := Ideal) x0 x1 = agg128 x0 x1 := rfl

/-- The second layer sums the first layer's output. -/
theorem v76_eq (x0 : (⟨S50000x128, .f32⟩ : BufTy).Contents (Elt Ideal)) (x1 : (⟨S2x800000, .i32⟩ : BufTy).Contents (Elt Ideal)) (x2 x3 : (⟨S128x256, .f32⟩ : BufTy).Contents (Elt Ideal)) (x4 : (⟨S256, .f32⟩ : BufTy).Contents (Elt Ideal)) (x8 x9 x10 x11 : (⟨S3x256, .f32⟩ : BufTy).Contents (Elt Ideal)) :
    val_main_v76 (F := Ideal) x0 x1 x2 x3 x4 x8 x9 x10 x11 = agg256 (val_main_v66 (F := Ideal) x0 x1 x2 x3 x4 x8 x9 x10 x11) x1 := rfl

/-- The third layer sums the second layer's output. -/
theorem v119_eq (x0 : (⟨S50000x128, .f32⟩ : BufTy).Contents (Elt Ideal)) (x1 : (⟨S2x800000, .i32⟩ : BufTy).Contents (Elt Ideal)) (x2 x3 : (⟨S128x256, .f32⟩ : BufTy).Contents (Elt Ideal)) (x4 : (⟨S256, .f32⟩ : BufTy).Contents (Elt Ideal)) (x5 x6 : (⟨S2x256x256, .f32⟩ : BufTy).Contents (Elt Ideal)) (x7 : (⟨S2x256, .f32⟩ : BufTy).Contents (Elt Ideal)) (x8 x9 x10 x11 : (⟨S3x256, .f32⟩ : BufTy).Contents (Elt Ideal)) :
    val_main_v119 (F := Ideal) x0 x1 x2 x3 x4 x5 x6 x7 x8 x9 x10 x11 = agg256 (val_main_v109 (F := Ideal) x0 x1 x2 x3 x4 x5 x6 x7 x8 x9 x10 x11) x1 := rfl

/-- A neighbour sum of finite rows is finite. -/
theorem agg128_fin (h : (⟨S50000x128, .f32⟩ : BufTy).Contents (Elt Ideal)) (x1 : (⟨S2x800000, .i32⟩ : BufTy).Contents (Elt Ideal)) (hh : ∀ i, IsFin (h i)) (i) :
    IsFin (agg128 h x1 i) :=
  host_scatterAdd_finite (φ := .f32) _ _ _ _ (fun _ => ⟨0, by
    show Ideal.ofBits .f32 0x00000000#32 = _
    rw [Ideal.ofBits_zero_f32]; rfl⟩) (fun j => hh _) i

theorem agg256_fin (h : (⟨S50000x256, .f32⟩ : BufTy).Contents (Elt Ideal)) (x1 : (⟨S2x800000, .i32⟩ : BufTy).Contents (Elt Ideal)) (hh : ∀ i, IsFin (h i)) (i) :
    IsFin (agg256 h x1 i) :=
  host_scatterAdd_finite (φ := .f32) _ _ _ _ (fun _ => ⟨0, by
    show Ideal.ofBits .f32 0x00000000#32 = _
    rw [Ideal.ofBits_zero_f32]; rfl⟩) (fun j => hh _) i

end Cert.ReferenceIdeal.RefAgg

end
-- ==== Proof.KHost0.lean ====
/-
  The first stretch of host operations of the first program, read back over the extended reals.

  Before the first region the program slices the edge list into its source and destination rows, counts the
  in-degree of every node and takes the reciprocal of the count clamped below by one, sums the input features over
  the in-edges of each node, slices the stacked weights, biases and normalisation parameters by layer, and folds
  the first layer's normalisation into a scale and a shift. Each of these arrays is the same composition of
  operations as a stage of the second program; a change of number format is the identity on extended reals, so an
  array stored in the narrow format equals the wide array it was converted from.
-/
import proofs.«149779_j9311489098206_2_alg».proof.Proof.Gen.KernelIdeal.Frame
import proofs.«149779_j9311489098206_2_alg».proof.Proof.RefReadP
import proofs.«149779_j9311489098206_2_alg».proof.Proof.Spec
import proofs.«149779_j9311489098206_2_alg».proof.Proof.RefAgg
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Idealize.ShloMosaic.ValueIdx Idealize.SL.Sem

variable (m : (ℓ : Loc nD τ sig) → Buf (Elt Ideal) ℓ) (ρ : Dev nD → PrngReg) (c : Dev nD)

/-- After the first stretch: the source node of every edge. -/
theorem W1_v1 : W1 (F := Ideal) m ρ c (Proc.devRef .tc main_v1)
    = Cert.ReferenceIdeal.ReadP.val_main_v1 (F := Ideal) (m ((c : Thread nD τ).loc main_arg1)) := by
  show StableHlo.after hostOps0 (W0 m ρ c) (Proc.devRef .tc main_v1) = _
  dsimp only [hostOps0]
  after_results_simp
  rfl

/-- After the first stretch: the destination node of every edge. -/
theorem W1_v3 : W1 (F := Ideal) m ρ c (Proc.devRef .tc main_v3)
    = Cert.ReferenceIdeal.ReadP.val_main_v3 (F := Ideal) (m ((c : Thread nD τ).loc main_arg1)) := by
  show StableHlo.after hostOps0 (W0 m ρ c) (Proc.devRef .tc main_v3) = _
  dsimp only [hostOps0]
  after_results_simp
  rfl

/-- After the first stretch: the input features summed over the in-edges of each node. -/
theorem W1_v44 : W1 (F := Ideal) m ρ c (Proc.devRef .tc main_v44)
    = Cert.ReferenceIdeal.ReadP.val_main_v33 (F := Ideal) (m ((c : Thread nD τ).loc main_arg0)) (m ((c : Thread nD τ).loc main_arg1)) := by
  show StableHlo.after hostOps0 (W0 m ρ c) (Proc.devRef .tc main_v44) = _
  dsimp only [hostOps0]
  after_results_simp
  rfl

/-- After the first stretch: the input features. -/
theorem W1_v33 : W1 (F := Ideal) m ρ c (Proc.devRef .tc main_v33)
    = (m ((c : Thread nD τ).loc main_arg0)) := by
  show StableHlo.after hostOps0 (W0 m ρ c) (Proc.devRef .tc main_v33) = _
  dsimp only [hostOps0]
  after_results_simp
  rfl

/-- After the first stretch: the first layer's neighbour weights. -/
theorem W1_v25 : W1 (F := Ideal) m ρ c (Proc.devRef .tc main_v25)
    = (m ((c : Thread nD τ).loc main_arg2)) := by
  show StableHlo.after hostOps0 (W0 m ρ c) (Proc.devRef .tc main_v25) = _
  dsimp only [hostOps0]
  after_results_simp
  rfl

/-- After the first stretch: the first layer's root weights. -/
theorem W1_v28 : W1 (F := Ideal) m ρ c (Proc.devRef .tc main_v28)
    = (m ((c : Thread nD τ).loc main_arg3)) := by
  show StableHlo.after hostOps0 (W0 m ρ c) (Proc.devRef .tc main_v28) = _
  dsimp only [hostOps0]
  after_results_simp
  rfl

/-- After the first stretch: the hidden layer's weights of the classifier. -/
theorem W1_v31 : W1 (F := Ideal) m ρ c (Proc.devRef .tc main_v31)
    = (m ((c : Thread nD τ).loc main_arg12)) := by
  show StableHlo.after hostOps0 (W0 m ρ c) (Proc.devRef .tc main_v31) = _
  dsimp only [hostOps0]
  after_results_simp
  rfl

/-- After the first stretch: the output layer's weights of the classifier. -/
theorem W1_v32 : W1 (F := Ideal) m ρ c (Proc.devRef .tc main_v32)
    = (m ((c : Thread nD τ).loc main_arg14)) := by
  show StableHlo.after hostOps0 (W0 m ρ c) (Proc.devRef .tc main_v32) = _
  dsimp only [hostOps0]
  after_results_simp
  rfl

/-- After the first stretch: the second layer's neighbour weights. -/
theorem W1_v26 : W1 (F := Ideal) m ρ c (Proc.devRef .tc main_v26)
    = Cert.ReferenceIdeal.ReadP.val_main_v13 (F := Ideal) (m ((c : Thread nD τ).loc main_arg5)) := by
  show StableHlo.after hostOps0 (W0 m ρ c) (Proc.devRef .tc main_v26) = _
  dsimp only [hostOps0]
  after_results_simp
  rfl

/-- After the first stretch: the third layer's neighbour weights. -/
theorem W1_v27 : W1 (F := Ideal) m ρ c (Proc.devRef .tc main_v27)
    = Cert.ReferenceIdeal.ReadP.val_main_v15 (F := Ideal) (m ((c : Thread nD τ).loc main_arg5)) := by
  show StableHlo.after hostOps0 (W0 m ρ c) (Proc.devRef .tc main_v27) = _
  dsimp only [hostOps0]
  after_results_simp
  rfl

/-- After the first stretch: the second layer's root weights. -/
theorem W1_v29 : W1 (F := Ideal) m ρ c (Proc.devRef .tc main_v29)
    = Cert.ReferenceIdeal.ReadP.val_main_v17 (F := Ideal) (m ((c : Thread nD τ).loc main_arg6)) := by
  show StableHlo.after hostOps0 (W0 m ρ c) (Proc.devRef .tc main_v29) = _
  dsimp only [hostOps0]
  after_results_simp
  rfl

/-- After the first stretch: the third layer's root weights. -/
theorem W1_v30 : W1 (F := Ideal) m ρ c (Proc.devRef .tc main_v30)
    = Cert.ReferenceIdeal.ReadP.val_main_v19 (F := Ideal) (m ((c : Thread nD τ).loc main_arg6)) := by
  show StableHlo.after hostOps0 (W0 m ρ c) (Proc.devRef .tc main_v30) = _
  dsimp only [hostOps0]
  after_results_simp
  rfl

/-- After the first stretch: the second layer's bias. -/
theorem W1_v22 : W1 (F := Ideal) m ρ c (Proc.devRef .tc main_v22)
    = Cert.ReferenceIdeal.ReadP.val_main_v21 (F := Ideal) (m ((c : Thread nD τ).loc main_arg7)) := by
  show StableHlo.after hostOps0 (W0 m ρ c) (Proc.devRef .tc main_v22) = _
  dsimp only [hostOps0]
  after_results_simp
  rfl

/-- After the first stretch: the third layer's bias. -/
theorem W1_v24 : W1 (F := Ideal) m ρ c (Proc.devRef .tc main_v24)
    = Cert.ReferenceIdeal.ReadP.val_main_v23 (F := Ideal) (m ((c : Thread nD τ).loc main_arg7)) := by
  show StableHlo.after hostOps0 (W0 m ρ c) (Proc.devRef .tc main_v24) = _
  dsimp only [hostOps0]
  after_results_simp
  rfl

end Cert.KernelIdeal.KHost

end
-- ==== Proof.KHost0P.lean ====
/-
  The first stretch of host operations of the first program, read at an index.

  A vector reshaped to one row (or one column) holds, at column (row) `j`, the vector's entry `j`. Read this way,
  the reciprocal clamped in-degree, the first layer's bias, and its folded scale `gamma · rsqrt (var + eps)` and
  shift `beta - mean · scale` are the second program's slices of the same parameters, combined entry by entry.
-/
import proofs.«149779_j9311489098206_2_alg».proof.Proof.Gen.KernelIdeal.Frame
import proofs.«149779_j9311489098206_2_alg».proof.Proof.RefReadP
import proofs.«149779_j9311489098206_2_alg».proof.Proof.Spec
import proofs.«149779_j9311489098206_2_alg».proof.Proof.RefAgg
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Idealize.ShloMosaic.ValueIdx Idealize.SL.Sem

variable (m : (ℓ : Loc nD τ sig) → Buf (Elt Ideal) ℓ) (ρ : Dev nD → PrngReg) (c : Dev nD)

/-- A vector reshaped to a single row, read at column `j`. -/
private theorem row_apply {α : Type} {n : Nat} (x : (⟨1, ![n]⟩ : Shape).Idx → α)
    (h : (⟨1, ![n]⟩ : Shape).ShapeCasts ⟨2, ![1, n]⟩) (j : Fin n) :
    shapeCast (⟨2, ![1, n]⟩ : Shape) x h (ix2 0 j) = x (ix1 j) :=
  shapeCast_apply x h (ix2 0 j) (ix1 j) (by
    rw [Shape.rowMajor_val_two, Shape.rowMajor_val_one]
    show j.val = 0 * n + j.val
    omega)

/-- A vector reshaped to a single column, read at row `i`. -/
private theorem col_apply {α : Type} {n : Nat} (x : (⟨1, ![n]⟩ : Shape).Idx → α)
    (h : (⟨1, ![n]⟩ : Shape).ShapeCasts ⟨2, ![n, 1]⟩) (i : Fin n) :
    shapeCast (⟨2, ![n, 1]⟩ : Shape) x h (ix2 i 0) = x (ix1 i) :=
  shapeCast_apply x h (ix2 i 0) (ix1 i) (by
    rw [Shape.rowMajor_val_two, Shape.rowMajor_val_one]
    show i.val = i.val * 1 + 0
    omega)

/-- After the first stretch: the first layer's bias as a row. -/
theorem W1_v59 (j : Fin 256) : W1 (F := Ideal) m ρ c (Proc.devRef .tc main_v59) (ix2 0 j)
    = (m ((c : Thread nD τ).loc main_arg4)) (ix1 j) := by
  show StableHlo.after hostOps0 (W0 m ρ c) (Proc.devRef .tc main_v59) (ix2 0 j) = _
  dsimp only [hostOps0]
  after_results_simp
  exact row_apply _ _ j

/-- After the first stretch: the reciprocal of the clamped in-degree as a column. -/
theorem W1_v12 (n : Fin 50000) : W1 (F := Ideal) m ρ c (Proc.devRef .tc main_v12) (ix2 n 0)
    = Cert.ReferenceIdeal.ReadP.val_main_v11 (F := Ideal) (m ((c : Thread nD τ).loc main_arg1)) (ix1 n) := by
  show StableHlo.after hostOps0 (W0 m ρ c) (Proc.devRef .tc main_v12) (ix2 n 0) = _
  dsimp only [hostOps0]
  after_results_simp
  refine (col_apply _ _ n).trans ?_
  rfl

/-- After the first stretch: the first layer's scale, `gamma · rsqrt (var + eps)`, as a row. -/
theorem W1_v60 (j : Fin 256) : W1 (F := Ideal) m ρ c (Proc.devRef .tc main_v60) (ix2 0 j)
    = Cert.ReferenceIdeal.ReadP.val_main_v57 (F := Ideal) (m ((c : Thread nD τ).loc main_arg8)) (ix1 j)
      * Ideal.rsqrt (Cert.ReferenceIdeal.ReadP.val_main_v49 (F := Ideal) (m ((c : Thread nD τ).loc main_arg11)) (ix1 j) + Sage.eps) := by
  show StableHlo.after hostOps0 (W0 m ρ c) (Proc.devRef .tc main_v60) (ix2 0 j) = _
  dsimp only [hostOps0]
  after_results_simp
  refine (row_apply _ _ j).trans ?_
  rfl

/-- After the first stretch: the first layer's shift, `beta - mean · scale`, as a row. -/
theorem W1_v61 (j : Fin 256) : W1 (F := Ideal) m ρ c (Proc.devRef .tc main_v61) (ix2 0 j)
    = Cert.ReferenceIdeal.ReadP.val_main_v62 (F := Ideal) (m ((c : Thread nD τ).loc main_arg9)) (ix1 j)
      - Cert.ReferenceIdeal.ReadP.val_main_v44 (F := Ideal) (m ((c : Thread nD τ).loc main_arg10)) (ix1 j)
        * (Cert.ReferenceIdeal.ReadP.val_main_v57 (F := Ideal) (m ((c : Thread nD τ).loc main_arg8)) (ix1 j)
          * Ideal.rsqrt (Cert.ReferenceIdeal.ReadP.val_main_v49 (F := Ideal) (m ((c : Thread nD τ).loc main_arg11)) (ix1 j) + Sage.eps)) := by
  show StableHlo.after hostOps0 (W0 m ρ c) (Proc.devRef .tc main_v61) (ix2 0 j) = _
  dsimp only [hostOps0]
  after_results_simp
  refine (row_apply _ _ j).trans ?_
  rfl

end Cert.KernelIdeal.KHost

end
-- ==== Proof.KHost0A.lean ====
/-
  The first stretch of host operations of the first program does not write its arguments.

  No operation of the stretch has an argument array as its result, so after the stretch each of the normalisation
  parameters and of the classifier's biases holds what the launch memory held.
-/
import proofs.«149779_j9311489098206_2_alg».proof.Proof.Gen.KernelIdeal.Frame
import proofs.«149779_j9311489098206_2_alg».proof.Proof.RefReadP
import proofs.«149779_j9311489098206_2_alg».proof.Proof.Spec
import proofs.«149779_j9311489098206_2_alg».proof.Proof.RefAgg
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Idealize.ShloMosaic.ValueIdx Idealize.SL.Sem

variable (m : (ℓ : Loc nD τ sig) → Buf (Elt Ideal) ℓ) (ρ : Dev nD → PrngReg) (c : Dev nD)

/-- After the first stretch argument 8 holds its launch contents. -/
theorem W1_arg8 : W1 (F := Ideal) m ρ c (Proc.devRef .tc main_arg8) = m ((c : Thread nD τ).loc main_arg8) :=
  (StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- After the first stretch argument 9 holds its launch contents. -/
theorem W1_arg9 : W1 (F := Ideal) m ρ c (Proc.devRef .tc main_arg9) = m ((c : Thread nD τ).loc main_arg9) :=
  (StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- After the first stretch argument 10 holds its launch contents. -/
theorem W1_arg10 : W1 (F := Ideal) m ρ c (Proc.devRef .tc main_arg10) = m ((c : Thread nD τ).loc main_arg10) :=
  (StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- After the first stretch argument 11 holds its launch contents. -/
theorem W1_arg11 : W1 (F := Ideal) m ρ c (Proc.devRef .tc main_arg11) = m ((c : Thread nD τ).loc main_arg11) :=
  (StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- After the first stretch argument 13 holds its launch contents. -/
theorem W1_arg13 : W1 (F := Ideal) m ρ c (Proc.devRef .tc main_arg13) = m ((c : Thread nD τ).loc main_arg13) :=
  (StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- After the first stretch argument 15 holds its launch contents. -/
theorem W1_arg15 : W1 (F := Ideal) m ρ c (Proc.devRef .tc main_arg15) = m ((c : Thread nD τ).loc main_arg15) :=
  (StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

end Cert.KernelIdeal.KHost

end
-- ==== Proof.KHost1.lean ====
/-
  The second stretch of host operations of the first program, read back for any contents at its entry.

  Between the first and the second region the program sums the first layer's output over the in-edges of each
  node (the same gather and scatter-add as the second program's, the change of number format being the identity on
  extended reals), and folds the second layer's normalisation into a scale `gamma · rsqrt (var + eps)` and a shift
  `beta - mean · scale`, each laid out as one row beside the layer's bias. The stretch writes only its own results:
  every buffer the later regions still read holds what it held at entry.
-/
import proofs.«149779_j9311489098206_2_alg».proof.Proof.Gen.KernelIdeal.Frame
import proofs.«149779_j9311489098206_2_alg».proof.Proof.RefReadP
import proofs.«149779_j9311489098206_2_alg».proof.Proof.Spec
import proofs.«149779_j9311489098206_2_alg».proof.Proof.RefAgg
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Idealize.ShloMosaic.ValueIdx Idealize.SL.Sem

/-- A vector reshaped to a single row, read at column `j`. -/
private theorem row_apply {α : Type} {n : Nat} (x : (⟨1, ![n]⟩ : Shape).Idx → α)
    (h : (⟨1, ![n]⟩ : Shape).ShapeCasts ⟨2, ![1, n]⟩) (j : Fin n) :
    shapeCast (⟨2, ![1, n]⟩ : Shape) x h (ix2 0 j) = x (ix1 j) :=
  shapeCast_apply x h (ix2 0 j) (ix1 j) (by
    rw [Shape.rowMajor_val_two, Shape.rowMajor_val_one]
    show j.val = 0 * n + j.val
    omega)

variable (Vv : Valuation τ sig (Elt Ideal))
variable (H : (⟨S50000x256, .f32⟩ : BufTy).Contents (Elt Ideal)) (a1 : (⟨S2x800000, .i32⟩ : BufTy).Contents (Elt Ideal)) (a7 : (⟨S2x256, .f32⟩ : BufTy).Contents (Elt Ideal))
  (a8 a9 a10 a11 : (⟨S3x256, .f32⟩ : BufTy).Contents (Elt Ideal))

/-- The first layer's output summed over the in-edges of each node. -/
theorem after1_v73 (h62 : Vv (Proc.devRef .tc main_v62) = H)
    (hv1 : Vv (Proc.devRef .tc main_v1) = Cert.ReferenceIdeal.ReadP.val_main_v1 (F := Ideal) a1)
    (hv3 : Vv (Proc.devRef .tc main_v3) = Cert.ReferenceIdeal.ReadP.val_main_v3 (F := Ideal) a1) :
    StableHlo.after hostOps1 Vv (Proc.devRef .tc main_v73) = Cert.ReferenceIdeal.RefAgg.agg256 H a1 := by
  dsimp only [hostOps1]
  after_results_simp
  rw [h62, hv1, hv3]
  rfl

/-- The second layer's bias as a row. -/
theorem after1_v88 (hv22 : Vv (Proc.devRef .tc main_v22) = Cert.ReferenceIdeal.ReadP.val_main_v21 (F := Ideal) a7) (j : Fin 256) :
    StableHlo.after hostOps1 Vv (Proc.devRef .tc main_v88) (ix2 0 j) = Cert.ReferenceIdeal.ReadP.val_main_v21 (F := Ideal) a7 (ix1 j) := by
  dsimp only [hostOps1]
  after_results_simp
  rw [hv22]
  exact row_apply _ _ j

/-- The second layer's scale, `gamma · rsqrt (var + eps)`, as a row. -/
theorem after1_v89 (ha8 : Vv (Proc.devRef .tc main_arg8) = a8) (ha11 : Vv (Proc.devRef .tc main_arg11) = a11) (j : Fin 256) :
    StableHlo.after hostOps1 Vv (Proc.devRef .tc main_v89) (ix2 0 j)
      = Cert.ReferenceIdeal.ReadP.val_main_v100 (F := Ideal) a8 (ix1 j) * Ideal.rsqrt (Cert.ReferenceIdeal.ReadP.val_main_v92 (F := Ideal) a11 (ix1 j) + Sage.eps) := by
  dsimp only [hostOps1]
  after_results_simp
  rw [ha8, ha11]
  refine (row_apply _ _ j).trans ?_
  rfl

/-- The second layer's shift, `beta - mean · scale`, as a row. -/
theorem after1_v90 (ha8 : Vv (Proc.devRef .tc main_arg8) = a8) (ha9 : Vv (Proc.devRef .tc main_arg9) = a9)
    (ha10 : Vv (Proc.devRef .tc main_arg10) = a10) (ha11 : Vv (Proc.devRef .tc main_arg11) = a11) (j : Fin 256) :
    StableHlo.after hostOps1 Vv (Proc.devRef .tc main_v90) (ix2 0 j)
      = Cert.ReferenceIdeal.ReadP.val_main_v105 (F := Ideal) a9 (ix1 j) - Cert.ReferenceIdeal.ReadP.val_main_v87 (F := Ideal) a10 (ix1 j)
        * (Cert.ReferenceIdeal.ReadP.val_main_v100 (F := Ideal) a8 (ix1 j) * Ideal.rsqrt (Cert.ReferenceIdeal.ReadP.val_main_v92 (F := Ideal) a11 (ix1 j) + Sage.eps)) := by
  dsimp only [hostOps1]
  after_results_simp
  rw [ha8, ha9, ha10, ha11]
  refine (row_apply _ _ j).trans ?_
  rfl

/-! ## Buffers the stretch does not write hold what they held at its entry -/

theorem after1_v12 : StableHlo.after hostOps1 Vv (Proc.devRef .tc main_v12) = Vv (Proc.devRef .tc main_v12) :=
  StableHlo.after_of_forall_not_mem (b := Proc.devRef .tc main_v12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_v62 : StableHlo.after hostOps1 Vv (Proc.devRef .tc main_v62) = Vv (Proc.devRef .tc main_v62) :=
  StableHlo.after_of_forall_not_mem (b := Proc.devRef .tc main_v62) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_v26 : StableHlo.after hostOps1 Vv (Proc.devRef .tc main_v26) = Vv (Proc.devRef .tc main_v26) :=
  StableHlo.after_of_forall_not_mem (b := Proc.devRef .tc main_v26) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_v29 : StableHlo.after hostOps1 Vv (Proc.devRef .tc main_v29) = Vv (Proc.devRef .tc main_v29) :=
  StableHlo.after_of_forall_not_mem (b := Proc.devRef .tc main_v29) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_v27 : StableHlo.after hostOps1 Vv (Proc.devRef .tc main_v27) = Vv (Proc.devRef .tc main_v27) :=
  StableHlo.after_of_forall_not_mem (b := Proc.devRef .tc main_v27) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_v30 : StableHlo.after hostOps1 Vv (Proc.devRef .tc main_v30) = Vv (Proc.devRef .tc main_v30) :=
  StableHlo.after_of_forall_not_mem (b := Proc.devRef .tc main_v30) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_v24 : StableHlo.after hostOps1 Vv (Proc.devRef .tc main_v24) = Vv (Proc.devRef .tc main_v24) :=
  StableHlo.after_of_forall_not_mem (b := Proc.devRef .tc main_v24) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_v31 : StableHlo.after hostOps1 Vv (Proc.devRef .tc main_v31) = Vv (Proc.devRef .tc main_v31) :=
  StableHlo.after_of_forall_not_mem (b := Proc.devRef .tc main_v31) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_v32 : StableHlo.after hostOps1 Vv (Proc.devRef .tc main_v32) = Vv (Proc.devRef .tc main_v32) :=
  StableHlo.after_of_forall_not_mem (b := Proc.devRef .tc main_v32) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_v1 : StableHlo.after hostOps1 Vv (Proc.devRef .tc main_v1) = Vv (Proc.devRef .tc main_v1) :=
  StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_v3 : StableHlo.after hostOps1 Vv (Proc.devRef .tc main_v3) = Vv (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_arg8 : StableHlo.after hostOps1 Vv (Proc.devRef .tc main_arg8) = Vv (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_arg9 : StableHlo.after hostOps1 Vv (Proc.devRef .tc main_arg9) = Vv (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_arg10 : StableHlo.after hostOps1 Vv (Proc.devRef .tc main_arg10) = Vv (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_arg11 : StableHlo.after hostOps1 Vv (Proc.devRef .tc main_arg11) = Vv (Proc.devRef .tc main_arg11) :=
  StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_arg12 : StableHlo.after hostOps1 Vv (Proc.devRef .tc main_arg12) = Vv (Proc.devRef .tc main_arg12) :=
  StableHlo.after_of_forall_not_mem (b := Proc.devRef .tc main_arg12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_arg13 : StableHlo.after hostOps1 Vv (Proc.devRef .tc main_arg13) = Vv (Proc.devRef .tc main_arg13) :=
  StableHlo.after_of_forall_not_mem (b := Proc.devRef .tc main_arg13) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_arg14 : StableHlo.after hostOps1 Vv (Proc.devRef .tc main_arg14) = Vv (Proc.devRef .tc main_arg14) :=
  StableHlo.after_of_forall_not_mem (b := Proc.devRef .tc main_arg14) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after1_arg15 : StableHlo.after hostOps1 Vv (Proc.devRef .tc main_arg15) = Vv (Proc.devRef .tc main_arg15) :=
  StableHlo.after_of_forall_not_mem (b := Proc.devRef .tc main_arg15) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KHost

end
-- ==== Proof.KHost2.lean ====
/-
  The third stretch of host operations of the first program, read back for any contents at its entry.

  Between the second and the third region the program sums the second layer's output over the in-edges of each
  node, folds the third layer's normalisation into a scale `gamma · rsqrt (var + eps)` and a shift
  `beta - mean · scale`, each laid out as one row beside the layer's bias, and lays the classifier's two bias
  vectors out as rows. The stretch writes only its own results: every buffer the last region still reads holds
  what it held at entry.
-/
import proofs.«149779_j9311489098206_2_alg».proof.Proof.Gen.KernelIdeal.Frame
import proofs.«149779_j9311489098206_2_alg».proof.Proof.RefReadP
import proofs.«149779_j9311489098206_2_alg».proof.Proof.Spec
import proofs.«149779_j9311489098206_2_alg».proof.Proof.RefAgg
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo
open Idealize.ShloMosaic.ValueIdx Idealize.SL.Sem

/-- A vector reshaped to a single row, read at column `j`. -/
private theorem row_apply {α : Type} {n : Nat} (x : (⟨1, ![n]⟩ : Shape).Idx → α)
    (h : (⟨1, ![n]⟩ : Shape).ShapeCasts ⟨2, ![1, n]⟩) (j : Fin n) :
    shapeCast (⟨2, ![1, n]⟩ : Shape) x h (ix2 0 j) = x (ix1 j) :=
  shapeCast_apply x h (ix2 0 j) (ix1 j) (by
    rw [Shape.rowMajor_val_two, Shape.rowMajor_val_one]
    show j.val = 0 * n + j.val
    omega)

variable (Vv : Valuation τ sig (Elt Ideal))
variable (H' : (⟨S50000x256, .f32⟩ : BufTy).Contents (Elt Ideal)) (a1 : (⟨S2x800000, .i32⟩ : BufTy).Contents (Elt Ideal)) (a7 : (⟨S2x256, .f32⟩ : BufTy).Contents (Elt Ideal))
  (a8 a9 a10 a11 : (⟨S3x256, .f32⟩ : BufTy).Contents (Elt Ideal)) (a13 : (⟨S128, .f32⟩ : BufTy).Contents (Elt Ideal)) (a15 : (⟨S2, .f32⟩ : BufTy).Contents (Elt Ideal))

/-- The second layer's output summed over the in-edges of each node. -/
theorem after2_v102 (h91 : Vv (Proc.devRef .tc main_v91) = H')
    (hv1 : Vv (Proc.devRef .tc main_v1) = Cert.ReferenceIdeal.ReadP.val_main_v1 (F := Ideal) a1)
    (hv3 : Vv (Proc.devRef .tc main_v3) = Cert.ReferenceIdeal.ReadP.val_main_v3 (F := Ideal) a1) :
    StableHlo.after hostOps2 Vv (Proc.devRef .tc main_v102) = Cert.ReferenceIdeal.RefAgg.agg256 H' a1 := by
  dsimp only [hostOps2]
  after_results_simp
  rw [h91, hv1, hv3]
  rfl

/-- The third layer's bias as a row. -/
theorem after2_v117 (hv24 : Vv (Proc.devRef .tc main_v24) = Cert.ReferenceIdeal.ReadP.val_main_v23 (F := Ideal) a7) (j : Fin 256) :
    StableHlo.after hostOps2 Vv (Proc.devRef .tc main_v117) (ix2 0 j) = Cert.ReferenceIdeal.ReadP.val_main_v23 (F := Ideal) a7 (ix1 j) := by
  dsimp only [hostOps2]
  after_results_simp
  rw [hv24]
  exact row_apply _ _ j

/-- The third layer's scale, `gamma · rsqrt (var + eps)`, as a row. -/
theorem after2_v118 (ha8 : Vv (Proc.devRef .tc main_arg8) = a8) (ha11 : Vv (Proc.devRef .tc main_arg11) = a11) (j : Fin 256) :
    StableHlo.after hostOps2 Vv (Proc.devRef .tc main_v118) (ix2 0 j)
      = Cert.ReferenceIdeal.ReadP.val_main_v143 (F := Ideal) a8 (ix1 j) * Ideal.rsqrt (Cert.ReferenceIdeal.ReadP.val_main_v135 (F := Ideal) a11 (ix1 j) + Sage.eps) := by
  dsimp only [hostOps2]
  after_results_simp
  rw [ha8, ha11]
  refine (row_apply _ _ j).trans ?_
  rfl

/-- The third layer's shift, `beta - mean · scale`, as a row. -/
theorem after2_v119 (ha8 : Vv (Proc.devRef .tc main_arg8) = a8) (ha9 : Vv (Proc.devRef .tc main_arg9) = a9)
    (ha10 : Vv (Proc.devRef .tc main_arg10) = a10) (ha11 : Vv (Proc.devRef .tc main_arg11) = a11) (j : Fin 256) :
    StableHlo.after hostOps2 Vv (Proc.devRef .tc main_v119) (ix2 0 j)
      = Cert.ReferenceIdeal.ReadP.val_main_v148 (F := Ideal) a9 (ix1 j) - Cert.ReferenceIdeal.ReadP.val_main_v130 (F := Ideal) a10 (ix1 j)
        * (Cert.ReferenceIdeal.ReadP.val_main_v143 (F := Ideal) a8 (ix1 j) * Ideal.rsqrt (Cert.ReferenceIdeal.ReadP.val_main_v135 (F := Ideal) a11 (ix1 j) + Sage.eps)) := by
  dsimp only [hostOps2]
  after_results_simp
  rw [ha8, ha9, ha10, ha11]
  refine (row_apply _ _ j).trans ?_
  rfl

/-- The classifier's hidden bias as a row. -/
theorem after2_v120 (ha13 : Vv (Proc.devRef .tc main_arg13) = a13) (k : Fin 128) :
    StableHlo.after hostOps2 Vv (Proc.devRef .tc main_v120) (ix2 0 k) = a13 (ix1 k) := by
  dsimp only [hostOps2]
  after_results_simp
  rw [ha13]
  exact row_apply _ _ k

/-- The classifier's output bias as a row. -/
theorem after2_v121 (ha15 : Vv (Proc.devRef .tc main_arg15) = a15) (c' : Fin 2) :
    StableHlo.after hostOps2 Vv (Proc.devRef .tc main_v121) (ix2 0 c') = a15 (ix1 c') := by
  dsimp only [hostOps2]
  after_results_simp
  rw [ha15]
  exact row_apply _ _ c'

/-! ## Buffers the stretch does not write hold what they held at its entry -/

theorem after2_v12 : StableHlo.after hostOps2 Vv (Proc.devRef .tc main_v12) = Vv (Proc.devRef .tc main_v12) :=
  StableHlo.after_of_forall_not_mem (b := Proc.devRef .tc main_v12) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after2_v91 : StableHlo.after hostOps2 Vv (Proc.devRef .tc main_v91) = Vv (Proc.devRef .tc main_v91) :=
  StableHlo.after_of_forall_not_mem (b := Proc.devRef .tc main_v91) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after2_v27 : StableHlo.after hostOps2 Vv (Proc.devRef .tc main_v27) = Vv (Proc.devRef .tc main_v27) :=
  StableHlo.after_of_forall_not_mem (b := Proc.devRef .tc main_v27) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after2_v30 : StableHlo.after hostOps2 Vv (Proc.devRef .tc main_v30) = Vv (Proc.devRef .tc main_v30) :=
  StableHlo.after_of_forall_not_mem (b := Proc.devRef .tc main_v30) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after2_v31 : StableHlo.after hostOps2 Vv (Proc.devRef .tc main_v31) = Vv (Proc.devRef .tc main_v31) :=
  StableHlo.after_of_forall_not_mem (b := Proc.devRef .tc main_v31) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem after2_v32 : StableHlo.after hostOps2 Vv (Proc.devRef .tc main_v32) = Vv (Proc.devRef .tc main_v32) :=
  StableHlo.after_of_forall_not_mem (b := Proc.devRef .tc main_v32) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KHost

end
-- ==== Proof.KReg0.lean ====
/-
  The first graph-convolution region, read off its block pipeline: the grid has 25 points; point `t` works on rows
  `2000 t … 2000 t + 1999` of the three row-blocked arrays (neighbour sums, reciprocal degrees, own features) and of the
  output, with the two weight matrices and the three rows (bias, scale, shift) resident. At row `p`, lane `q` of its
  block the body stores `max ((((agg·inv)·Wn + h·Wr) + b)·scale + shift) 0`; the 25 blocks tile the output, so the
  array the region leaves is that formula of the arrays it found, entry by entry (`final0`).
-/
import proofs.«149779_j9311489098206_2_alg».proof.Proof.Spec
import proofs.«149779_j9311489098206_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KReg0

open Idealize.ShloMosaic Idealize.ShloMosaic.TcCoe Idealize.ShloMosaic.ValueIdx
open Idealize.SL.Sem
open Idealize.ShloMosaic.Pipeline (Dat)
open Cert.KernelIdeal Cert.KernelIdeal.Gen

/-- A column broadcast along the lanes reads the column at the row. -/
theorem bcast_col (v : FVec Ideal S2000x1 .f32) (p : Fin 2000) (k : Fin 128) :
    broadcastTo S2000x128 v broadcasts_S2000x1_S2000x128 (ix2 p k) = v (ix2 p 0) :=
  broadcastTo_apply v broadcasts_S2000x1_S2000x128 (ix2 p k) (ix2 p 0) (fun a => match a with
    | ⟨0, _⟩ => by show p.val = if (2000 : Nat) = 1 then 0 else p.val; rw [if_neg (by decide)]
    | ⟨1, _⟩ => by show 0 = if (1 : Nat) = 1 then 0 else k.val; rw [if_pos rfl])

/-- A row broadcast along the rows reads the row at the lane. -/
theorem bcast_row (v : FVec Ideal S1x256 .f32) (p : Fin 2000) (q : Fin 256) :
    broadcastTo S2000x256 v broadcasts_S1x256_S2000x256 (ix2 p q) = v (ix2 0 q) :=
  broadcastTo_apply v broadcasts_S1x256_S2000x256 (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

theorem lhs0_0 (i : S2000x256.Idx) (r : dot_S2000x128_S128x256_S2000x256_1_0_0_1_n_n.contr.Idx) : (dot_S2000x128_S128x256_S2000x256_1_0_0_1_n_n.lhsIdx i r 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs0_1 (i : S2000x256.Idx) (r : dot_S2000x128_S128x256_S2000x256_1_0_0_1_n_n.contr.Idx) : (dot_S2000x128_S128x256_S2000x256_1_0_0_1_n_n.lhsIdx i r 1).val = (r ⟨0, by decide⟩).val :=
  dot_S2000x128_S128x256_S2000x256_1_0_0_1_n_n.lhsIdx_val_of_single rfl i r
theorem rhs0_0 (i : S2000x256.Idx) (r : dot_S2000x128_S128x256_S2000x256_1_0_0_1_n_n.contr.Idx) : (dot_S2000x128_S128x256_S2000x256_1_0_0_1_n_n.rhsIdx i r 0).val = (r ⟨0, by decide⟩).val :=
  dot_S2000x128_S128x256_S2000x256_1_0_0_1_n_n.rhsIdx_val_of_single rfl i r
theorem rhs0_1 (i : S2000x256.Idx) (r : dot_S2000x128_S128x256_S2000x256_1_0_0_1_n_n.contr.Idx) : (dot_S2000x128_S128x256_S2000x256_1_0_0_1_n_n.rhsIdx i r 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The matrix product into the zero accumulator, at an entry: the sum over the inner index. -/
theorem mm_at (a : FVec Ideal S2000x128 .bf16) (b : FVec Ideal S128x256 .bf16) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs0_0 _ _
    | ⟨1, _⟩ => exact (lhs0_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The body's stored value at row `p`, lane `q` of its block, from the blocks it loads. -/
theorem pay0_at (x0 : Vec Ideal S2000x128 .f32) (x1 : Vec Ideal S2000x1 .f32) (x2 : Vec Ideal S2000x128 .bf16)
    (x3 x4 : Vec Ideal S128x256 .bf16) (x5 x6 x7 : Vec Ideal S1x256 .f32) (p : Fin 2000) (q : Fin 256) :
    k0_pay1 (F := Ideal) x0 x1 x2 x3 x4 x5 x6 x7 (ix2 p q)
      = max ((((∑ k : Fin 128, (x0 (ix2 p k) * x1 (ix2 p 0)) * x3 (ix2 k q)) + ∑ k : Fin 128, x2 (ix2 p k) * x4 (ix2 k q))
          + x5 (ix2 0 q)) * x6 (ix2 0 q) + x7 (ix2 0 q)) 0 := by
  unfold k0_pay1
  simp only [shapeCast_self]
  rw [truncf_apply, maximumf_apply, addf_apply, mulf_apply, addf_apply, addf_apply, mm_at, mm_at, bcast_row, bcast_row, bcast_row, broadcast_apply]
  simp only [truncf_apply, mulf_apply, bcast_col]
  rw [show (Scalar.ofBits (F := Ideal) .f32 0x00000000#32 : EReal) = 0 from Ideal.ofBits_zero_f32]

variable (V : (c : Dev nD) → (b : Ref sig .tc) → Buf (Elt Ideal) ((c : Thread nD τ).loc b))

theorem hz : (![0, 0] : Fin 2 → Nat) = fun _ => 0 := funext fun a => by fin_cases a <;> rfl

/-- What the body leaves in its output block, entry by entry. -/
theorem out0_at (x0 : Vec Ideal S2000x128 .f32) (x1 : Vec Ideal S2000x1 .f32) (x2 : Vec Ideal S2000x128 .bf16)
    (x3 x4 : Vec Ideal S128x256 .bf16) (x5 x6 x7 : Vec Ideal S1x256 .f32) :
    out0_8 (F := Ideal) x0 x1 x2 x3 x4 x5 x6 x7 = fun j : S2000x256.Idx =>
      max ((((∑ k : Fin 128, (x0 (ix2 (j 0) k) * x1 (ix2 (j 0) 0)) * x3 (ix2 k (j 1))) + ∑ k : Fin 128, x2 (ix2 (j 0) k) * x4 (ix2 k (j 1)))
          + x5 (ix2 0 (j 1))) * x6 (ix2 0 (j 1)) + x7 (ix2 0 (j 1))) 0 := by
  unfold out0_8
  rw [View.canon_unit_zero hz]
  simp only [View.ld_unit_zero (S := S2000x128) hz, View.ld_unit_zero (S := S2000x1) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  exact pay0_at x0 x1 x2 x3 x4 x5 x6 x7 p q

/-- The windows' block indices over the grid: the row-blocked windows sit at block row `t`, lane block 0; the
    resident ones at block (0, 0). -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0 :=
  (by decide +kernel : ∀ t : Fin grid0.N, _)

/-- Window 0's block at point `t` is rows `2000 t … 2000 t + 1999` of its array. -/
theorem blk0_0 (c : Dev nD) (t : Fin cfg0.N) (p : Fin 2000) (k : Fin 128) (n : Fin 50000) (hn : n.val = 2000 * t.val + p.val) :
    (iblk0 (F := Ideal) V c 0 t : Vec Ideal S2000x128 .f32) (ix2 p k) = (V c (Pipeline.arrRef spec0 0) : Sage.A2 50000 128) (ix2 n k) := by
  obtain ⟨e0, e1, -, -, -, -, -, -, -, -, -, -, -, -, -, -, -, -⟩ := idx0 t
  unfold iblk0
  rw [View.read_apply]
  show V c (Pipeline.arrRef spec0 0) _ = V c (Pipeline.arrRef spec0 0) _
  congr 1
  funext a; apply Fin.ext
  match a with
  | ⟨0, _⟩ => show win0_0.index t (0 : Fin 2) * 2000 + 1 * p.val = n.val; rw [e0, hn]; omega
  | ⟨1, _⟩ => show win0_0.index t (1 : Fin 2) * 128 + 1 * k.val = k.val; rw [e1]; omega

/-- Window 1's block at point `t` is rows `2000 t … 2000 t + 1999` of its array. -/
theorem blk0_1 (c : Dev nD) (t : Fin cfg0.N) (p : Fin 2000) (k : Fin 1) (n : Fin 50000) (hn : n.val = 2000 * t.val + p.val) :
    (iblk0 (F := Ideal) V c 1 t : Vec Ideal S2000x1 .f32) (ix2 p k) = (V c (Pipeline.arrRef spec0 1) : Sage.A2 50000 1) (ix2 n k) := by
  obtain ⟨-, -, e0, e1, -, -, -, -, -, -, -, -, -, -, -, -, -, -⟩ := idx0 t
  unfold iblk0
  rw [View.read_apply]
  show V c (Pipeline.arrRef spec0 1) _ = V c (Pipeline.arrRef spec0 1) _
  congr 1
  funext a; apply Fin.ext
  match a with
  | ⟨0, _⟩ => show win0_1.index t (0 : Fin 2) * 2000 + 1 * p.val = n.val; rw [e0, hn]; omega
  | ⟨1, _⟩ => show win0_1.index t (1 : Fin 2) * 1 + 1 * k.val = k.val; rw [e1]; omega

/-- Window 2's block at point `t` is rows `2000 t … 2000 t + 1999` of its array. -/
theorem blk0_2 (c : Dev nD) (t : Fin cfg0.N) (p : Fin 2000) (k : Fin 128) (n : Fin 50000) (hn : n.val = 2000 * t.val + p.val) :
    (iblk0 (F := Ideal) V c 2 t : Vec Ideal S2000x128 .bf16) (ix2 p k) = (V c (Pipeline.arrRef spec0 2) : Sage.A2 50000 128) (ix2 n k) := by
  obtain ⟨-, -, -, -, e0, e1, -, -, -, -, -, -, -, -, -, -, -, -⟩ := idx0 t
  unfold iblk0
  rw [View.read_apply]
  show V c (Pipeline.arrRef spec0 2) _ = V c (Pipeline.arrRef spec0 2) _
  congr 1
  funext a; apply Fin.ext
  match a with
  | ⟨0, _⟩ => show win0_2.index t (0 : Fin 2) * 2000 + 1 * p.val = n.val; rw [e0, hn]; omega
  | ⟨1, _⟩ => show win0_2.index t (1 : Fin 2) * 128 + 1 * k.val = k.val; rw [e1]; omega

/-- Window 3's block at every point is its whole array. -/
theorem blk0_3 (c : Dev nD) (t : Fin cfg0.N) (p : Fin 128) (k : Fin 256) :
    (iblk0 (F := Ideal) V c 3 t : Vec Ideal S128x256 .bf16) (ix2 p k) = (V c (Pipeline.arrRef spec0 3) : Sage.A2 128 256) (ix2 p k) := by
  obtain ⟨-, -, -, -, -, -, e0, e1, -, -, -, -, -, -, -, -, -, -⟩ := idx0 t
  unfold iblk0
  rw [View.read_apply]
  show V c (Pipeline.arrRef spec0 3) _ = V c (Pipeline.arrRef spec0 3) _
  congr 1
  funext a; apply Fin.ext
  match a with
  | ⟨0, _⟩ => show win0_3.index t (0 : Fin 2) * 128 + 1 * p.val = p.val; rw [e0]; omega
  | ⟨1, _⟩ => show win0_3.index t (1 : Fin 2) * 256 + 1 * k.val = k.val; rw [e1]; omega

/-- Window 4's block at every point is its whole array. -/
theorem blk0_4 (c : Dev nD) (t : Fin cfg0.N) (p : Fin 128) (k : Fin 256) :
    (iblk0 (F := Ideal) V c 4 t : Vec Ideal S128x256 .bf16) (ix2 p k) = (V c (Pipeline.arrRef spec0 4) : Sage.A2 128 256) (ix2 p k) := by
  obtain ⟨-, -, -, -, -, -, -, -, e0, e1, -, -, -, -, -, -, -, -⟩ := idx0 t
  unfold iblk0
  rw [View.read_apply]
  show V c (Pipeline.arrRef spec0 4) _ = V c (Pipeline.arrRef spec0 4) _
  congr 1
  funext a; apply Fin.ext
  match a with
  | ⟨0, _⟩ => show win0_4.index t (0 : Fin 2) * 128 + 1 * p.val = p.val; rw [e0]; omega
  | ⟨1, _⟩ => show win0_4.index t (1 : Fin 2) * 256 + 1 * k.val = k.val; rw [e1]; omega

/-- Window 5's block at every point is its whole array. -/
theorem blk0_5 (c : Dev nD) (t : Fin cfg0.N) (p : Fin 1) (k : Fin 256) :
    (iblk0 (F := Ideal) V c 5 t : Vec Ideal S1x256 .f32) (ix2 p k) = (V c (Pipeline.arrRef spec0 5) : Sage.A2 1 256) (ix2 p k) := by
  obtain ⟨-, -, -, -, -, -, -, -, -, -, e0, e1, -, -, -, -, -, -⟩ := idx0 t
  unfold iblk0
  rw [View.read_apply]
  show V c (Pipeline.arrRef spec0 5) _ = V c (Pipeline.arrRef spec0 5) _
  congr 1
  funext a; apply Fin.ext
  match a with
  | ⟨0, _⟩ => show win0_5.index t (0 : Fin 2) * 1 + 1 * p.val = p.val; rw [e0]; omega
  | ⟨1, _⟩ => show win0_5.index t (1 : Fin 2) * 256 + 1 * k.val = k.val; rw [e1]; omega

/-- Window 6's block at every point is its whole array. -/
theorem blk0_6 (c : Dev nD) (t : Fin cfg0.N) (p : Fin 1) (k : Fin 256) :
    (iblk0 (F := Ideal) V c 6 t : Vec Ideal S1x256 .f32) (ix2 p k) = (V c (Pipeline.arrRef spec0 6) : Sage.A2 1 256) (ix2 p k) := by
  obtain ⟨-, -, -, -, -, -, -, -, -, -, -, -, e0, e1, -, -, -, -⟩ := idx0 t
  unfold iblk0
  rw [View.read_apply]
  show V c (Pipeline.arrRef spec0 6) _ = V c (Pipeline.arrRef spec0 6) _
  congr 1
  funext a; apply Fin.ext
  match a with
  | ⟨0, _⟩ => show win0_6.index t (0 : Fin 2) * 1 + 1 * p.val = p.val; rw [e0]; omega
  | ⟨1, _⟩ => show win0_6.index t (1 : Fin 2) * 256 + 1 * k.val = k.val; rw [e1]; omega

/-- Window 7's block at every point is its whole array. -/
theorem blk0_7 (c : Dev nD) (t : Fin cfg0.N) (p : Fin 1) (k : Fin 256) :
    (iblk0 (F := Ideal) V c 7 t : Vec Ideal S1x256 .f32) (ix2 p k) = (V c (Pipeline.arrRef spec0 7) : Sage.A2 1 256) (ix2 p k) := by
  obtain ⟨-, -, -, -, -, -, -, -, -, -, -, -, -, -, e0, e1, -, -⟩ := idx0 t
  unfold iblk0
  rw [View.read_apply]
  show V c (Pipeline.arrRef spec0 7) _ = V c (Pipeline.arrRef spec0 7) _
  congr 1
  funext a; apply Fin.ext
  match a with
  | ⟨0, _⟩ => show win0_7.index t (0 : Fin 2) * 1 + 1 * p.val = p.val; rw [e0]; omega
  | ⟨1, _⟩ => show win0_7.index t (1 : Fin 2) * 256 + 1 * k.val = k.val; rw [e1]; omega

/-- The body's formula on blocks whose row `p` is row `n` of the arrays (and whose resident blocks are the arrays) is the
    layer at row `n`. -/
theorem row0 (x0 : Vec Ideal S2000x128 .f32) (x1 : Vec Ideal S2000x1 .f32) (x2 : Vec Ideal S2000x128 .bf16)
    (x3 x4 : Vec Ideal S128x256 .bf16) (x5 x6 x7 : Vec Ideal S1x256 .f32)
    (a0 : Sage.A2 50000 128) (a1 : Sage.A2 50000 1) (a2 : Sage.A2 50000 128) (a3 a4 : Sage.A2 128 256) (a5 a6 a7 : Sage.A2 1 256)
    (p : Fin 2000) (q : Fin 256) (n : Fin 50000)
    (h0 : ∀ k, x0 (ix2 p k) = a0 (ix2 n k)) (h1 : ∀ k, x1 (ix2 p k) = a1 (ix2 n k)) (h2 : ∀ k, x2 (ix2 p k) = a2 (ix2 n k))
    (h3 : ∀ k l, x3 (ix2 k l) = a3 (ix2 k l)) (h4 : ∀ k l, x4 (ix2 k l) = a4 (ix2 k l))
    (h5 : ∀ k l, x5 (ix2 k l) = a5 (ix2 k l)) (h6 : ∀ k l, x6 (ix2 k l) = a6 (ix2 k l)) (h7 : ∀ k l, x7 (ix2 k l) = a7 (ix2 k l)) :
    max ((((∑ k : Fin 128, (x0 (ix2 p k) * x1 (ix2 p 0)) * x3 (ix2 k q)) + ∑ k : Fin 128, x2 (ix2 p k) * x4 (ix2 k q))
          + x5 (ix2 0 q)) * x6 (ix2 0 q) + x7 (ix2 0 q)) 0
      = Sage.layerKat a0 a1 a2 a3 a4 a5 a6 a7 n q := by
  unfold Sage.layerKat
  simp only [h0, h1, h2, h3, h4, h5, h6, h7]

/-- The layer as one function of the arrays the region finds. -/
abbrev G0 (c : Dev nD) : S50000x256.Idx → EReal := fun i =>
  Sage.layerKat (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (i 0) (i 1)

theorem N0 : cfg0.N = 25 := N_0

/-- What point `t` writes back is block `t` of the layer: row `p` of the block is row `2000 t + p` of the arrays. -/
theorem flushed0 (c : Dev nD) (t : Fin cfg0.N) :
    (dat0 (F := Ideal) V c).flushed 8 t = ((cfg0.win 8).blk t).view.read (Elt Ideal) (G0 V c) := by
  show (cfg0.win 8).cut (grid0.coords t) ((dat0 V c).after 8 t) = _
  rw [after0_8, out0_at (iblk0 V c 0 t) (iblk0 V c 1 t) (iblk0 V c 2 t) (iblk0 V c 3 t) (iblk0 V c 4 t) (iblk0 V c 5 t) (iblk0 V c 6 t) (iblk0 V c 7 t)]
  obtain ⟨-, -, -, -, -, -, -, -, -, -, -, -, -, -, -, -, e0, e1⟩ := idx0 t
  funext j
  obtain ⟨p, q, rfl⟩ : ∃ (p : Fin 2000) (q : Fin 256), j = ix2 p q := ⟨j 0, j 1, eq_ix2 j⟩
  have ht : t.val < 25 := lt_of_lt_of_eq t.isLt N0
  have hp : p.val < 2000 := p.isLt
  have hemb : ((cfg0.win 8).blk t).view.emb (ix2 p q) = ix2 (⟨2000 * t.val + p.val, by omega⟩ : Fin 50000) q := by
    funext a; apply Fin.ext
    match a with
    | ⟨0, _⟩ => show win0_8.index t (0 : Fin 2) * 2000 + 1 * p.val = 2000 * t.val + p.val; rw [e0]; omega
    | ⟨1, _⟩ => show win0_8.index t (1 : Fin 2) * 256 + 1 * q.val = q.val; rw [e1]; omega
  rw [View.read_apply, hemb]
  exact row0 (iblk0 V c 0 t) (iblk0 V c 1 t) (iblk0 V c 2 t) (iblk0 V c 3 t) (iblk0 V c 4 t) (iblk0 V c 5 t) (iblk0 V c 6 t) (iblk0 V c 7 t)
    (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) p q ⟨2000 * t.val + p.val, by omega⟩
    (fun k => blk0_0 V c t p k _ rfl) (fun k => blk0_1 V c t p k _ rfl) (fun k => blk0_2 V c t p k _ rfl)
    (blk0_3 V c t) (blk0_4 V c t) (blk0_5 V c t) (blk0_6 V c t) (blk0_7 V c t)

/-- Every row of the output lies in the block of the point `row / 2000`. -/
theorem cover0 (i : S50000x256.Idx) : ∃ t : Fin cfg0.N, (cfg0.win 8).flush t = true ∧ i ∈ ((cfg0.win 8).blk t).view.set := by
  have hi0 : (i 0).val < 50000 := (i 0).isLt
  have hi1 : (i 1).val < 256 := (i 1).isLt
  have hN : (i 0).val / 2000 < cfg0.N := by rw [N0]; omega
  obtain ⟨-, -, -, -, -, -, -, -, -, -, -, -, -, -, -, -, e0, e1⟩ := idx0 ⟨(i 0).val / 2000, hN⟩
  refine ⟨⟨(i 0).val / 2000, hN⟩, flush0_8 _, ?_⟩
  show i ∈ ((View.whole main_v62).slice (win0_8.rect ⟨(i 0).val / 2000, hN⟩)).set
  rw [View.set_slice_whole, Rect.mem_set_unit]
  intro a
  match a with
  | ⟨0, _⟩ => show win0_8.index ⟨(i 0).val / 2000, hN⟩ (0 : Fin 2) * 2000 ≤ (i 0).val ∧ (i 0).val < win0_8.index ⟨(i 0).val / 2000, hN⟩ (0 : Fin 2) * 2000 + 2000; rw [e0]; show (i 0).val / 2000 * 2000 ≤ (i 0).val ∧ (i 0).val < (i 0).val / 2000 * 2000 + 2000; omega
  | ⟨1, _⟩ => show win0_8.index ⟨(i 0).val / 2000, hN⟩ (1 : Fin 2) * 256 ≤ (i 1).val ∧ (i 1).val < win0_8.index ⟨(i 0).val / 2000, hN⟩ (1 : Fin 2) * 256 + 256; rw [e1]; omega

/-- The array the region leaves: the layer of the arrays it found, entry by entry. -/
theorem final0 (c : Dev nD) : (dat0 (F := Ideal) V c).arrAt 8 cfg0.N = fun i =>
    Sage.layerKat (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (i 0) (i 1) :=
  (dat0 (F := Ideal) V c).arrAt_eq_of_cover 8 (G0 V c) (fun t _ => flushed0 V c t) cover0

end Cert.KernelIdeal.KReg0

end
-- ==== Proof.KReg1.lean ====
/-
  The second graph-convolution region, read off its block pipeline, exactly as the first with inner dimension 256: point
  `t` of the 25 works on rows `2000 t … 2000 t + 1999` of the neighbour sums, the reciprocal degrees, the first layer's
  output and of this layer's output, the two 256×256 weight matrices and the three rows (bias, scale, shift) resident.
  At row `p`, lane `q` of its block the body stores `max ((((agg·inv)·Wn + h·Wr) + b)·scale + shift) 0`; the 25 blocks
  tile the output, so the array the region leaves is that formula of the arrays it found, entry by entry (`final1`).
-/
import proofs.«149779_j9311489098206_2_alg».proof.Proof.Spec
import proofs.«149779_j9311489098206_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KReg1

open Idealize.ShloMosaic Idealize.ShloMosaic.TcCoe Idealize.ShloMosaic.ValueIdx
open Idealize.SL.Sem
open Idealize.ShloMosaic.Pipeline (Dat)
open Cert.KernelIdeal Cert.KernelIdeal.Gen

/-- A column broadcast along the lanes reads the column at the row. -/
theorem bcast_col (v : FVec Ideal S2000x1 .f32) (p : Fin 2000) (k : Fin 256) :
    broadcastTo S2000x256 v broadcasts_S2000x1_S2000x256 (ix2 p k) = v (ix2 p 0) :=
  broadcastTo_apply v broadcasts_S2000x1_S2000x256 (ix2 p k) (ix2 p 0) (fun a => match a with
    | ⟨0, _⟩ => by show p.val = if (2000 : Nat) = 1 then 0 else p.val; rw [if_neg (by decide)]
    | ⟨1, _⟩ => by show 0 = if (1 : Nat) = 1 then 0 else k.val; rw [if_pos rfl])

/-- A row broadcast along the rows reads the row at the lane. -/
theorem bcast_row (v : FVec Ideal S1x256 .f32) (p : Fin 2000) (q : Fin 256) :
    broadcastTo S2000x256 v broadcasts_S1x256_S2000x256 (ix2 p q) = v (ix2 0 q) :=
  broadcastTo_apply v broadcasts_S1x256_S2000x256 (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

theorem lhs1_0 (i : S2000x256.Idx) (r : dot_S2000x256_S256x256_S2000x256_1_0_0_1_n_n.contr.Idx) : (dot_S2000x256_S256x256_S2000x256_1_0_0_1_n_n.lhsIdx i r 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs1_1 (i : S2000x256.Idx) (r : dot_S2000x256_S256x256_S2000x256_1_0_0_1_n_n.contr.Idx) : (dot_S2000x256_S256x256_S2000x256_1_0_0_1_n_n.lhsIdx i r 1).val = (r ⟨0, by decide⟩).val :=
  dot_S2000x256_S256x256_S2000x256_1_0_0_1_n_n.lhsIdx_val_of_single rfl i r
theorem rhs1_0 (i : S2000x256.Idx) (r : dot_S2000x256_S256x256_S2000x256_1_0_0_1_n_n.contr.Idx) : (dot_S2000x256_S256x256_S2000x256_1_0_0_1_n_n.rhsIdx i r 0).val = (r ⟨0, by decide⟩).val :=
  dot_S2000x256_S256x256_S2000x256_1_0_0_1_n_n.rhsIdx_val_of_single rfl i r
theorem rhs1_1 (i : S2000x256.Idx) (r : dot_S2000x256_S256x256_S2000x256_1_0_0_1_n_n.contr.Idx) : (dot_S2000x256_S256x256_S2000x256_1_0_0_1_n_n.rhsIdx i r 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The matrix product into the zero accumulator, at an entry: the sum over the inner index. -/
theorem mm_at (a : FVec Ideal S2000x256 .bf16) (b : FVec Ideal S256x256 .bf16) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs1_0 _ _
    | ⟨1, _⟩ => exact (lhs1_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs1_0 _ _).trans hk
    | ⟨1, _⟩ => exact rhs1_1 _ _)
  rw [el, er]

/-- The body's stored value at row `p`, lane `q` of its block, from the blocks it loads. -/
theorem pay1_at (x0 : Vec Ideal S2000x256 .f32) (x1 : Vec Ideal S2000x1 .f32) (x2 : Vec Ideal S2000x256 .bf16)
    (x3 x4 : Vec Ideal S256x256 .bf16) (x5 x6 x7 : Vec Ideal S1x256 .f32) (p : Fin 2000) (q : Fin 256) :
    k1_pay1 (F := Ideal) x0 x1 x2 x3 x4 x5 x6 x7 (ix2 p q)
      = max ((((∑ k : Fin 256, (x0 (ix2 p k) * x1 (ix2 p 0)) * x3 (ix2 k q)) + ∑ k : Fin 256, x2 (ix2 p k) * x4 (ix2 k q))
          + x5 (ix2 0 q)) * x6 (ix2 0 q) + x7 (ix2 0 q)) 0 := by
  unfold k1_pay1
  simp only [shapeCast_self]
  rw [truncf_apply, maximumf_apply, addf_apply, mulf_apply, addf_apply, addf_apply, mm_at, mm_at, bcast_row, bcast_row, bcast_row, broadcast_apply]
  simp only [truncf_apply, mulf_apply, bcast_col]
  rw [show (Scalar.ofBits (F := Ideal) .f32 0x00000000#32 : EReal) = 0 from Ideal.ofBits_zero_f32]

variable (V : (c : Dev nD) → (b : Ref sig .tc) → Buf (Elt Ideal) ((c : Thread nD τ).loc b))

theorem hz : (![0, 0] : Fin 2 → Nat) = fun _ => 0 := funext fun a => by fin_cases a <;> rfl

/-- What the body leaves in its output block, entry by entry. -/
theorem out1_at (x0 : Vec Ideal S2000x256 .f32) (x1 : Vec Ideal S2000x1 .f32) (x2 : Vec Ideal S2000x256 .bf16)
    (x3 x4 : Vec Ideal S256x256 .bf16) (x5 x6 x7 : Vec Ideal S1x256 .f32) :
    out1_8 (F := Ideal) x0 x1 x2 x3 x4 x5 x6 x7 = fun j : S2000x256.Idx =>
      max ((((∑ k : Fin 256, (x0 (ix2 (j 0) k) * x1 (ix2 (j 0) 0)) * x3 (ix2 k (j 1))) + ∑ k : Fin 256, x2 (ix2 (j 0) k) * x4 (ix2 k (j 1)))
          + x5 (ix2 0 (j 1))) * x6 (ix2 0 (j 1)) + x7 (ix2 0 (j 1))) 0 := by
  unfold out1_8
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  exact pay1_at x0 x1 x2 x3 x4 x5 x6 x7 p q

/-- The windows' block indices over the grid: the row-blocked windows sit at block row `t`, lane block 0; the
    resident ones at block (0, 0). -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0 :=
  (by decide +kernel : ∀ t : Fin grid1.N, _)

/-- Window 0's block at point `t` is rows `2000 t … 2000 t + 1999` of its array. -/
theorem blk1_0 (c : Dev nD) (t : Fin cfg1.N) (p : Fin 2000) (k : Fin 256) (n : Fin 50000) (hn : n.val = 2000 * t.val + p.val) :
    (iblk1 (F := Ideal) V c 0 t : Vec Ideal S2000x256 .f32) (ix2 p k) = (V c (Pipeline.arrRef spec1 0) : Sage.A2 50000 256) (ix2 n k) := by
  obtain ⟨e0, e1, -, -, -, -, -, -, -, -, -, -, -, -, -, -, -, -⟩ := idx1 t
  unfold iblk1
  rw [View.read_apply]
  show V c (Pipeline.arrRef spec1 0) _ = V c (Pipeline.arrRef spec1 0) _
  congr 1
  funext a; apply Fin.ext
  match a with
  | ⟨0, _⟩ => show win1_0.index t (0 : Fin 2) * 2000 + 1 * p.val = n.val; rw [e0, hn]; omega
  | ⟨1, _⟩ => show win1_0.index t (1 : Fin 2) * 256 + 1 * k.val = k.val; rw [e1]; omega

/-- Window 1's block at point `t` is rows `2000 t … 2000 t + 1999` of its array. -/
theorem blk1_1 (c : Dev nD) (t : Fin cfg1.N) (p : Fin 2000) (k : Fin 1) (n : Fin 50000) (hn : n.val = 2000 * t.val + p.val) :
    (iblk1 (F := Ideal) V c 1 t : Vec Ideal S2000x1 .f32) (ix2 p k) = (V c (Pipeline.arrRef spec1 1) : Sage.A2 50000 1) (ix2 n k) := by
  obtain ⟨-, -, e0, e1, -, -, -, -, -, -, -, -, -, -, -, -, -, -⟩ := idx1 t
  unfold iblk1
  rw [View.read_apply]
  show V c (Pipeline.arrRef spec1 1) _ = V c (Pipeline.arrRef spec1 1) _
  congr 1
  funext a; apply Fin.ext
  match a with
  | ⟨0, _⟩ => show win1_1.index t (0 : Fin 2) * 2000 + 1 * p.val = n.val; rw [e0, hn]; omega
  | ⟨1, _⟩ => show win1_1.index t (1 : Fin 2) * 1 + 1 * k.val = k.val; rw [e1]; omega

/-- Window 2's block at point `t` is rows `2000 t … 2000 t + 1999` of its array. -/
theorem blk1_2 (c : Dev nD) (t : Fin cfg1.N) (p : Fin 2000) (k : Fin 256) (n : Fin 50000) (hn : n.val = 2000 * t.val + p.val) :
    (iblk1 (F := Ideal) V c 2 t : Vec Ideal S2000x256 .bf16) (ix2 p k) = (V c (Pipeline.arrRef spec1 2) : Sage.A2 50000 256) (ix2 n k) := by
  obtain ⟨-, -, -, -, e0, e1, -, -, -, -, -, -, -, -, -, -, -, -⟩ := idx1 t
  unfold iblk1
  rw [View.read_apply]
  show V c (Pipeline.arrRef spec1 2) _ = V c (Pipeline.arrRef spec1 2) _
  congr 1
  funext a; apply Fin.ext
  match a with
  | ⟨0, _⟩ => show win1_2.index t (0 : Fin 2) * 2000 + 1 * p.val = n.val; rw [e0, hn]; omega
  | ⟨1, _⟩ => show win1_2.index t (1 : Fin 2) * 256 + 1 * k.val = k.val; rw [e1]; omega

/-- Window 3's block at every point is its whole array. -/
theorem blk1_3 (c : Dev nD) (t : Fin cfg1.N) (p : Fin 256) (k : Fin 256) :
    (iblk1 (F := Ideal) V c 3 t : Vec Ideal S256x256 .bf16) (ix2 p k) = (V c (Pipeline.arrRef spec1 3) : Sage.A2 256 256) (ix2 p k) := by
  obtain ⟨-, -, -, -, -, -, e0, e1, -, -, -, -, -, -, -, -, -, -⟩ := idx1 t
  unfold iblk1
  rw [View.read_apply]
  show V c (Pipeline.arrRef spec1 3) _ = V c (Pipeline.arrRef spec1 3) _
  congr 1
  funext a; apply Fin.ext
  match a with
  | ⟨0, _⟩ => show win1_3.index t (0 : Fin 2) * 256 + 1 * p.val = p.val; rw [e0]; omega
  | ⟨1, _⟩ => show win1_3.index t (1 : Fin 2) * 256 + 1 * k.val = k.val; rw [e1]; omega

/-- Window 4's block at every point is its whole array. -/
theorem blk1_4 (c : Dev nD) (t : Fin cfg1.N) (p : Fin 256) (k : Fin 256) :
    (iblk1 (F := Ideal) V c 4 t : Vec Ideal S256x256 .bf16) (ix2 p k) = (V c (Pipeline.arrRef spec1 4) : Sage.A2 256 256) (ix2 p k) := by
  obtain ⟨-, -, -, -, -, -, -, -, e0, e1, -, -, -, -, -, -, -, -⟩ := idx1 t
  unfold iblk1
  rw [View.read_apply]
  show V c (Pipeline.arrRef spec1 4) _ = V c (Pipeline.arrRef spec1 4) _
  congr 1
  funext a; apply Fin.ext
  match a with
  | ⟨0, _⟩ => show win1_4.index t (0 : Fin 2) * 256 + 1 * p.val = p.val; rw [e0]; omega
  | ⟨1, _⟩ => show win1_4.index t (1 : Fin 2) * 256 + 1 * k.val = k.val; rw [e1]; omega

/-- Window 5's block at every point is its whole array. -/
theorem blk1_5 (c : Dev nD) (t : Fin cfg1.N) (p : Fin 1) (k : Fin 256) :
    (iblk1 (F := Ideal) V c 5 t : Vec Ideal S1x256 .f32) (ix2 p k) = (V c (Pipeline.arrRef spec1 5) : Sage.A2 1 256) (ix2 p k) := by
  obtain ⟨-, -, -, -, -, -, -, -, -, -, e0, e1, -, -, -, -, -, -⟩ := idx1 t
  unfold iblk1
  rw [View.read_apply]
  show V c (Pipeline.arrRef spec1 5) _ = V c (Pipeline.arrRef spec1 5) _
  congr 1
  funext a; apply Fin.ext
  match a with
  | ⟨0, _⟩ => show win1_5.index t (0 : Fin 2) * 1 + 1 * p.val = p.val; rw [e0]; omega
  | ⟨1, _⟩ => show win1_5.index t (1 : Fin 2) * 256 + 1 * k.val = k.val; rw [e1]; omega

/-- Window 6's block at every point is its whole array. -/
theorem blk1_6 (c : Dev nD) (t : Fin cfg1.N) (p : Fin 1) (k : Fin 256) :
    (iblk1 (F := Ideal) V c 6 t : Vec Ideal S1x256 .f32) (ix2 p k) = (V c (Pipeline.arrRef spec1 6) : Sage.A2 1 256) (ix2 p k) := by
  obtain ⟨-, -, -, -, -, -, -, -, -, -, -, -, e0, e1, -, -, -, -⟩ := idx1 t
  unfold iblk1
  rw [View.read_apply]
  show V c (Pipeline.arrRef spec1 6) _ = V c (Pipeline.arrRef spec1 6) _
  congr 1
  funext a; apply Fin.ext
  match a with
  | ⟨0, _⟩ => show win1_6.index t (0 : Fin 2) * 1 + 1 * p.val = p.val; rw [e0]; omega
  | ⟨1, _⟩ => show win1_6.index t (1 : Fin 2) * 256 + 1 * k.val = k.val; rw [e1]; omega

/-- Window 7's block at every point is its whole array. -/
theorem blk1_7 (c : Dev nD) (t : Fin cfg1.N) (p : Fin 1) (k : Fin 256) :
    (iblk1 (F := Ideal) V c 7 t : Vec Ideal S1x256 .f32) (ix2 p k) = (V c (Pipeline.arrRef spec1 7) : Sage.A2 1 256) (ix2 p k) := by
  obtain ⟨-, -, -, -, -, -, -, -, -, -, -, -, -, -, e0, e1, -, -⟩ := idx1 t
  unfold iblk1
  rw [View.read_apply]
  show V c (Pipeline.arrRef spec1 7) _ = V c (Pipeline.arrRef spec1 7) _
  congr 1
  funext a; apply Fin.ext
  match a with
  | ⟨0, _⟩ => show win1_7.index t (0 : Fin 2) * 1 + 1 * p.val = p.val; rw [e0]; omega
  | ⟨1, _⟩ => show win1_7.index t (1 : Fin 2) * 256 + 1 * k.val = k.val; rw [e1]; omega

/-- The body's formula on blocks whose row `p` is row `n` of the arrays (and whose resident blocks are the arrays) is the
    layer at row `n`. -/
theorem row1 (x0 : Vec Ideal S2000x256 .f32) (x1 : Vec Ideal S2000x1 .f32) (x2 : Vec Ideal S2000x256 .bf16)
    (x3 x4 : Vec Ideal S256x256 .bf16) (x5 x6 x7 : Vec Ideal S1x256 .f32)
    (a0 : Sage.A2 50000 256) (a1 : Sage.A2 50000 1) (a2 : Sage.A2 50000 256) (a3 a4 : Sage.A2 256 256) (a5 a6 a7 : Sage.A2 1 256)
    (p : Fin 2000) (q : Fin 256) (n : Fin 50000)
    (h0 : ∀ k, x0 (ix2 p k) = a0 (ix2 n k)) (h1 : ∀ k, x1 (ix2 p k) = a1 (ix2 n k)) (h2 : ∀ k, x2 (ix2 p k) = a2 (ix2 n k))
    (h3 : ∀ k l, x3 (ix2 k l) = a3 (ix2 k l)) (h4 : ∀ k l, x4 (ix2 k l) = a4 (ix2 k l))
    (h5 : ∀ k l, x5 (ix2 k l) = a5 (ix2 k l)) (h6 : ∀ k l, x6 (ix2 k l) = a6 (ix2 k l)) (h7 : ∀ k l, x7 (ix2 k l) = a7 (ix2 k l)) :
    max ((((∑ k : Fin 256, (x0 (ix2 p k) * x1 (ix2 p 0)) * x3 (ix2 k q)) + ∑ k : Fin 256, x2 (ix2 p k) * x4 (ix2 k q))
          + x5 (ix2 0 q)) * x6 (ix2 0 q) + x7 (ix2 0 q)) 0
      = Sage.layerKat a0 a1 a2 a3 a4 a5 a6 a7 n q := by
  unfold Sage.layerKat
  simp only [h0, h1, h2, h3, h4, h5, h6, h7]

/-- The layer as one function of the arrays the region finds. -/
abbrev G1 (c : Dev nD) : S50000x256.Idx → EReal := fun i =>
  Sage.layerKat (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (i 0) (i 1)

theorem N1 : cfg1.N = 25 := N_1

/-- What point `t` writes back is block `t` of the layer: row `p` of the block is row `2000 t + p` of the arrays. -/
theorem flushed1 (c : Dev nD) (t : Fin cfg1.N) :
    (dat1 (F := Ideal) V c).flushed 8 t = ((cfg1.win 8).blk t).view.read (Elt Ideal) (G1 V c) := by
  show (cfg1.win 8).cut (grid1.coords t) ((dat1 V c).after 8 t) = _
  rw [after1_8, out1_at (iblk1 V c 0 t) (iblk1 V c 1 t) (iblk1 V c 2 t) (iblk1 V c 3 t) (iblk1 V c 4 t) (iblk1 V c 5 t) (iblk1 V c 6 t) (iblk1 V c 7 t)]
  obtain ⟨-, -, -, -, -, -, -, -, -, -, -, -, -, -, -, -, e0, e1⟩ := idx1 t
  funext j
  obtain ⟨p, q, rfl⟩ : ∃ (p : Fin 2000) (q : Fin 256), j = ix2 p q := ⟨j 0, j 1, eq_ix2 j⟩
  have ht : t.val < 25 := lt_of_lt_of_eq t.isLt N1
  have hp : p.val < 2000 := p.isLt
  have hemb : ((cfg1.win 8).blk t).view.emb (ix2 p q) = ix2 (⟨2000 * t.val + p.val, by omega⟩ : Fin 50000) q := by
    funext a; apply Fin.ext
    match a with
    | ⟨0, _⟩ => show win1_8.index t (0 : Fin 2) * 2000 + 1 * p.val = 2000 * t.val + p.val; rw [e0]; omega
    | ⟨1, _⟩ => show win1_8.index t (1 : Fin 2) * 256 + 1 * q.val = q.val; rw [e1]; omega
  rw [View.read_apply, hemb]
  exact row1 (iblk1 V c 0 t) (iblk1 V c 1 t) (iblk1 V c 2 t) (iblk1 V c 3 t) (iblk1 V c 4 t) (iblk1 V c 5 t) (iblk1 V c 6 t) (iblk1 V c 7 t)
    (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) p q ⟨2000 * t.val + p.val, by omega⟩
    (fun k => blk1_0 V c t p k _ rfl) (fun k => blk1_1 V c t p k _ rfl) (fun k => blk1_2 V c t p k _ rfl)
    (blk1_3 V c t) (blk1_4 V c t) (blk1_5 V c t) (blk1_6 V c t) (blk1_7 V c t)

/-- Every row of the output lies in the block of the point `row / 2000`. -/
theorem cover1 (i : S50000x256.Idx) : ∃ t : Fin cfg1.N, (cfg1.win 8).flush t = true ∧ i ∈ ((cfg1.win 8).blk t).view.set := by
  have hi0 : (i 0).val < 50000 := (i 0).isLt
  have hi1 : (i 1).val < 256 := (i 1).isLt
  have hN : (i 0).val / 2000 < cfg1.N := by rw [N1]; omega
  obtain ⟨-, -, -, -, -, -, -, -, -, -, -, -, -, -, -, -, e0, e1⟩ := idx1 ⟨(i 0).val / 2000, hN⟩
  refine ⟨⟨(i 0).val / 2000, hN⟩, flush1_8 _, ?_⟩
  show i ∈ ((View.whole main_v91).slice (win1_8.rect ⟨(i 0).val / 2000, hN⟩)).set
  rw [View.set_slice_whole, Rect.mem_set_unit]
  intro a
  match a with
  | ⟨0, _⟩ => show win1_8.index ⟨(i 0).val / 2000, hN⟩ (0 : Fin 2) * 2000 ≤ (i 0).val ∧ (i 0).val < win1_8.index ⟨(i 0).val / 2000, hN⟩ (0 : Fin 2) * 2000 + 2000; rw [e0]; show (i 0).val / 2000 * 2000 ≤ (i 0).val ∧ (i 0).val < (i 0).val / 2000 * 2000 + 2000; omega
  | ⟨1, _⟩ => show win1_8.index ⟨(i 0).val / 2000, hN⟩ (1 : Fin 2) * 256 ≤ (i 1).val ∧ (i 1).val < win1_8.index ⟨(i 0).val / 2000, hN⟩ (1 : Fin 2) * 256 + 256; rw [e1]; omega

/-- The array the region leaves: the layer of the arrays it found, entry by entry. -/
theorem final1 (c : Dev nD) : (dat1 (F := Ideal) V c).arrAt 8 cfg1.N = fun i =>
    Sage.layerKat (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (i 0) (i 1) :=
  (dat1 (F := Ideal) V c).arrAt_eq_of_cover 8 (G1 V c) (fun t _ => flushed1 V c t) cover1

end Cert.KernelIdeal.KReg1

end
-- ==== Proof.KReg2.lean ====
/-
  The classifier region, read off its block pipeline: the grid has 25 points; point `t` works on rows
  `2000 t … 2000 t + 1999` of the neighbour sums, the reciprocal degrees, the second layer's output and of the output, with
  the third layer's two weight matrices and three rows (bias, scale, shift) and the perceptron's two weight matrices and
  two bias rows resident. At row `p` the body forms the third layer's row `max ((((agg·inv)·Wn + h·Wr) + b)·scale + shift) 0`,
  the hidden row `max (· W1 + b1) 0`, the two logits `· W2 + b2`, their maximum `m` and the sum `s` of `exp (logit - m)`,
  and stores `logit - (m + log s)`. The 25 blocks tile the output, so the array the region leaves is that function of the
  arrays it found, entry by entry (`final2`).
-/
import proofs.«149779_j9311489098206_2_alg».proof.Proof.Spec
import proofs.«149779_j9311489098206_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KReg2

open Idealize.ShloMosaic Idealize.ShloMosaic.TcCoe Idealize.ShloMosaic.ValueIdx
open Idealize.SL.Sem
open Idealize.ShloMosaic.Pipeline (Dat)
open Cert.KernelIdeal Cert.KernelIdeal.Gen

/-- A column broadcast along 256 lanes reads the column at the row. -/
theorem bcast_col (v : FVec Ideal S2000x1 .f32) (p : Fin 2000) (k : Fin 256) :
    broadcastTo S2000x256 v broadcasts_S2000x1_S2000x256 (ix2 p k) = v (ix2 p 0) :=
  broadcastTo_apply v broadcasts_S2000x1_S2000x256 (ix2 p k) (ix2 p 0) (fun a => match a with
    | ⟨0, _⟩ => by show p.val = if (2000 : Nat) = 1 then 0 else p.val; rw [if_neg (by decide)]
    | ⟨1, _⟩ => by show 0 = if (1 : Nat) = 1 then 0 else k.val; rw [if_pos rfl])

/-- A row of 256 broadcast along the rows reads the row at the lane. -/
theorem bcast_row (v : FVec Ideal S1x256 .f32) (p : Fin 2000) (q : Fin 256) :
    broadcastTo S2000x256 v broadcasts_S1x256_S2000x256 (ix2 p q) = v (ix2 0 q) :=
  broadcastTo_apply v broadcasts_S1x256_S2000x256 (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- A row of 128 broadcast along the rows reads the row at the lane. -/
theorem bcast_row128 (v : FVec Ideal S1x128 .f32) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- A row of 2 broadcast along the rows reads the row at the class. -/
theorem bcast_row2 (v : FVec Ideal S1x2 .f32) (p : Fin 2000) (q : Fin 2) :
    broadcastTo S2000x2 v broadcasts_S1x2_S2000x2 (ix2 p q) = v (ix2 0 q) :=
  broadcastTo_apply v broadcasts_S1x2_S2000x2 (ix2 p q) (ix2 0 q) (fun a => match a with
    | ⟨0, _⟩ => by show 0 = if (1 : Nat) = 1 then 0 else p.val; rw [if_pos rfl]
    | ⟨1, _⟩ => by show q.val = if (2 : Nat) = 1 then 0 else q.val; rw [if_neg (by decide)])

/-- A column broadcast along the two classes reads the column at the row. -/
theorem bcast_col2 (v : FVec Ideal S2000x1 .f32) (p : Fin 2000) (k : Fin 2) :
    broadcastTo S2000x2 v broadcasts_S2000x1_S2000x2 (ix2 p k) = v (ix2 p 0) :=
  broadcastTo_apply v broadcasts_S2000x1_S2000x2 (ix2 p k) (ix2 p 0) (fun a => match a with
    | ⟨0, _⟩ => by show p.val = if (2000 : Nat) = 1 then 0 else p.val; rw [if_neg (by decide)]
    | ⟨1, _⟩ => by show 0 = if (1 : Nat) = 1 then 0 else k.val; rw [if_pos rfl])

theorem lhsA_0 (i : S2000x256.Idx) (r : dot_S2000x256_S256x256_S2000x256_1_0_0_1_n_n.contr.Idx) : (dot_S2000x256_S256x256_S2000x256_1_0_0_1_n_n.lhsIdx i r 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsA_1 (i : S2000x256.Idx) (r : dot_S2000x256_S256x256_S2000x256_1_0_0_1_n_n.contr.Idx) : (dot_S2000x256_S256x256_S2000x256_1_0_0_1_n_n.lhsIdx i r 1).val = (r ⟨0, by decide⟩).val :=
  dot_S2000x256_S256x256_S2000x256_1_0_0_1_n_n.lhsIdx_val_of_single rfl i r
theorem rhsA_0 (i : S2000x256.Idx) (r : dot_S2000x256_S256x256_S2000x256_1_0_0_1_n_n.contr.Idx) : (dot_S2000x256_S256x256_S2000x256_1_0_0_1_n_n.rhsIdx i r 0).val = (r ⟨0, by decide⟩).val :=
  dot_S2000x256_S256x256_S2000x256_1_0_0_1_n_n.rhsIdx_val_of_single rfl i r
theorem rhsA_1 (i : S2000x256.Idx) (r : dot_S2000x256_S256x256_S2000x256_1_0_0_1_n_n.contr.Idx) : (dot_S2000x256_S256x256_S2000x256_1_0_0_1_n_n.rhsIdx i r 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The matrix product into the zero accumulator, at an entry: the sum over the inner index. -/
theorem mm_at (a : FVec Ideal S2000x256 .bf16) (b : FVec Ideal S256x256 .bf16) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhsA_0 _ _).trans hk
    | ⟨1, _⟩ => exact rhsA_1 _ _)
  rw [el, er]

theorem lhsB_0 (i : S2000x128.Idx) (r : dot_S2000x256_S256x128_S2000x128_1_0_0_1_n_n.contr.Idx) : (dot_S2000x256_S256x128_S2000x128_1_0_0_1_n_n.lhsIdx i r 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhsB_1 (i : S2000x128.Idx) (r : dot_S2000x256_S256x128_S2000x128_1_0_0_1_n_n.contr.Idx) : (dot_S2000x256_S256x128_S2000x128_1_0_0_1_n_n.lhsIdx i r 1).val = (r ⟨0, by decide⟩).val :=
  dot_S2000x256_S256x128_S2000x128_1_0_0_1_n_n.lhsIdx_val_of_single rfl i r
theorem rhsB_0 (i : S2000x128.Idx) (r : dot_S2000x256_S256x128_S2000x128_1_0_0_1_n_n.contr.Idx) : (dot_S2000x256_S256x128_S2000x128_1_0_0_1_n_n.rhsIdx i r 0).val = (r ⟨0, by decide⟩).val :=
  dot_S2000x256_S256x128_S2000x128_1_0_0_1_n_n.rhsIdx_val_of_single rfl i r
theorem rhsB_1 (i : S2000x128.Idx) (r : dot_S2000x256_S256x128_S2000x128_1_0_0_1_n_n.contr.Idx) : (dot_S2000x256_S256x128_S2000x128_1_0_0_1_n_n.rhsIdx i r 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The matrix product into the zero accumulator, at an entry: the sum over the inner index. -/
theorem mmB_at (a : FVec Ideal S2000x256 .bf16) (b : FVec Ideal S256x128 .bf16) (p : Fin 2000) (q : Fin 128) :
    matmul dot_S2000x256_S256x128_S2000x128_1_0_0_1_n_n none a b (constant (F := Ideal) S2000x128 .f32 0x00000000#32) (ix2 p q)
      = ∑ k : Fin 256, a (ix2 p k) * b (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhsB_0 _ _).trans hk
    | ⟨1, _⟩ => exact rhsB_1 _ _)
  rw [el, er]

theorem lhsC_0 (i : S2000x2.Idx) (r : dot_S2000x128_S128x2_S2000x2_1_0_0_1_n_n.contr.Idx) : (dot_S2000x128_S128x2_S2000x2_1_0_0_1_n_n.lhsIdx i r 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem lhsC_1 (i : S2000x2.Idx) (r : dot_S2000x128_S128x2_S2000x2_1_0_0_1_n_n.contr.Idx) : (dot_S2000x128_S128x2_S2000x2_1_0_0_1_n_n.lhsIdx i r 1).val = (r ⟨0, by decide⟩).val :=
  dot_S2000x128_S128x2_S2000x2_1_0_0_1_n_n.lhsIdx_val_of_single rfl i r
theorem rhsC_0 (i : S2000x2.Idx) (r : dot_S2000x128_S128x2_S2000x2_1_0_0_1_n_n.contr.Idx) : (dot_S2000x128_S128x2_S2000x2_1_0_0_1_n_n.rhsIdx i r 0).val = (r ⟨0, by decide⟩).val :=
  dot_S2000x128_S128x2_S2000x2_1_0_0_1_n_n.rhsIdx_val_of_single rfl i r
theorem rhsC_1 (i : S2000x2.Idx) (r : dot_S2000x128_S128x2_S2000x2_1_0_0_1_n_n.contr.Idx) : (dot_S2000x128_S128x2_S2000x2_1_0_0_1_n_n.rhsIdx i r 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The matrix product into the zero accumulator, at an entry: the sum over the inner index. -/
theorem mmC_at (a : FVec Ideal S2000x128 .bf16) (b : FVec Ideal S128x2 .bf16) (p : Fin 2000) (q : Fin 2) :
    matmul dot_S2000x128_S128x2_S2000x2_1_0_0_1_n_n none a b (constant (F := Ideal) S2000x2 .f32 0x00000000#32) (ix2 p q)
      = ∑ k : Fin 128, a (ix2 p k) * b (ix2 k q) := by
  simp only [matmul]
  rw [Ideal.matmul_constant_zero_apply, ← Equiv.sum_comp (contrEquiv1 dot_S2000x128_S128x2_S2000x2_1_0_0_1_n_n 128 rfl rfl).symm]
  refine Finset.sum_congr rfl fun k _ => ?_
  have hk := contrEquiv1_symm_val dot_S2000x128_S128x2_S2000x2_1_0_0_1_n_n 128 rfl rfl k
  have el : dot_S2000x128_S128x2_S2000x2_1_0_0_1_n_n.lhsIdx (ix2 p q) ((contrEquiv1 dot_S2000x128_S128x2_S2000x2_1_0_0_1_n_n 128 rfl rfl).symm k) = ix2 p k := funext fun a => Fin.ext (by
    match a with
    | ⟨0, _⟩ => exact lhsC_0 _ _
    | ⟨1, _⟩ => exact (lhsC_1 _ _).trans hk)
  have er : dot_S2000x128_S128x2_S2000x2_1_0_0_1_n_n.rhsIdx (ix2 p q) ((contrEquiv1 dot_S2000x128_S128x2_S2000x2_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-- The hidden layer's product at row `p`, unit `k` of the block: the last graph layer's row times the first weight matrix. -/
theorem hid_at (x0 : Vec Ideal S2000x256 .f32) (x1 : Vec Ideal S2000x1 .f32) (x2 : Vec Ideal S2000x256 .bf16)
    (x3 x4 : Vec Ideal S256x256 .bf16) (x5 x6 x7 : Vec Ideal S1x256 .f32) (x8 : Vec Ideal S256x128 .bf16) (p : Fin 2000) (k : Fin 128) :
    k2_pay2 (F := Ideal) x0 x1 x2 x3 x4 x5 x6 x7 x8 (ix2 p k)
      = ∑ l : Fin 256, (max ((((∑ m : Fin 256, (x0 (ix2 p m) * x1 (ix2 p 0)) * x3 (ix2 m l)) + ∑ m : Fin 256, x2 (ix2 p m) * x4 (ix2 m l))
          + x5 (ix2 0 l)) * x6 (ix2 0 l) + x7 (ix2 0 l)) 0) * x8 (ix2 l k) := by
  unfold k2_pay2
  simp only [shapeCast_self]
  rw [mmB_at]
  refine Finset.sum_congr rfl fun l _ => congrArg (· * x8 (ix2 l k)) ?_
  rw [truncf_apply, maximumf_apply, addf_apply, mulf_apply, addf_apply, addf_apply, mm_at, mm_at, bcast_row, bcast_row, bcast_row, broadcast_apply]
  simp only [truncf_apply, mulf_apply, bcast_col]
  rw [show (Scalar.ofBits (F := Ideal) .f32 0x00000000#32 : EReal) = 0 from Ideal.ofBits_zero_f32]

/-- The two logits of every row of a block, from the hidden layer's products: bias, rectifier, the second weight matrix, bias. -/
def logitsK (v33 : FVec Ideal S2000x128 .f32) (x9 : Vec Ideal S1x128 .f32) (x10 : Vec Ideal S128x2 .bf16) (x11 : Vec Ideal S1x2 .f32) : FVec Ideal S2000x2 .f32 :=
  addf (matmul dot_S2000x128_S128x2_S2000x2_1_0_0_1_n_n none
      (truncf .bf16 (maximumf (addf v33 (broadcastTo S2000x128 (shapeCast S1x128 x9 shapeCasts_S1x128_S1x128 : FVec Ideal S1x128 .f32) broadcasts_S1x128_S2000x128))
        (broadcast S2000x128 (Scalar.ofBits .f32 0x00000000#32))) bitsLt_bf16_f32)
      (shapeCast S128x2 x10 shapeCasts_S128x2_S128x2 : FVec Ideal S128x2 .bf16) (constant S2000x2 .f32 0x00000000#32))
    (broadcastTo S2000x2 (shapeCast S1x2 x11 shapeCasts_S1x2_S1x2 : FVec Ideal S1x2 .f32) broadcasts_S1x2_S2000x2)

theorem logitsK_at (v33 : FVec Ideal S2000x128 .f32) (x9 : Vec Ideal S1x128 .f32) (x10 : Vec Ideal S128x2 .bf16) (x11 : Vec Ideal S1x2 .f32) (p : Fin 2000) (c : Fin 2) :
    logitsK v33 x9 x10 x11 (ix2 p c) = (∑ k : Fin 128, max (v33 (ix2 p k) + x9 (ix2 0 k)) 0 * x10 (ix2 k c)) + x11 (ix2 0 c) := by
  unfold logitsK
  simp only [shapeCast_self]
  rw [addf_apply, mmC_at, bcast_row2]
  simp only [truncf_apply, maximumf_apply, addf_apply, bcast_row128, broadcast_apply]
  rw [show (Scalar.ofBits (F := Ideal) .f32 0x00000000#32 : EReal) = 0 from Ideal.ofBits_zero_f32]

/-- The log-softmax over the two classes of every row, as the body arranges it: the row maximum `m`, the row sum `s` of
    `exp (· - m)`, and `· - (m + log s)`. -/
def lsmVec (v : FVec Ideal S2000x2 .f32) : FVec Ideal S2000x2 .f32 :=
  subf v (broadcastTo S2000x2
    (addf (shapeCast S2000x1 (multiReduction .maximumf [1] S2000 v 0xFF800000#32 reduces_S2000x2_S2000 (.inl rfl) rfl) shapeCasts_S2000_S2000x1)
      (log (shapeCast S2000x1 (multiReduction .add [1] S2000
        (exp (subf v (broadcastTo S2000x2 (shapeCast S2000x1 (multiReduction .maximumf [1] S2000 v 0xFF800000#32 reduces_S2000x2_S2000 (.inl rfl) rfl) shapeCasts_S2000_S2000x1) broadcasts_S2000x1_S2000x2)))
        0x00000000#32 reduces_S2000x2_S2000 (.inl rfl) rfl) shapeCasts_S2000_S2000x1)))
    broadcasts_S2000x1_S2000x2)

/-- The body's stored value is the log-softmax of its logits. -/
theorem pay1_split (v33 : FVec Ideal S2000x128 .f32) (x9 : Vec Ideal S1x128 .f32) (x10 : Vec Ideal S128x2 .bf16) (x11 : Vec Ideal S1x2 .f32) :
    k2_pay1 (F := Ideal) v33 x9 x10 x11 = lsmVec (logitsK v33 x9 x10 x11) := rfl

/-- The all-ones-exponent, zero-fraction, negative pattern is the bottom of the extended reals. -/
theorem neg_inf : Ideal.ofBits .f32 0xFF800000#32 = ⊥ := by simp [Ideal.ofBits, Ideal.ieee]

/-- The index a reduction over the class axis reads at class `k` of row `p`. -/
theorem lift_at (p : Fin 2000) (k : Fin 2) : reduces_S2000x2_S2000.lift (ix1 p) k = ix2 p k :=
  funext fun a => Fin.ext (by match a with | ⟨0, _⟩ => rfl | ⟨1, _⟩ => rfl)

/-- The fold of `max` over the two-element index type. -/
theorem fold_max_two (b : EReal) (f : Fin 2 → EReal) : (Finset.univ : Finset (Fin 2)).fold max b f = max (f 0) (max (f 1) b) := by
  rw [Finset.univ_fin2, Finset.fold_insert (by decide), Finset.fold_singleton]

/-- The maximum over the two classes of a row, from the bottom element. -/
theorem rowMax_at (v : FVec Ideal S2000x2 .f32) (hφ : FKind.Formats .f32)
    (hacc : (0xFF800000#32 : BitVec 32) = 0xFF800000#32) (p : Fin 2000) :
    multiReduction .maximumf [1] S2000 v 0xFF800000#32 reduces_S2000x2_S2000 hφ hacc (ix1 p) = max (v (ix2 p 0)) (v (ix2 p 1)) := by
  refine (Ideal.multiReduction_maximumf_single v 0xFF800000#32 reduces_S2000x2_S2000 hφ hacc (ix1 p)).trans ?_
  refine (fold_max_two (Ideal.ofBits .f32 0xFF800000#32) (fun k : Fin 2 => v (reduces_S2000x2_S2000.lift (ix1 p) k))).trans ?_
  show max (v (reduces_S2000x2_S2000.lift (ix1 p) (0 : Fin 2))) (max (v (reduces_S2000x2_S2000.lift (ix1 p) (1 : Fin 2))) (Ideal.ofBits .f32 0xFF800000#32)) = _
  rw [neg_inf, max_bot_right, lift_at, lift_at]

/-- The sum over the two classes of a row. -/
theorem rowSum_at (v : FVec Ideal S2000x2 .f32) (hφ : FKind.Formats .f32)
    (hacc : (0x00000000#32 : BitVec 32) = 0x00000000#32) (p : Fin 2000) :
    multiReduction .add [1] S2000 v 0x00000000#32 reduces_S2000x2_S2000 hφ hacc (ix1 p) = v (ix2 p 0) + v (ix2 p 1) := by
  refine (Ideal.multiReduction_add_single v 0x00000000#32 reduces_S2000x2_S2000 hφ hacc (ix1 p)).trans ?_
  show ∑ k : Fin 2, v (reduces_S2000x2_S2000.lift (ix1 p) k) = _
  rw [Fin.sum_univ_two, lift_at, lift_at]

/-- A vector of rows viewed as a column reads the row's entry. -/
theorem toCol_at (v : FVec Ideal S2000 .f32) (p : Fin 2000) :
    shapeCast S2000x1 v shapeCasts_S2000_S2000x1 (ix2 p 0) = v (ix1 p) :=
  shapeCast_apply v shapeCasts_S2000_S2000x1 (ix2 p 0) (ix1 p) (by
    rw [Shape.rowMajor_val_one, Shape.rowMajor_val_two]; show p.val = p.val * 1 + 0; omega)

theorem exp_at (v : FVec Ideal S2000x2 .f32) (i : S2000x2.Idx) : exp v i = Ideal.exp (v i) := rfl
theorem log_at (v : FVec Ideal S2000x1 .f32) (i : S2000x1.Idx) : log v i = Ideal.log (v i) := rfl

/-- The body's log-softmax at class `j` of row `p` is the two-class log-softmax of the row's logits. -/
theorem lsm_at (v : FVec Ideal S2000x2 .f32) (p : Fin 2000) (j : Fin 2) :
    lsmVec v (ix2 p j) = Sage.lsmK (v (ix2 p 0)) (v (ix2 p 1)) (v (ix2 p j)) := by
  unfold lsmVec Sage.lsmK
  simp only [subf_apply, addf_apply, bcast_col2, toCol_at, exp_at, log_at]
  rw [rowSum_at]
  simp only [subf_apply, bcast_col2, toCol_at, exp_at]
  rw [rowMax_at]

/-- The body's stored value at class `j` of row `p` of its block, from the blocks it loads. -/
theorem pay2_at (x0 : Vec Ideal S2000x256 .f32) (x1 : Vec Ideal S2000x1 .f32) (x2 : Vec Ideal S2000x256 .bf16)
    (x3 x4 : Vec Ideal S256x256 .bf16) (x5 x6 x7 : Vec Ideal S1x256 .f32) (x8 : Vec Ideal S256x128 .bf16) (x9 : Vec Ideal S1x128 .f32) (x10 : Vec Ideal S128x2 .bf16) (x11 : Vec Ideal S1x2 .f32) (p : Fin 2000) (j : Fin 2) :
    k2_pay1 (F := Ideal) (k2_pay2 x0 x1 x2 x3 x4 x5 x6 x7 x8) x9 x10 x11 (ix2 p j)
      = Sage.lsmK ((∑ k : Fin 128, (max ((∑ l : Fin 256, (max ((((∑ m : Fin 256, (x0 (ix2 p m) * x1 (ix2 p 0)) * x3 (ix2 m l)) + ∑ m : Fin 256, x2 (ix2 p m) * x4 (ix2 m l))
          + x5 (ix2 0 l)) * x6 (ix2 0 l) + x7 (ix2 0 l)) 0) * x8 (ix2 l k)) + x9 (ix2 0 k)) 0) * x10 (ix2 k 0)) + x11 (ix2 0 0))
      ((∑ k : Fin 128, (max ((∑ l : Fin 256, (max ((((∑ m : Fin 256, (x0 (ix2 p m) * x1 (ix2 p 0)) * x3 (ix2 m l)) + ∑ m : Fin 256, x2 (ix2 p m) * x4 (ix2 m l))
          + x5 (ix2 0 l)) * x6 (ix2 0 l) + x7 (ix2 0 l)) 0) * x8 (ix2 l k)) + x9 (ix2 0 k)) 0) * x10 (ix2 k 1)) + x11 (ix2 0 1))
      ((∑ k : Fin 128, (max ((∑ l : Fin 256, (max ((((∑ m : Fin 256, (x0 (ix2 p m) * x1 (ix2 p 0)) * x3 (ix2 m l)) + ∑ m : Fin 256, x2 (ix2 p m) * x4 (ix2 m l))
          + x5 (ix2 0 l)) * x6 (ix2 0 l) + x7 (ix2 0 l)) 0) * x8 (ix2 l k)) + x9 (ix2 0 k)) 0) * x10 (ix2 k j)) + x11 (ix2 0 j)) := by
  rw [pay1_split, lsm_at]
  simp only [logitsK_at, hid_at]

variable (V : (c : Dev nD) → (b : Ref sig .tc) → Buf (Elt Ideal) ((c : Thread nD τ).loc b))

theorem hz : (![0, 0] : Fin 2 → Nat) = fun _ => 0 := funext fun a => by fin_cases a <;> rfl

/-- What the body leaves in its output block, entry by entry. -/
theorem out2_at (x0 : Vec Ideal S2000x256 .f32) (x1 : Vec Ideal S2000x1 .f32) (x2 : Vec Ideal S2000x256 .bf16)
    (x3 x4 : Vec Ideal S256x256 .bf16) (x5 x6 x7 : Vec Ideal S1x256 .f32) (x8 : Vec Ideal S256x128 .bf16) (x9 : Vec Ideal S1x128 .f32) (x10 : Vec Ideal S128x2 .bf16) (x11 : Vec Ideal S1x2 .f32) :
    out2_12 (F := Ideal) x0 x1 x2 x3 x4 x5 x6 x7 x8 x9 x10 x11 = fun j : S2000x2.Idx =>
      Sage.lsmK ((∑ k : Fin 128, (max ((∑ l : Fin 256, (max ((((∑ m : Fin 256, (x0 (ix2 (j 0) m) * x1 (ix2 (j 0) 0)) * x3 (ix2 m l)) + ∑ m : Fin 256, x2 (ix2 (j 0) m) * x4 (ix2 m l))
          + x5 (ix2 0 l)) * x6 (ix2 0 l) + x7 (ix2 0 l)) 0) * x8 (ix2 l k)) + x9 (ix2 0 k)) 0) * x10 (ix2 k 0)) + x11 (ix2 0 0))
      ((∑ k : Fin 128, (max ((∑ l : Fin 256, (max ((((∑ m : Fin 256, (x0 (ix2 (j 0) m) * x1 (ix2 (j 0) 0)) * x3 (ix2 m l)) + ∑ m : Fin 256, x2 (ix2 (j 0) m) * x4 (ix2 m l))
          + x5 (ix2 0 l)) * x6 (ix2 0 l) + x7 (ix2 0 l)) 0) * x8 (ix2 l k)) + x9 (ix2 0 k)) 0) * x10 (ix2 k 1)) + x11 (ix2 0 1))
      ((∑ k : Fin 128, (max ((∑ l : Fin 256, (max ((((∑ m : Fin 256, (x0 (ix2 (j 0) m) * x1 (ix2 (j 0) 0)) * x3 (ix2 m l)) + ∑ m : Fin 256, x2 (ix2 (j 0) m) * x4 (ix2 m l))
          + x5 (ix2 0 l)) * x6 (ix2 0 l) + x7 (ix2 0 l)) 0) * x8 (ix2 l k)) + x9 (ix2 0 k)) 0) * x10 (ix2 k (j 1))) + x11 (ix2 0 (j 1))) := by
  unfold out2_12
  rw [View.canon_unit_zero hz]
  simp only [View.ld_unit_zero (S := S2000x256) hz, View.ld_unit_zero (S := S2000x1) hz, View.ld_unit_zero (S := S256x256) hz, View.ld_unit_zero (S := S1x256) hz, View.ld_unit_zero (S := S256x128) hz, View.ld_unit_zero (S := S1x128) hz, View.ld_unit_zero (S := S128x2) hz, View.ld_unit_zero (S := S1x2) hz]
  funext j
  obtain ⟨p, q, rfl⟩ : ∃ (p : Fin 2000) (q : Fin 2), j = ix2 p q := ⟨j 0, j 1, eq_ix2 j⟩
  exact pay2_at x0 x1 x2 x3 x4 x5 x6 x7 x8 x9 x10 x11 p q

/-- The windows' block indices over the grid: the row-blocked windows sit at block row `t`, lane block 0; the
    resident ones at block (0, 0). -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = t.val
    ∧ win2_12.index t (1 : Fin 2) = 0 :=
  (by decide +kernel : ∀ t : Fin grid2.N, _)

/-- Window 0's block at point `t` is rows `2000 t … 2000 t + 1999` of its array. -/
theorem blk2_0 (c : Dev nD) (t : Fin cfg2.N) (p : Fin 2000) (k : Fin 256) (n : Fin 50000) (hn : n.val = 2000 * t.val + p.val) :
    (iblk2 (F := Ideal) V c 0 t : Vec Ideal S2000x256 .f32) (ix2 p k) = (V c (Pipeline.arrRef spec2 0) : Sage.A2 50000 256) (ix2 n k) := by
  obtain ⟨e0, e1, -, -, -, -, -, -, -, -, -, -, -, -, -, -, -, -, -, -, -, -, -, -, -, -⟩ := idx2 t
  unfold iblk2
  rw [View.read_apply]
  show V c (Pipeline.arrRef spec2 0) _ = V c (Pipeline.arrRef spec2 0) _
  congr 1
  funext a; apply Fin.ext
  match a with
  | ⟨0, _⟩ => show win2_0.index t (0 : Fin 2) * 2000 + 1 * p.val = n.val; rw [e0, hn]; omega
  | ⟨1, _⟩ => show win2_0.index t (1 : Fin 2) * 256 + 1 * k.val = k.val; rw [e1]; omega

/-- Window 1's block at point `t` is rows `2000 t … 2000 t + 1999` of its array. -/
theorem blk2_1 (c : Dev nD) (t : Fin cfg2.N) (p : Fin 2000) (k : Fin 1) (n : Fin 50000) (hn : n.val = 2000 * t.val + p.val) :
    (iblk2 (F := Ideal) V c 1 t : Vec Ideal S2000x1 .f32) (ix2 p k) = (V c (Pipeline.arrRef spec2 1) : Sage.A2 50000 1) (ix2 n k) := by
  obtain ⟨-, -, e0, e1, -, -, -, -, -, -, -, -, -, -, -, -, -, -, -, -, -, -, -, -, -, -⟩ := idx2 t
  unfold iblk2
  rw [View.read_apply]
  show V c (Pipeline.arrRef spec2 1) _ = V c (Pipeline.arrRef spec2 1) _
  congr 1
  funext a; apply Fin.ext
  match a with
  | ⟨0, _⟩ => show win2_1.index t (0 : Fin 2) * 2000 + 1 * p.val = n.val; rw [e0, hn]; omega
  | ⟨1, _⟩ => show win2_1.index t (1 : Fin 2) * 1 + 1 * k.val = k.val; rw [e1]; omega

/-- Window 2's block at point `t` is rows `2000 t … 2000 t + 1999` of its array. -/
theorem blk2_2 (c : Dev nD) (t : Fin cfg2.N) (p : Fin 2000) (k : Fin 256) (n : Fin 50000) (hn : n.val = 2000 * t.val + p.val) :
    (iblk2 (F := Ideal) V c 2 t : Vec Ideal S2000x256 .bf16) (ix2 p k) = (V c (Pipeline.arrRef spec2 2) : Sage.A2 50000 256) (ix2 n k) := by
  obtain ⟨-, -, -, -, e0, e1, -, -, -, -, -, -, -, -, -, -, -, -, -, -, -, -, -, -, -, -⟩ := idx2 t
  unfold iblk2
  rw [View.read_apply]
  show V c (Pipeline.arrRef spec2 2) _ = V c (Pipeline.arrRef spec2 2) _
  congr 1
  funext a; apply Fin.ext
  match a with
  | ⟨0, _⟩ => show win2_2.index t (0 : Fin 2) * 2000 + 1 * p.val = n.val; rw [e0, hn]; omega
  | ⟨1, _⟩ => show win2_2.index t (1 : Fin 2) * 256 + 1 * k.val = k.val; rw [e1]; omega

/-- Window 3's block at every point is its whole array. -/
theorem blk2_3 (c : Dev nD) (t : Fin cfg2.N) (p : Fin 256) (k : Fin 256) :
    (iblk2 (F := Ideal) V c 3 t : Vec Ideal S256x256 .bf16) (ix2 p k) = (V c (Pipeline.arrRef spec2 3) : Sage.A2 256 256) (ix2 p k) := by
  obtain ⟨-, -, -, -, -, -, e0, e1, -, -, -, -, -, -, -, -, -, -, -, -, -, -, -, -, -, -⟩ := idx2 t
  unfold iblk2
  rw [View.read_apply]
  show V c (Pipeline.arrRef spec2 3) _ = V c (Pipeline.arrRef spec2 3) _
  congr 1
  funext a; apply Fin.ext
  match a with
  | ⟨0, _⟩ => show win2_3.index t (0 : Fin 2) * 256 + 1 * p.val = p.val; rw [e0]; omega
  | ⟨1, _⟩ => show win2_3.index t (1 : Fin 2) * 256 + 1 * k.val = k.val; rw [e1]; omega

/-- Window 4's block at every point is its whole array. -/
theorem blk2_4 (c : Dev nD) (t : Fin cfg2.N) (p : Fin 256) (k : Fin 256) :
    (iblk2 (F := Ideal) V c 4 t : Vec Ideal S256x256 .bf16) (ix2 p k) = (V c (Pipeline.arrRef spec2 4) : Sage.A2 256 256) (ix2 p k) := by
  obtain ⟨-, -, -, -, -, -, -, -, e0, e1, -, -, -, -, -, -, -, -, -, -, -, -, -, -, -, -⟩ := idx2 t
  unfold iblk2
  rw [View.read_apply]
  show V c (Pipeline.arrRef spec2 4) _ = V c (Pipeline.arrRef spec2 4) _
  congr 1
  funext a; apply Fin.ext
  match a with
  | ⟨0, _⟩ => show win2_4.index t (0 : Fin 2) * 256 + 1 * p.val = p.val; rw [e0]; omega
  | ⟨1, _⟩ => show win2_4.index t (1 : Fin 2) * 256 + 1 * k.val = k.val; rw [e1]; omega

/-- Window 5's block at every point is its whole array. -/
theorem blk2_5 (c : Dev nD) (t : Fin cfg2.N) (p : Fin 1) (k : Fin 256) :
    (iblk2 (F := Ideal) V c 5 t : Vec Ideal S1x256 .f32) (ix2 p k) = (V c (Pipeline.arrRef spec2 5) : Sage.A2 1 256) (ix2 p k) := by
  obtain ⟨-, -, -, -, -, -, -, -, -, -, e0, e1, -, -, -, -, -, -, -, -, -, -, -, -, -, -⟩ := idx2 t
  unfold iblk2
  rw [View.read_apply]
  show V c (Pipeline.arrRef spec2 5) _ = V c (Pipeline.arrRef spec2 5) _
  congr 1
  funext a; apply Fin.ext
  match a with
  | ⟨0, _⟩ => show win2_5.index t (0 : Fin 2) * 1 + 1 * p.val = p.val; rw [e0]; omega
  | ⟨1, _⟩ => show win2_5.index t (1 : Fin 2) * 256 + 1 * k.val = k.val; rw [e1]; omega

/-- Window 6's block at every point is its whole array. -/
theorem blk2_6 (c : Dev nD) (t : Fin cfg2.N) (p : Fin 1) (k : Fin 256) :
    (iblk2 (F := Ideal) V c 6 t : Vec Ideal S1x256 .f32) (ix2 p k) = (V c (Pipeline.arrRef spec2 6) : Sage.A2 1 256) (ix2 p k) := by
  obtain ⟨-, -, -, -, -, -, -, -, -, -, -, -, e0, e1, -, -, -, -, -, -, -, -, -, -, -, -⟩ := idx2 t
  unfold iblk2
  rw [View.read_apply]
  show V c (Pipeline.arrRef spec2 6) _ = V c (Pipeline.arrRef spec2 6) _
  congr 1
  funext a; apply Fin.ext
  match a with
  | ⟨0, _⟩ => show win2_6.index t (0 : Fin 2) * 1 + 1 * p.val = p.val; rw [e0]; omega
  | ⟨1, _⟩ => show win2_6.index t (1 : Fin 2) * 256 + 1 * k.val = k.val; rw [e1]; omega

/-- Window 7's block at every point is its whole array. -/
theorem blk2_7 (c : Dev nD) (t : Fin cfg2.N) (p : Fin 1) (k : Fin 256) :
    (iblk2 (F := Ideal) V c 7 t : Vec Ideal S1x256 .f32) (ix2 p k) = (V c (Pipeline.arrRef spec2 7) : Sage.A2 1 256) (ix2 p k) := by
  obtain ⟨-, -, -, -, -, -, -, -, -, -, -, -, -, -, e0, e1, -, -, -, -, -, -, -, -, -, -⟩ := idx2 t
  unfold iblk2
  rw [View.read_apply]
  show V c (Pipeline.arrRef spec2 7) _ = V c (Pipeline.arrRef spec2 7) _
  congr 1
  funext a; apply Fin.ext
  match a with
  | ⟨0, _⟩ => show win2_7.index t (0 : Fin 2) * 1 + 1 * p.val = p.val; rw [e0]; omega
  | ⟨1, _⟩ => show win2_7.index t (1 : Fin 2) * 256 + 1 * k.val = k.val; rw [e1]; omega

/-- Window 8's block at every point is its whole array. -/
theorem blk2_8 (c : Dev nD) (t : Fin cfg2.N) (p : Fin 256) (k : Fin 128) :
    (iblk2 (F := Ideal) V c 8 t : Vec Ideal S256x128 .bf16) (ix2 p k) = (V c (Pipeline.arrRef spec2 8) : Sage.A2 256 128) (ix2 p k) := by
  obtain ⟨-, -, -, -, -, -, -, -, -, -, -, -, -, -, -, -, e0, e1, -, -, -, -, -, -, -, -⟩ := idx2 t
  unfold iblk2
  rw [View.read_apply]
  show V c (Pipeline.arrRef spec2 8) _ = V c (Pipeline.arrRef spec2 8) _
  congr 1
  funext a; apply Fin.ext
  match a with
  | ⟨0, _⟩ => show win2_8.index t (0 : Fin 2) * 256 + 1 * p.val = p.val; rw [e0]; omega
  | ⟨1, _⟩ => show win2_8.index t (1 : Fin 2) * 128 + 1 * k.val = k.val; rw [e1]; omega

/-- Window 9's block at every point is its whole array. -/
theorem blk2_9 (c : Dev nD) (t : Fin cfg2.N) (p : Fin 1) (k : Fin 128) :
    (iblk2 (F := Ideal) V c 9 t : Vec Ideal S1x128 .f32) (ix2 p k) = (V c (Pipeline.arrRef spec2 9) : Sage.A2 1 128) (ix2 p k) := by
  obtain ⟨-, -, -, -, -, -, -, -, -, -, -, -, -, -, -, -, -, -, e0, e1, -, -, -, -, -, -⟩ := idx2 t
  unfold iblk2
  rw [View.read_apply]
  show V c (Pipeline.arrRef spec2 9) _ = V c (Pipeline.arrRef spec2 9) _
  congr 1
  funext a; apply Fin.ext
  match a with
  | ⟨0, _⟩ => show win2_9.index t (0 : Fin 2) * 1 + 1 * p.val = p.val; rw [e0]; omega
  | ⟨1, _⟩ => show win2_9.index t (1 : Fin 2) * 128 + 1 * k.val = k.val; rw [e1]; omega

/-- Window 10's block at every point is its whole array. -/
theorem blk2_10 (c : Dev nD) (t : Fin cfg2.N) (p : Fin 128) (k : Fin 2) :
    (iblk2 (F := Ideal) V c 10 t : Vec Ideal S128x2 .bf16) (ix2 p k) = (V c (Pipeline.arrRef spec2 10) : Sage.A2 128 2) (ix2 p k) := by
  obtain ⟨-, -, -, -, -, -, -, -, -, -, -, -, -, -, -, -, -, -, -, -, e0, e1, -, -, -, -⟩ := idx2 t
  unfold iblk2
  rw [View.read_apply]
  show V c (Pipeline.arrRef spec2 10) _ = V c (Pipeline.arrRef spec2 10) _
  congr 1
  funext a; apply Fin.ext
  match a with
  | ⟨0, _⟩ => show win2_10.index t (0 : Fin 2) * 128 + 1 * p.val = p.val; rw [e0]; omega
  | ⟨1, _⟩ => show win2_10.index t (1 : Fin 2) * 2 + 1 * k.val = k.val; rw [e1]; omega

/-- Window 11's block at every point is its whole array. -/
theorem blk2_11 (c : Dev nD) (t : Fin cfg2.N) (p : Fin 1) (k : Fin 2) :
    (iblk2 (F := Ideal) V c 11 t : Vec Ideal S1x2 .f32) (ix2 p k) = (V c (Pipeline.arrRef spec2 11) : Sage.A2 1 2) (ix2 p k) := by
  obtain ⟨-, -, -, -, -, -, -, -, -, -, -, -, -, -, -, -, -, -, -, -, -, -, e0, e1, -, -⟩ := idx2 t
  unfold iblk2
  rw [View.read_apply]
  show V c (Pipeline.arrRef spec2 11) _ = V c (Pipeline.arrRef spec2 11) _
  congr 1
  funext a; apply Fin.ext
  match a with
  | ⟨0, _⟩ => show win2_11.index t (0 : Fin 2) * 1 + 1 * p.val = p.val; rw [e0]; omega
  | ⟨1, _⟩ => show win2_11.index t (1 : Fin 2) * 2 + 1 * k.val = k.val; rw [e1]; omega

/-- The body's formula on blocks whose row `p` is row `n` of the arrays (and whose resident blocks are the arrays) is the
    classifier head at row `n`. -/
theorem row2 (x0 : Vec Ideal S2000x256 .f32) (x1 : Vec Ideal S2000x1 .f32) (x2 : Vec Ideal S2000x256 .bf16)
    (x3 x4 : Vec Ideal S256x256 .bf16) (x5 x6 x7 : Vec Ideal S1x256 .f32) (x8 : Vec Ideal S256x128 .bf16) (x9 : Vec Ideal S1x128 .f32) (x10 : Vec Ideal S128x2 .bf16) (x11 : Vec Ideal S1x2 .f32)
    (a0 : Sage.A2 50000 256) (a1 : Sage.A2 50000 1) (a2 : Sage.A2 50000 256) (a3 a4 : Sage.A2 256 256) (a5 a6 a7 : Sage.A2 1 256)
    (a8 : Sage.A2 256 128) (a9 : Sage.A2 1 128) (a10 : Sage.A2 128 2) (a11 : Sage.A2 1 2)
    (p : Fin 2000) (j : Fin 2) (n : Fin 50000)
    (h0 : ∀ k, x0 (ix2 p k) = a0 (ix2 n k)) (h1 : ∀ k, x1 (ix2 p k) = a1 (ix2 n k)) (h2 : ∀ k, x2 (ix2 p k) = a2 (ix2 n k))
    (h3 : ∀ k l, x3 (ix2 k l) = a3 (ix2 k l)) (h4 : ∀ k l, x4 (ix2 k l) = a4 (ix2 k l))
    (h5 : ∀ k l, x5 (ix2 k l) = a5 (ix2 k l)) (h6 : ∀ k l, x6 (ix2 k l) = a6 (ix2 k l)) (h7 : ∀ k l, x7 (ix2 k l) = a7 (ix2 k l))
    (h8 : ∀ k l, x8 (ix2 k l) = a8 (ix2 k l)) (h9 : ∀ k l, x9 (ix2 k l) = a9 (ix2 k l)) (h10 : ∀ k l, x10 (ix2 k l) = a10 (ix2 k l))
    (h11 : ∀ k l, x11 (ix2 k l) = a11 (ix2 k l)) :
    Sage.lsmK ((∑ k : Fin 128, (max ((∑ l : Fin 256, (max ((((∑ m : Fin 256, (x0 (ix2 p m) * x1 (ix2 p 0)) * x3 (ix2 m l)) + ∑ m : Fin 256, x2 (ix2 p m) * x4 (ix2 m l))
          + x5 (ix2 0 l)) * x6 (ix2 0 l) + x7 (ix2 0 l)) 0) * x8 (ix2 l k)) + x9 (ix2 0 k)) 0) * x10 (ix2 k 0)) + x11 (ix2 0 0))
      ((∑ k : Fin 128, (max ((∑ l : Fin 256, (max ((((∑ m : Fin 256, (x0 (ix2 p m) * x1 (ix2 p 0)) * x3 (ix2 m l)) + ∑ m : Fin 256, x2 (ix2 p m) * x4 (ix2 m l))
          + x5 (ix2 0 l)) * x6 (ix2 0 l) + x7 (ix2 0 l)) 0) * x8 (ix2 l k)) + x9 (ix2 0 k)) 0) * x10 (ix2 k 1)) + x11 (ix2 0 1))
      ((∑ k : Fin 128, (max ((∑ l : Fin 256, (max ((((∑ m : Fin 256, (x0 (ix2 p m) * x1 (ix2 p 0)) * x3 (ix2 m l)) + ∑ m : Fin 256, x2 (ix2 p m) * x4 (ix2 m l))
          + x5 (ix2 0 l)) * x6 (ix2 0 l) + x7 (ix2 0 l)) 0) * x8 (ix2 l k)) + x9 (ix2 0 k)) 0) * x10 (ix2 k j)) + x11 (ix2 0 j))
      = Sage.headKat a0 a1 a2 a3 a4 a5 a6 a7 a8 a9 a10 a11 n j := by
  unfold Sage.headKat Sage.logitAt Sage.hiddenAt Sage.layerKat
  simp only [h0, h1, h2, h3, h4, h5, h6, h7, h8, h9, h10, h11]

/-- The classifier head as one function of the arrays the region finds. -/
abbrev G2 (c : Dev nD) : S50000x2.Idx → EReal := fun i =>
  Sage.headKat (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (i 0) (i 1)

theorem N2 : cfg2.N = 25 := N_2

/-- What point `t` writes back is block `t` of the head: row `p` of the block is row `2000 t + p` of the arrays. -/
theorem flushed2 (c : Dev nD) (t : Fin cfg2.N) :
    (dat2 (F := Ideal) V c).flushed 12 t = ((cfg2.win 12).blk t).view.read (Elt Ideal) (G2 V c) := by
  show (cfg2.win 12).cut (grid2.coords t) ((dat2 V c).after 12 t) = _
  rw [after2_12, out2_at (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)]
  obtain ⟨-, -, -, -, -, -, -, -, -, -, -, -, -, -, -, -, -, -, -, -, -, -, -, -, e0, e1⟩ := idx2 t
  funext j
  obtain ⟨p, q, rfl⟩ : ∃ (p : Fin 2000) (q : Fin 2), j = ix2 p q := ⟨j 0, j 1, eq_ix2 j⟩
  have ht : t.val < 25 := lt_of_lt_of_eq t.isLt N2
  have hp : p.val < 2000 := p.isLt
  have hemb : ((cfg2.win 12).blk t).view.emb (ix2 p q) = ix2 (⟨2000 * t.val + p.val, by omega⟩ : Fin 50000) q := by
    funext a; apply Fin.ext
    match a with
    | ⟨0, _⟩ => show win2_12.index t (0 : Fin 2) * 2000 + 1 * p.val = 2000 * t.val + p.val; rw [e0]; omega
    | ⟨1, _⟩ => show win2_12.index t (1 : Fin 2) * 2 + 1 * q.val = q.val; rw [e1]; omega
  rw [View.read_apply, hemb]
  exact row2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
    (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) p q ⟨2000 * t.val + p.val, by omega⟩
    (fun k => blk2_0 V c t p k _ rfl) (fun k => blk2_1 V c t p k _ rfl) (fun k => blk2_2 V c t p k _ rfl)
    (blk2_3 V c t) (blk2_4 V c t) (blk2_5 V c t) (blk2_6 V c t) (blk2_7 V c t) (blk2_8 V c t) (blk2_9 V c t) (blk2_10 V c t) (blk2_11 V c t)

/-- Every row of the output lies in the block of the point `row / 2000`. -/
theorem cover2 (i : S50000x2.Idx) : ∃ t : Fin cfg2.N, (cfg2.win 12).flush t = true ∧ i ∈ ((cfg2.win 12).blk t).view.set := by
  have hi0 : (i 0).val < 50000 := (i 0).isLt
  have hi1 : (i 1).val < 2 := (i 1).isLt
  have hN : (i 0).val / 2000 < cfg2.N := by rw [N2]; omega
  obtain ⟨-, -, -, -, -, -, -, -, -, -, -, -, -, -, -, -, -, -, -, -, -, -, -, -, e0, e1⟩ := idx2 ⟨(i 0).val / 2000, hN⟩
  refine ⟨⟨(i 0).val / 2000, hN⟩, flush2_12 _, ?_⟩
  show i ∈ ((View.whole main_v122).slice (win2_12.rect ⟨(i 0).val / 2000, hN⟩)).set
  rw [View.set_slice_whole, Rect.mem_set_unit]
  intro a
  match a with
  | ⟨0, _⟩ => show win2_12.index ⟨(i 0).val / 2000, hN⟩ (0 : Fin 2) * 2000 ≤ (i 0).val ∧ (i 0).val < win2_12.index ⟨(i 0).val / 2000, hN⟩ (0 : Fin 2) * 2000 + 2000; rw [e0]; show (i 0).val / 2000 * 2000 ≤ (i 0).val ∧ (i 0).val < (i 0).val / 2000 * 2000 + 2000; omega
  | ⟨1, _⟩ => show win2_12.index ⟨(i 0).val / 2000, hN⟩ (1 : Fin 2) * 2 ≤ (i 1).val ∧ (i 1).val < win2_12.index ⟨(i 0).val / 2000, hN⟩ (1 : Fin 2) * 2 + 2; rw [e1]; omega

/-- The array the region leaves: the classifier head of the arrays it found, entry by entry. -/
theorem final2 (c : Dev nD) : (dat2 (F := Ideal) V c).arrAt 12 cfg2.N = fun i =>
    Sage.headKat (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (i 0) (i 1) :=
  (dat2 (F := Ideal) V c).arrAt_eq_of_cover 12 (G2 V c) (fun t _ => flushed2 V c t) cover2

end Cert.KernelIdeal.KReg2

end
-- ==== Proof.RefLayers.lean ====
/-
  The reference program's three graph-convolution layers, read index by index.

  Each layer's output array is, at every node `n` and feature `j`, the textbook expression
      relu ((((agg n · inv n) · Wn + b + h n · Wr - mean) · rsqrt (var + eps)) · gamma + beta)
  of the arrays it is computed from: the neighbour sum `agg`, the reciprocal clamped degree `inv`, the layer's
  input `h`, the two weight matrices, the bias and the four normalisation rows. The neighbour sum and the
  reciprocal degree are kept as named arrays and never opened.
-/
import proofs.«149779_j9311489098206_2_alg».proof.Proof.RefReadP
import proofs.«149779_j9311489098206_2_alg».proof.Proof.Spec

noncomputable section

namespace Sage.Ref

open Cert.ReferenceIdeal Cert.ReferenceIdeal.Gen Cert.ReferenceIdeal.ReadP Idealize.ShloMosaic Idealize.ShloMosaic.StableHlo
open Idealize.ShloMosaic.ValueIdx

/-- The first layer (feature width 128 → 256). -/
theorem ref_h1 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x8 x9 x10 x11 : (⟨S3x256, .f32⟩ : BufTy).Contents (Elt Ideal)) :
    val_main_v66 (F := Ideal) x0 x1 x2 x3 x4 x8 x9 x10 x11
      = fun i => Sage.layerRat (N := 50000) (d := 128) (o := 256) (val_main_v33 (F := Ideal) x0 x1) (val_main_v11 (F := Ideal) x1) x0 x2 x3 x4
          (val_main_v44 (F := Ideal) x10) (val_main_v49 (F := Ideal) x11) (val_main_v57 (F := Ideal) x8) (val_main_v62 (F := Ideal) x9)
          (i 0) (i 1) := by
  funext i
  obtain ⟨n, j, rfl⟩ : ∃ (n : Fin 50000) (j : Fin 256), i = ix2 n j := ⟨i 0, i 1, eq_ix2 i⟩
  show _ = Sage.layerRat (N := 50000) (d := 128) (o := 256) _ _ _ _ _ _ _ _ _ _ n j
  -- the index maps of the layout operations, composed, are the coordinates themselves
  have el : ∀ k : Fin 128, lidx_main_v37 (ix2 n j) k = ix2 n k := fun k => funext fun a => Fin.ext (by match a with | ⟨0, _⟩ => rfl | ⟨1, _⟩ => rfl)
  have er : ∀ k : Fin 128, ridx_main_v37 (ix2 n j) k = ix2 k j := fun k => funext fun a => Fin.ext (by match a with | ⟨0, _⟩ => rfl | ⟨1, _⟩ => rfl)
  have el' : ∀ k : Fin 128, lidx_main_v41 (ix2 n j) k = ix2 n k := fun k => funext fun a => Fin.ext (by match a with | ⟨0, _⟩ => rfl | ⟨1, _⟩ => rfl)
  have er' : ∀ k : Fin 128, ridx_main_v41 (ix2 n j) k = ix2 k j := fun k => funext fun a => Fin.ext (by match a with | ⟨0, _⟩ => rfl | ⟨1, _⟩ => rfl)
  have einv : ∀ k : Fin 128, idx_main_v34 (idx_main_v35 (ix2 n k)) = ix1 n := fun k => funext fun a => Fin.ext (by match a with | ⟨0, _⟩ => rfl)
  have eb : idx_main_v38 (idx_main_v39 (ix2 n j)) = ix1 j := funext fun a => Fin.ext (by match a with | ⟨0, _⟩ => rfl)
  have emean : idx_main_v45 (idx_main_v46 (ix2 n j)) = ix1 j := funext fun a => Fin.ext (by match a with | ⟨0, _⟩ => rfl)
  have evar : idx_main_v53 (idx_main_v54 (ix2 n j)) = ix1 j := funext fun a => Fin.ext (by match a with | ⟨0, _⟩ => rfl)
  have egam : idx_main_v58 (idx_main_v59 (ix2 n j)) = ix1 j := funext fun a => Fin.ext (by match a with | ⟨0, _⟩ => rfl)
  have ebet : idx_main_v63 (idx_main_v64 (ix2 n j)) = ix1 j := funext fun a => Fin.ext (by match a with | ⟨0, _⟩ => rfl)
  -- the two matrix products, term by term
  have hs1 : ∀ k : Fin 128, val_main_v36 (F := Ideal) x0 x1 (lidx_main_v37 (ix2 n j) k) * x2 (ridx_main_v37 (ix2 n j) k)
      = (val_main_v33 (F := Ideal) x0 x1 (ix2 n k) * val_main_v11 (F := Ideal) x1 (ix1 n)) * x2 (ix2 k j) := fun k => by
    rw [val_main_v36_apply, val_main_v35_apply, val_main_v34_apply, el k, er k, einv k]; rfl
  have hs2 : ∀ k : Fin 128, x0 (lidx_main_v41 (ix2 n j) k) * x3 (ridx_main_v41 (ix2 n j) k) = x0 (ix2 n k) * x3 (ix2 k j) :=
    fun k => by rw [el' k, er' k]
  rw [val_main_v66_apply, val_main_v65_apply, val_main_v60_apply, val_main_v55_apply, val_main_v47_apply,
    val_main_v42_apply, val_main_v40_apply, val_main_v37_apply, val_main_v41_apply,
    val_main_v39_apply, val_main_v38_apply, val_main_v46_apply, val_main_v45_apply,
    val_main_v54_apply, val_main_v53_apply, val_main_v52_apply, val_main_v51_apply, val_main_v50_apply, val_main_cst_5_apply,
    val_main_v59_apply, val_main_v58_apply, val_main_v64_apply, val_main_v63_apply,
    val_main_call0_v0_apply, val_main_call0_cst_apply,
    Finset.sum_congr rfl (fun k _ => hs1 k), Finset.sum_congr rfl (fun k _ => hs2 k), eb, emean, evar, egam, ebet,
    show FloatOps.ofBits (F := Ideal) .f32 0x00000000#32 = (0 : EReal) from Ideal.ofBits_zero_f32]
  unfold Sage.layerRat Sage.eps
  rfl

/-- The second layer (feature width 256 → 256), on top of the first layer's output. -/
theorem ref_h2 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S2x256x256, .f32⟩ : BufTy).Contents (Elt Ideal)) (x7 : (⟨S2x256, .f32⟩ : BufTy).Contents (Elt Ideal))
    (x8 x9 x10 x11 : (⟨S3x256, .f32⟩ : BufTy).Contents (Elt Ideal)) :
    val_main_v109 (F := Ideal) x0 x1 x2 x3 x4 x5 x6 x7 x8 x9 x10 x11
      = fun i => Sage.layerRat (N := 50000) (d := 256) (o := 256) (val_main_v76 (F := Ideal) x0 x1 x2 x3 x4 x8 x9 x10 x11) (val_main_v11 (F := Ideal) x1) (val_main_v66 (F := Ideal) x0 x1 x2 x3 x4 x8 x9 x10 x11)
          (val_main_v13 (F := Ideal) x5) (val_main_v17 (F := Ideal) x6) (val_main_v21 (F := Ideal) x7)
          (val_main_v87 (F := Ideal) x10) (val_main_v92 (F := Ideal) x11) (val_main_v100 (F := Ideal) x8) (val_main_v105 (F := Ideal) x9)
          (i 0) (i 1) := by
  funext i
  obtain ⟨n, j, rfl⟩ : ∃ (n : Fin 50000) (j : Fin 256), i = ix2 n j := ⟨i 0, i 1, eq_ix2 i⟩
  show _ = Sage.layerRat (N := 50000) (d := 256) (o := 256) _ _ _ _ _ _ _ _ _ _ n j
  -- the index maps of the layout operations, composed, are the coordinates themselves
  have el : ∀ k : Fin 256, lidx_main_v80 (ix2 n j) k = ix2 n k := fun k => funext fun a => Fin.ext (by match a with | ⟨0, _⟩ => rfl | ⟨1, _⟩ => rfl)
  have er : ∀ k : Fin 256, ridx_main_v80 (ix2 n j) k = ix2 k j := fun k => funext fun a => Fin.ext (by match a with | ⟨0, _⟩ => rfl | ⟨1, _⟩ => rfl)
  have el' : ∀ k : Fin 256, lidx_main_v84 (ix2 n j) k = ix2 n k := fun k => funext fun a => Fin.ext (by match a with | ⟨0, _⟩ => rfl | ⟨1, _⟩ => rfl)
  have er' : ∀ k : Fin 256, ridx_main_v84 (ix2 n j) k = ix2 k j := fun k => funext fun a => Fin.ext (by match a with | ⟨0, _⟩ => rfl | ⟨1, _⟩ => rfl)
  have einv : ∀ k : Fin 256, idx_main_v77 (idx_main_v78 (ix2 n k)) = ix1 n := fun k => funext fun a => Fin.ext (by match a with | ⟨0, _⟩ => rfl)
  have eb : idx_main_v81 (idx_main_v82 (ix2 n j)) = ix1 j := funext fun a => Fin.ext (by match a with | ⟨0, _⟩ => rfl)
  have emean : idx_main_v88 (idx_main_v89 (ix2 n j)) = ix1 j := funext fun a => Fin.ext (by match a with | ⟨0, _⟩ => rfl)
  have evar : idx_main_v96 (idx_main_v97 (ix2 n j)) = ix1 j := funext fun a => Fin.ext (by match a with | ⟨0, _⟩ => rfl)
  have egam : idx_main_v101 (idx_main_v102 (ix2 n j)) = ix1 j := funext fun a => Fin.ext (by match a with | ⟨0, _⟩ => rfl)
  have ebet : idx_main_v106 (idx_main_v107 (ix2 n j)) = ix1 j := funext fun a => Fin.ext (by match a with | ⟨0, _⟩ => rfl)
  -- the two matrix products, term by term
  have hs1 : ∀ k : Fin 256, val_main_v79 (F := Ideal) x0 x1 x2 x3 x4 x8 x9 x10 x11 (lidx_main_v80 (ix2 n j) k) * val_main_v13 (F := Ideal) x5 (ridx_main_v80 (ix2 n j) k)
      = (val_main_v76 (F := Ideal) x0 x1 x2 x3 x4 x8 x9 x10 x11 (ix2 n k) * val_main_v11 (F := Ideal) x1 (ix1 n)) * val_main_v13 (F := Ideal) x5 (ix2 k j) := fun k => by
    rw [val_main_v79_apply, val_main_v78_apply, val_main_v77_apply, el k, er k, einv k]; rfl
  have hs2 : ∀ k : Fin 256, val_main_v66 (F := Ideal) x0 x1 x2 x3 x4 x8 x9 x10 x11 (lidx_main_v84 (ix2 n j) k) * val_main_v17 (F := Ideal) x6 (ridx_main_v84 (ix2 n j) k)
      = val_main_v66 (F := Ideal) x0 x1 x2 x3 x4 x8 x9 x10 x11 (ix2 n k) * val_main_v17 (F := Ideal) x6 (ix2 k j) :=
    fun k => by rw [el' k, er' k]
  rw [val_main_v109_apply, val_main_v108_apply, val_main_v103_apply, val_main_v98_apply, val_main_v90_apply,
    val_main_v85_apply, val_main_v83_apply, val_main_v80_apply, val_main_v84_apply,
    val_main_v82_apply, val_main_v81_apply, val_main_v89_apply, val_main_v88_apply,
    val_main_v97_apply, val_main_v96_apply, val_main_v95_apply, val_main_v94_apply, val_main_v93_apply, val_main_cst_9_apply,
    val_main_v102_apply, val_main_v101_apply, val_main_v107_apply, val_main_v106_apply,
    val_main_call1_v0_apply, val_main_call1_cst_apply,
    Finset.sum_congr rfl (fun k _ => hs1 k), Finset.sum_congr rfl (fun k _ => hs2 k), eb, emean, evar, egam, ebet,
    show FloatOps.ofBits (F := Ideal) .f32 0x00000000#32 = (0 : EReal) from Ideal.ofBits_zero_f32]
  unfold Sage.layerRat Sage.eps
  rfl

/-- The third layer (feature width 256 → 256), on top of the second layer's output. -/
theorem ref_h3 (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S2x256x256, .f32⟩ : BufTy).Contents (Elt Ideal)) (x7 : (⟨S2x256, .f32⟩ : BufTy).Contents (Elt Ideal))
    (x8 x9 x10 x11 : (⟨S3x256, .f32⟩ : BufTy).Contents (Elt Ideal)) :
    val_main_v152 (F := Ideal) x0 x1 x2 x3 x4 x5 x6 x7 x8 x9 x10 x11
      = fun i => Sage.layerRat (N := 50000) (d := 256) (o := 256) (val_main_v119 (F := Ideal) x0 x1 x2 x3 x4 x5 x6 x7 x8 x9 x10 x11) (val_main_v11 (F := Ideal) x1) (val_main_v109 (F := Ideal) x0 x1 x2 x3 x4 x5 x6 x7 x8 x9 x10 x11)
          (val_main_v15 (F := Ideal) x5) (val_main_v19 (F := Ideal) x6) (val_main_v23 (F := Ideal) x7)
          (val_main_v130 (F := Ideal) x10) (val_main_v135 (F := Ideal) x11) (val_main_v143 (F := Ideal) x8) (val_main_v148 (F := Ideal) x9)
          (i 0) (i 1) := by
  funext i
  obtain ⟨n, j, rfl⟩ : ∃ (n : Fin 50000) (j : Fin 256), i = ix2 n j := ⟨i 0, i 1, eq_ix2 i⟩
  show _ = Sage.layerRat (N := 50000) (d := 256) (o := 256) _ _ _ _ _ _ _ _ _ _ n j
  -- the index maps of the layout operations, composed, are the coordinates themselves
  have el : ∀ k : Fin 256, lidx_main_v123 (ix2 n j) k = ix2 n k := fun k => funext fun a => Fin.ext (by match a with | ⟨0, _⟩ => rfl | ⟨1, _⟩ => rfl)
  have er : ∀ k : Fin 256, ridx_main_v123 (ix2 n j) k = ix2 k j := fun k => funext fun a => Fin.ext (by match a with | ⟨0, _⟩ => rfl | ⟨1, _⟩ => rfl)
  have el' : ∀ k : Fin 256, lidx_main_v127 (ix2 n j) k = ix2 n k := fun k => funext fun a => Fin.ext (by match a with | ⟨0, _⟩ => rfl | ⟨1, _⟩ => rfl)
  have er' : ∀ k : Fin 256, ridx_main_v127 (ix2 n j) k = ix2 k j := fun k => funext fun a => Fin.ext (by match a with | ⟨0, _⟩ => rfl | ⟨1, _⟩ => rfl)
  have einv : ∀ k : Fin 256, idx_main_v120 (idx_main_v121 (ix2 n k)) = ix1 n := fun k => funext fun a => Fin.ext (by match a with | ⟨0, _⟩ => rfl)
  have eb : idx_main_v124 (idx_main_v125 (ix2 n j)) = ix1 j := funext fun a => Fin.ext (by match a with | ⟨0, _⟩ => rfl)
  have emean : idx_main_v131 (idx_main_v132 (ix2 n j)) = ix1 j := funext fun a => Fin.ext (by match a with | ⟨0, _⟩ => rfl)
  have evar : idx_main_v139 (idx_main_v140 (ix2 n j)) = ix1 j := funext fun a => Fin.ext (by match a with | ⟨0, _⟩ => rfl)
  have egam : idx_main_v144 (idx_main_v145 (ix2 n j)) = ix1 j := funext fun a => Fin.ext (by match a with | ⟨0, _⟩ => rfl)
  have ebet : idx_main_v149 (idx_main_v150 (ix2 n j)) = ix1 j := funext fun a => Fin.ext (by match a with | ⟨0, _⟩ => rfl)
  -- the two matrix products, term by term
  have hs1 : ∀ k : Fin 256, val_main_v122 (F := Ideal) x0 x1 x2 x3 x4 x5 x6 x7 x8 x9 x10 x11 (lidx_main_v123 (ix2 n j) k) * val_main_v15 (F := Ideal) x5 (ridx_main_v123 (ix2 n j) k)
      = (val_main_v119 (F := Ideal) x0 x1 x2 x3 x4 x5 x6 x7 x8 x9 x10 x11 (ix2 n k) * val_main_v11 (F := Ideal) x1 (ix1 n)) * val_main_v15 (F := Ideal) x5 (ix2 k j) := fun k => by
    rw [val_main_v122_apply, val_main_v121_apply, val_main_v120_apply, el k, er k, einv k]; rfl
  have hs2 : ∀ k : Fin 256, val_main_v109 (F := Ideal) x0 x1 x2 x3 x4 x5 x6 x7 x8 x9 x10 x11 (lidx_main_v127 (ix2 n j) k) * val_main_v19 (F := Ideal) x6 (ridx_main_v127 (ix2 n j) k)
      = val_main_v109 (F := Ideal) x0 x1 x2 x3 x4 x5 x6 x7 x8 x9 x10 x11 (ix2 n k) * val_main_v19 (F := Ideal) x6 (ix2 k j) :=
    fun k => by rw [el' k, er' k]
  rw [val_main_v152_apply, val_main_v151_apply, val_main_v146_apply, val_main_v141_apply, val_main_v133_apply,
    val_main_v128_apply, val_main_v126_apply, val_main_v123_apply, val_main_v127_apply,
    val_main_v125_apply, val_main_v124_apply, val_main_v132_apply, val_main_v131_apply,
    val_main_v140_apply, val_main_v139_apply, val_main_v138_apply, val_main_v137_apply, val_main_v136_apply, val_main_cst_13_apply,
    val_main_v145_apply, val_main_v144_apply, val_main_v150_apply, val_main_v149_apply,
    val_main_call2_v0_apply, val_main_call2_cst_apply,
    Finset.sum_congr rfl (fun k _ => hs1 k), Finset.sum_congr rfl (fun k _ => hs2 k), eb, emean, evar, egam, ebet,
    show FloatOps.ofBits (F := Ideal) .f32 0x00000000#32 = (0 : EReal) from Ideal.ofBits_zero_f32]
  unfold Sage.layerRat Sage.eps
  rfl

end Sage.Ref

end
-- ==== Proof.RefHead.lean ====
/-
  The reference program's classifier head, read index by index.

  On top of the last layer's output `h3` the head computes, for node `n`, the hidden units
  `relu (h3 n · W1 + b1)`, the two logits `hidden n · W2 + b2`, and their log-softmax
  `(x - m) - log (exp (l0 - m) + exp (l1 - m))` with `m = max l0 l1`. The maximum over the two classes is a
  fold from −∞ over the class axis; the sum of the two exponentials is a sum from 0 over the same axis.
-/
import proofs.«149779_j9311489098206_2_alg».proof.Proof.RefReadP
import proofs.«149779_j9311489098206_2_alg».proof.Proof.Spec

noncomputable section

namespace Sage.Ref

open Cert.ReferenceIdeal Cert.ReferenceIdeal.Gen Cert.ReferenceIdeal.ReadP Idealize.ShloMosaic Idealize.ShloMosaic.StableHlo
open Idealize.ShloMosaic.ValueIdx

/-- A fold of a commutative, associative operation over the two-element index set. -/
theorem fold_univ_fin2 {α : Type} (f : α → α → α) [Std.Commutative f] [Std.Associative f] (b : α) (g : Fin 2 → α) :
    (Finset.univ : Finset (Fin 2)).fold f b g = f (g 0) (f (g 1) b) := by
  rw [show (Finset.univ : Finset (Fin 2)) = insert 0 {1} from by decide, Finset.fold_insert (by decide), Finset.fold_singleton]

/-- The reduced index `n` with class `k` put back is (n, k). -/
theorem lift_ix1 (h : S50000x2.Reduces [1] S50000) (n : Fin 50000) (k : Fin (S50000x2.size 1)) :
    h.lift (ix1 n) k = ix2 n (⟨k.val, k.isLt⟩ : Fin 2) := by
  funext c; apply Fin.ext
  match c with
  | ⟨0, _⟩ => rfl
  | ⟨1, _⟩ => rfl

/-- From −∞ the maximum-reduce over the two classes is, at node `n`, the larger of the two entries. -/
theorem maxReduce_two (L : FVec Ideal S50000x2 .f32) (n : Fin 50000) :
    Host.reduce (FloatOps.maximumf (F := Ideal) (φ := .f32)) L (constant (F := Ideal) S_ .f32 0xFF800000#32) reducesTo_S50000x2_S50000_d1 h_S_ (ix1 n)
      = max (L (ix2 n 0)) (L (ix2 n 1)) := by
  have h : S50000x2.Reduces [1] S50000 := by decide
  rw [Host.reduce_eq_fold_single (FloatOps.maximumf (F := Ideal) (φ := .f32)) L _ reducesTo_S50000x2_S50000_d1 h h_S_]
  refine (fold_univ_fin2 (FloatOps.maximumf (F := Ideal) (φ := .f32)) _ (L ∘ h.lift (ix1 n))).trans ?_
  show max (L (h.lift (ix1 n) (0 : Fin 2))) (max (L (h.lift (ix1 n) (1 : Fin 2))) (Ideal.ofBits .f32 0xFF800000#32)) = _
  have hb : ∀ y : EReal, max y (Ideal.ofBits .f32 0xFF800000#32) = y := fun y => by simp [Ideal.ofBits, Ideal.ieee]
  exact congrArg₂ max (congrArg L (lift_ix1 h n (0 : Fin 2))) ((hb _).trans (congrArg L (lift_ix1 h n (1 : Fin 2))))

/-- The maximum-reduce stage of the log-softmax, at node `n`: the larger of the two logits. -/
theorem call4_v0_at (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S2x256x256, .f32⟩ : BufTy).Contents (Elt Ideal)) (x7 : (⟨S2x256, .f32⟩ : BufTy).Contents (Elt Ideal))
    (x8 x9 x10 x11 : (⟨S3x256, .f32⟩ : BufTy).Contents (Elt Ideal)) (x12 : (⟨S256x128, .f32⟩ : BufTy).Contents (Elt Ideal))
    (x13 : (⟨S128, .f32⟩ : BufTy).Contents (Elt Ideal)) (x14 : (⟨S128x2, .f32⟩ : BufTy).Contents (Elt Ideal)) (x15 : (⟨S2, .f32⟩ : BufTy).Contents (Elt Ideal)) (n : Fin 50000) :
    val_main_call4_v0 (F := Ideal) x0 x1 x2 x3 x4 x5 x6 x7 x8 x9 x10 x11 x12 x13 x14 x15 (ix1 n)
      = max (val_main_v161 (F := Ideal) x0 x1 x2 x3 x4 x5 x6 x7 x8 x9 x10 x11 x12 x13 x14 x15 (ix2 n 0)) (val_main_v161 (F := Ideal) x0 x1 x2 x3 x4 x5 x6 x7 x8 x9 x10 x11 x12 x13 x14 x15 (ix2 n 1)) := by
  unfold val_main_call4_v0 val_main_call4_cst
  generalize val_main_v161 (F := Ideal) x0 x1 x2 x3 x4 x5 x6 x7 x8 x9 x10 x11 x12 x13 x14 x15 = L
  exact maxReduce_two L n

/-- The logits: `relu (h3 n · W1 + b1) · W2 + b2`. -/
theorem ref_logit (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S2x256x256, .f32⟩ : BufTy).Contents (Elt Ideal)) (x7 : (⟨S2x256, .f32⟩ : BufTy).Contents (Elt Ideal))
    (x8 x9 x10 x11 : (⟨S3x256, .f32⟩ : BufTy).Contents (Elt Ideal)) (x12 : (⟨S256x128, .f32⟩ : BufTy).Contents (Elt Ideal))
    (x13 : (⟨S128, .f32⟩ : BufTy).Contents (Elt Ideal)) (x14 : (⟨S128x2, .f32⟩ : BufTy).Contents (Elt Ideal)) (x15 : (⟨S2, .f32⟩ : BufTy).Contents (Elt Ideal)) :
    val_main_v161 (F := Ideal) x0 x1 x2 x3 x4 x5 x6 x7 x8 x9 x10 x11 x12 x13 x14 x15
      = fun i => Sage.logitAt (N := 50000) (d := 256) (e := 128) (fun n k => val_main_v152 (F := Ideal) x0 x1 x2 x3 x4 x5 x6 x7 x8 x9 x10 x11 (ix2 n k)) x12
          (fun k => x13 (ix1 k)) x14 (fun c => x15 (ix1 c)) (i 0) (i 1) := by
  funext i
  obtain ⟨n, j, rfl⟩ : ∃ (n : Fin 50000) (j : Fin 2), i = ix2 n j := ⟨i 0, i 1, eq_ix2 i⟩
  show _ = Sage.logitAt (N := 50000) (d := 256) (e := 128) (fun n k => val_main_v152 (F := Ideal) x0 x1 x2 x3 x4 x5 x6 x7 x8 x9 x10 x11 (ix2 n k)) x12
          (fun k => x13 (ix1 k)) x14 (fun c => x15 (ix1 c)) n j
  have el : ∀ k : Fin 128, lidx_main_v158 (ix2 n j) k = ix2 n k := fun k => funext fun a => Fin.ext (by match a with | ⟨0, _⟩ => rfl | ⟨1, _⟩ => rfl)
  have er : ∀ k : Fin 128, ridx_main_v158 (ix2 n j) k = ix2 k j := fun k => funext fun a => Fin.ext (by match a with | ⟨0, _⟩ => rfl | ⟨1, _⟩ => rfl)
  have el' : ∀ (k : Fin 128) (k' : Fin 256), lidx_main_v153 (ix2 n k) k' = ix2 n k' := fun k k' => funext fun a => Fin.ext (by match a with | ⟨0, _⟩ => rfl | ⟨1, _⟩ => rfl)
  have er' : ∀ (k : Fin 128) (k' : Fin 256), ridx_main_v153 (ix2 n k) k' = ix2 k' k := fun k k' => funext fun a => Fin.ext (by match a with | ⟨0, _⟩ => rfl | ⟨1, _⟩ => rfl)
  have eb1 : ∀ k : Fin 128, idx_main_v154 (idx_main_v155 (ix2 n k)) = ix1 k := fun k => funext fun a => Fin.ext (by match a with | ⟨0, _⟩ => rfl)
  have eb2 : idx_main_v159 (idx_main_v160 (ix2 n j)) = ix1 j := funext fun a => Fin.ext (by match a with | ⟨0, _⟩ => rfl)
  -- a hidden unit
  have hh : ∀ k : Fin 128, val_main_v157 (F := Ideal) x0 x1 x2 x3 x4 x5 x6 x7 x8 x9 x10 x11 x12 x13 (ix2 n k)
      = Sage.hiddenAt (N := 50000) (d := 256) (e := 128) (fun n k => val_main_v152 (F := Ideal) x0 x1 x2 x3 x4 x5 x6 x7 x8 x9 x10 x11 (ix2 n k)) x12 (fun k => x13 (ix1 k)) n k := fun k => by
    have hs : ∀ k' : Fin 256, val_main_v152 (F := Ideal) x0 x1 x2 x3 x4 x5 x6 x7 x8 x9 x10 x11 (lidx_main_v153 (ix2 n k) k') * x12 (ridx_main_v153 (ix2 n k) k')
        = val_main_v152 (F := Ideal) x0 x1 x2 x3 x4 x5 x6 x7 x8 x9 x10 x11 (ix2 n k') * x12 (ix2 k' k) := fun k' => by rw [el' k k', er' k k']
    rw [val_main_v157_apply, val_main_v156_apply, val_main_v153_apply, val_main_v155_apply, val_main_v154_apply,
      val_main_call3_v0_apply, val_main_call3_cst_apply, Finset.sum_congr rfl (fun k' _ => hs k'), eb1 k,
      show FloatOps.ofBits (F := Ideal) .f32 0x00000000#32 = (0 : EReal) from Ideal.ofBits_zero_f32]
    unfold Sage.hiddenAt
    rfl
  have hs : ∀ k : Fin 128, val_main_v157 (F := Ideal) x0 x1 x2 x3 x4 x5 x6 x7 x8 x9 x10 x11 x12 x13 (lidx_main_v158 (ix2 n j) k) * x14 (ridx_main_v158 (ix2 n j) k)
      = Sage.hiddenAt (N := 50000) (d := 256) (e := 128) (fun n k => val_main_v152 (F := Ideal) x0 x1 x2 x3 x4 x5 x6 x7 x8 x9 x10 x11 (ix2 n k)) x12 (fun k => x13 (ix1 k)) n k * x14 (ix2 k j) := fun k => by rw [el k, er k, hh k]
  rw [val_main_v161_apply, val_main_v158_apply, val_main_v160_apply, val_main_v159_apply,
    Finset.sum_congr rfl (fun k _ => hs k), eb2]
  unfold Sage.logitAt
  rfl

/-- The output: the log-softmax of the two logits. -/
theorem ref_out (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S2x256x256, .f32⟩ : BufTy).Contents (Elt Ideal)) (x7 : (⟨S2x256, .f32⟩ : BufTy).Contents (Elt Ideal))
    (x8 x9 x10 x11 : (⟨S3x256, .f32⟩ : BufTy).Contents (Elt Ideal)) (x12 : (⟨S256x128, .f32⟩ : BufTy).Contents (Elt Ideal))
    (x13 : (⟨S128, .f32⟩ : BufTy).Contents (Elt Ideal)) (x14 : (⟨S128x2, .f32⟩ : BufTy).Contents (Elt Ideal)) (x15 : (⟨S2, .f32⟩ : BufTy).Contents (Elt Ideal)) :
    val_main_v162 (F := Ideal) x0 x1 x2 x3 x4 x5 x6 x7 x8 x9 x10 x11 x12 x13 x14 x15
      = fun i => Sage.headRat (N := 50000) (o := 256) (e := 128) (val_main_v152 (F := Ideal) x0 x1 x2 x3 x4 x5 x6 x7 x8 x9 x10 x11) x12 x13 x14 x15 (i 0) (i 1) := by
  funext i
  obtain ⟨n, j, rfl⟩ : ∃ (n : Fin 50000) (j : Fin 2), i = ix2 n j := ⟨i 0, i 1, eq_ix2 i⟩
  show _ = Sage.headRat (N := 50000) (o := 256) (e := 128) _ _ _ _ _ n j
  have e34 : ∀ c : Fin 2, idx_main_call4_v3 (idx_main_call4_v4 (ix2 n c)) = ix1 n := fun c => funext fun a => Fin.ext (by match a with | ⟨0, _⟩ => rfl)
  have e7 : ∀ c : Fin 2, idx_main_call4_v7 (ix1 n) c = ix2 n c := fun c => funext fun a => Fin.ext (by match a with | ⟨0, _⟩ => rfl | ⟨1, _⟩ => rfl)
  have e810 : idx_main_call4_v8 (idx_main_call4_v10 (ix2 n j)) = ix1 n := funext fun a => Fin.ext (by match a with | ⟨0, _⟩ => rfl)
  have hbot : ∀ y : EReal, max (Ideal.ofBits .f32 0xFF800000#32) y = y := fun y => by simp [Ideal.ofBits, Ideal.ieee]
  -- the shift: the larger logit
  have hm : val_main_call4_v2 (F := Ideal) x0 x1 x2 x3 x4 x5 x6 x7 x8 x9 x10 x11 x12 x13 x14 x15 (ix1 n)
      = max (val_main_v161 (F := Ideal) x0 x1 x2 x3 x4 x5 x6 x7 x8 x9 x10 x11 x12 x13 x14 x15 (ix2 n 0)) (val_main_v161 (F := Ideal) x0 x1 x2 x3 x4 x5 x6 x7 x8 x9 x10 x11 x12 x13 x14 x15 (ix2 n 1)) := by
    rw [val_main_call4_v2_apply, val_main_call4_v1_apply, val_main_call4_cst_0_apply, call4_v0_at, Ideal.maximumf_def, Ideal.ofBits_def]
    exact hbot _
  -- a shifted logit
  have h5 : ∀ c : Fin 2, val_main_call4_v5 (F := Ideal) x0 x1 x2 x3 x4 x5 x6 x7 x8 x9 x10 x11 x12 x13 x14 x15 (ix2 n c)
      = val_main_v161 (F := Ideal) x0 x1 x2 x3 x4 x5 x6 x7 x8 x9 x10 x11 x12 x13 x14 x15 (ix2 n c)
        - max (val_main_v161 (F := Ideal) x0 x1 x2 x3 x4 x5 x6 x7 x8 x9 x10 x11 x12 x13 x14 x15 (ix2 n 0)) (val_main_v161 (F := Ideal) x0 x1 x2 x3 x4 x5 x6 x7 x8 x9 x10 x11 x12 x13 x14 x15 (ix2 n 1)) := fun c => by
    rw [val_main_call4_v5_apply, val_main_call4_v4_apply, val_main_call4_v3_apply, e34 c, hm, Ideal.subf_def]
  -- the sum of the two exponentials
  have h7 : val_main_call4_v7 (F := Ideal) x0 x1 x2 x3 x4 x5 x6 x7 x8 x9 x10 x11 x12 x13 x14 x15 (ix1 n)
      = Ideal.exp (val_main_v161 (F := Ideal) x0 x1 x2 x3 x4 x5 x6 x7 x8 x9 x10 x11 x12 x13 x14 x15 (ix2 n 0)
          - max (val_main_v161 (F := Ideal) x0 x1 x2 x3 x4 x5 x6 x7 x8 x9 x10 x11 x12 x13 x14 x15 (ix2 n 0)) (val_main_v161 (F := Ideal) x0 x1 x2 x3 x4 x5 x6 x7 x8 x9 x10 x11 x12 x13 x14 x15 (ix2 n 1)))
        + Ideal.exp (val_main_v161 (F := Ideal) x0 x1 x2 x3 x4 x5 x6 x7 x8 x9 x10 x11 x12 x13 x14 x15 (ix2 n 1)
          - max (val_main_v161 (F := Ideal) x0 x1 x2 x3 x4 x5 x6 x7 x8 x9 x10 x11 x12 x13 x14 x15 (ix2 n 0)) (val_main_v161 (F := Ideal) x0 x1 x2 x3 x4 x5 x6 x7 x8 x9 x10 x11 x12 x13 x14 x15 (ix2 n 1))) := by
    rw [val_main_call4_v7_apply, val_main_call4_cst_1_apply, Fin.sum_univ_two, val_main_call4_v6_apply, val_main_call4_v6_apply,
      e7 0, e7 1, h5 0, h5 1, show FloatOps.ofBits (F := Ideal) .f32 0x00000000#32 = (0 : EReal) from Ideal.ofBits_zero_f32, zero_add,
      Ideal.hostUnary_exp_def, Ideal.hostUnary_exp_def]
  have hL : ∀ c : Fin 2, val_main_v161 (F := Ideal) x0 x1 x2 x3 x4 x5 x6 x7 x8 x9 x10 x11 x12 x13 x14 x15 (ix2 n c)
      = Sage.logitAt (N := 50000) (d := 256) (e := 128) (fun n k => val_main_v152 (F := Ideal) x0 x1 x2 x3 x4 x5 x6 x7 x8 x9 x10 x11 (ix2 n k)) x12
          (fun k => x13 (ix1 k)) x14 (fun c => x15 (ix1 c)) n c := fun c => congrFun (ref_logit x0 x1 x2 x3 x4 x5 x6 x7 x8 x9 x10 x11 x12 x13 x14 x15) (ix2 n c)
  rw [val_main_v162_apply, val_main_call4_v10_apply, val_main_call4_v9_apply, val_main_call4_v8_apply, e810, h7, h5 j,
    Ideal.subf_def, Ideal.hostUnary_log_def, hL 0, hL 1, hL j]
  unfold Sage.headRat Sage.lsmR
  rfl

end Sage.Ref

end
-- ==== Proof.RefFinite.lean ====
/-
  Finiteness of the reference's parameter stages.

  The reciprocal of the clamped in-degree is finite: the in-degree is a sum of ones into zeros, hence a real number,
  its maximum with one is a real number not below one, and one divided by it is the real reciprocal. Every weight,
  bias and normalisation row the layers read is a reshaped slice of an argument array, so each of its entries is an
  entry of that array: it is a real number where the array's entries are, and non-negative where they are.
-/
import proofs.«149779_j9311489098206_2_alg».proof.Proof.RefReadP
import proofs.«149779_j9311489098206_2_alg».proof.Proof.Algebra
import proofs.«149779_j9311489098206_2_alg».proof.Proof.RefAgg

set_option maxRecDepth 16384

noncomputable section

namespace Cert.ReferenceIdeal.RefFinite

open Cert.ReferenceIdeal Cert.ReferenceIdeal.Gen Cert.ReferenceIdeal.ReadP Idealize.ShloMosaic Sage

/-! ## The reciprocal in-degree -/

/-- The word of the number one denotes one. -/
theorem ofBits_one : Ideal.ofBits .f32 0x3F800000#32 = (1 : EReal) := by
  simp [Ideal.ofBits, Ideal.ieee, -EReal.coe_mul]; norm_num

/-- The in-degree, a sum of ones into zeros, is a real number. -/
theorem deg_fin (x1 : (⟨S2x800000, .i32⟩ : BufTy).Contents (Elt Ideal)) (i) : IsFin (val_main_v7 (F := Ideal) x1 i) := by
  unfold val_main_v7
  refine host_scatterAdd_finite (φ := .f32) _ _ _ _ (fun j => ?_) (fun j => ?_) i
  · rw [val_main_v5_apply, val_main_cst_0_apply]; exact ⟨0, Ideal.ofBits_zero_f32⟩
  · rw [val_main_v4_apply, val_main_cst_apply]; exact ⟨1, ofBits_one⟩

/-- One over the in-degree clamped below at one is a real number. -/
theorem inv_fin (x1 : (⟨S2x800000, .i32⟩ : BufTy).Contents (Elt Ideal)) : ∀ i, IsFin (val_main_v11 (F := Ideal) x1 i) := by
  intro i
  obtain ⟨r, hr⟩ := deg_fin x1 i
  have e10 : val_main_v10 (F := Ideal) i = ((1 : ℝ) : EReal) := by
    rw [val_main_v10_apply, val_main_cst_2_apply]; exact ofBits_one
  have e8 : val_main_v8 (F := Ideal) i = ((1 : ℝ) : EReal) := by
    rw [val_main_v8_apply, val_main_cst_1_apply]; exact ofBits_one
  rw [val_main_v11_apply, val_main_v9_apply, Ideal.hostDivf_def, Ideal.maximumf_def, e10, e8, hr, ← Sage.coe_max,
    Ideal.div_coe (lt_of_lt_of_le one_pos (le_max_right r 1)).ne']
  exact (isFin_coe 1).mul (isFin_coe _)

/-! ## Reshaped slices of the arguments -/

/-- An array each of whose entries is an entry of a real array is real. -/
theorem fin_of_entry {ι κ : Type*} (x : κ → EReal) (y : ι → EReal) (g : ι → κ) (e : ∀ i, y i = x (g i))
    (hx : ∀ k, x k ≠ ⊤ ∧ x k ≠ ⊥) : ∀ i, IsFin (y i) :=
  fun i => by rw [e i]; exact IsFin.of_ne (hx _).1 (hx _).2

/-- An array each of whose entries is an entry of a non-negative array is non-negative. -/
theorem nonneg_of_entry {ι κ : Type*} (x : κ → EReal) (y : ι → EReal) (g : ι → κ) (e : ∀ i, y i = x (g i))
    (hx : ∀ k, 0 ≤ x k) : ∀ i, 0 ≤ y i :=
  fun i => by rw [e i]; exact hx _

theorem v13_entry (x : FVec Ideal S2x256x256 .f32) (i) :
    val_main_v13 (F := Ideal) x i = x (idx_main_v12 (idx_main_v13 i)) := by
  rw [val_main_v13_apply, val_main_v12_apply]

theorem v13_fin (x : FVec Ideal S2x256x256 .f32) (hx : ∀ i, x i ≠ ⊤ ∧ x i ≠ ⊥) : ∀ i, IsFin (val_main_v13 (F := Ideal) x i) :=
  fin_of_entry x _ _ (v13_entry x) hx

theorem v15_entry (x : FVec Ideal S2x256x256 .f32) (i) :
    val_main_v15 (F := Ideal) x i = x (idx_main_v14 (idx_main_v15 i)) := by
  rw [val_main_v15_apply, val_main_v14_apply]

theorem v15_fin (x : FVec Ideal S2x256x256 .f32) (hx : ∀ i, x i ≠ ⊤ ∧ x i ≠ ⊥) : ∀ i, IsFin (val_main_v15 (F := Ideal) x i) :=
  fin_of_entry x _ _ (v15_entry x) hx

theorem v17_entry (x : FVec Ideal S2x256x256 .f32) (i) :
    val_main_v17 (F := Ideal) x i = x (idx_main_v16 (idx_main_v17 i)) := by
  rw [val_main_v17_apply, val_main_v16_apply]

theorem v17_fin (x : FVec Ideal S2x256x256 .f32) (hx : ∀ i, x i ≠ ⊤ ∧ x i ≠ ⊥) : ∀ i, IsFin (val_main_v17 (F := Ideal) x i) :=
  fin_of_entry x _ _ (v17_entry x) hx

theorem v19_entry (x : FVec Ideal S2x256x256 .f32) (i) :
    val_main_v19 (F := Ideal) x i = x (idx_main_v18 (idx_main_v19 i)) := by
  rw [val_main_v19_apply, val_main_v18_apply]

theorem v19_fin (x : FVec Ideal S2x256x256 .f32) (hx : ∀ i, x i ≠ ⊤ ∧ x i ≠ ⊥) : ∀ i, IsFin (val_main_v19 (F := Ideal) x i) :=
  fin_of_entry x _ _ (v19_entry x) hx

theorem v21_entry (x : FVec Ideal S2x256 .f32) (i) :
    val_main_v21 (F := Ideal) x i = x (idx_main_v20 (idx_main_v21 i)) := by
  rw [val_main_v21_apply, val_main_v20_apply]

theorem v21_fin (x : FVec Ideal S2x256 .f32) (hx : ∀ i, x i ≠ ⊤ ∧ x i ≠ ⊥) : ∀ i, IsFin (val_main_v21 (F := Ideal) x i) :=
  fin_of_entry x _ _ (v21_entry x) hx

theorem v23_entry (x : FVec Ideal S2x256 .f32) (i) :
    val_main_v23 (F := Ideal) x i = x (idx_main_v22 (idx_main_v23 i)) := by
  rw [val_main_v23_apply, val_main_v22_apply]

theorem v23_fin (x : FVec Ideal S2x256 .f32) (hx : ∀ i, x i ≠ ⊤ ∧ x i ≠ ⊥) : ∀ i, IsFin (val_main_v23 (F := Ideal) x i) :=
  fin_of_entry x _ _ (v23_entry x) hx

theorem v44_entry (x : FVec Ideal S3x256 .f32) (i) :
    val_main_v44 (F := Ideal) x i = x (idx_main_v43 (idx_main_v44 i)) := by
  rw [val_main_v44_apply, val_main_v43_apply]

theorem v44_fin (x : FVec Ideal S3x256 .f32) (hx : ∀ i, x i ≠ ⊤ ∧ x i ≠ ⊥) : ∀ i, IsFin (val_main_v44 (F := Ideal) x i) :=
  fin_of_entry x _ _ (v44_entry x) hx

theorem v49_entry (x : FVec Ideal S3x256 .f32) (i) :
    val_main_v49 (F := Ideal) x i = x (idx_main_v48 (idx_main_v49 i)) := by
  rw [val_main_v49_apply, val_main_v48_apply]

theorem v49_fin (x : FVec Ideal S3x256 .f32) (hx : ∀ i, x i ≠ ⊤ ∧ x i ≠ ⊥) : ∀ i, IsFin (val_main_v49 (F := Ideal) x i) :=
  fin_of_entry x _ _ (v49_entry x) hx

theorem v49_nonneg (x : FVec Ideal S3x256 .f32) (hx : ∀ i, 0 ≤ x i) : ∀ i, 0 ≤ val_main_v49 (F := Ideal) x i :=
  nonneg_of_entry x _ _ (v49_entry x) hx

theorem v57_entry (x : FVec Ideal S3x256 .f32) (i) :
    val_main_v57 (F := Ideal) x i = x (idx_main_v56 (idx_main_v57 i)) := by
  rw [val_main_v57_apply, val_main_v56_apply]

theorem v57_fin (x : FVec Ideal S3x256 .f32) (hx : ∀ i, x i ≠ ⊤ ∧ x i ≠ ⊥) : ∀ i, IsFin (val_main_v57 (F := Ideal) x i) :=
  fin_of_entry x _ _ (v57_entry x) hx

theorem v62_entry (x : FVec Ideal S3x256 .f32) (i) :
    val_main_v62 (F := Ideal) x i = x (idx_main_v61 (idx_main_v62 i)) := by
  rw [val_main_v62_apply, val_main_v61_apply]

theorem v62_fin (x : FVec Ideal S3x256 .f32) (hx : ∀ i, x i ≠ ⊤ ∧ x i ≠ ⊥) : ∀ i, IsFin (val_main_v62 (F := Ideal) x i) :=
  fin_of_entry x _ _ (v62_entry x) hx

theorem v87_entry (x : FVec Ideal S3x256 .f32) (i) :
    val_main_v87 (F := Ideal) x i = x (idx_main_v86 (idx_main_v87 i)) := by
  rw [val_main_v87_apply, val_main_v86_apply]

theorem v87_fin (x : FVec Ideal S3x256 .f32) (hx : ∀ i, x i ≠ ⊤ ∧ x i ≠ ⊥) : ∀ i, IsFin (val_main_v87 (F := Ideal) x i) :=
  fin_of_entry x _ _ (v87_entry x) hx

theorem v92_entry (x : FVec Ideal S3x256 .f32) (i) :
    val_main_v92 (F := Ideal) x i = x (idx_main_v91 (idx_main_v92 i)) := by
  rw [val_main_v92_apply, val_main_v91_apply]

theorem v92_fin (x : FVec Ideal S3x256 .f32) (hx : ∀ i, x i ≠ ⊤ ∧ x i ≠ ⊥) : ∀ i, IsFin (val_main_v92 (F := Ideal) x i) :=
  fin_of_entry x _ _ (v92_entry x) hx

theorem v92_nonneg (x : FVec Ideal S3x256 .f32) (hx : ∀ i, 0 ≤ x i) : ∀ i, 0 ≤ val_main_v92 (F := Ideal) x i :=
  nonneg_of_entry x _ _ (v92_entry x) hx

theorem v100_entry (x : FVec Ideal S3x256 .f32) (i) :
    val_main_v100 (F := Ideal) x i = x (idx_main_v99 (idx_main_v100 i)) := by
  rw [val_main_v100_apply, val_main_v99_apply]

theorem v100_fin (x : FVec Ideal S3x256 .f32) (hx : ∀ i, x i ≠ ⊤ ∧ x i ≠ ⊥) : ∀ i, IsFin (val_main_v100 (F := Ideal) x i) :=
  fin_of_entry x _ _ (v100_entry x) hx

theorem v105_entry (x : FVec Ideal S3x256 .f32) (i) :
    val_main_v105 (F := Ideal) x i = x (idx_main_v104 (idx_main_v105 i)) := by
  rw [val_main_v105_apply, val_main_v104_apply]

theorem v105_fin (x : FVec Ideal S3x256 .f32) (hx : ∀ i, x i ≠ ⊤ ∧ x i ≠ ⊥) : ∀ i, IsFin (val_main_v105 (F := Ideal) x i) :=
  fin_of_entry x _ _ (v105_entry x) hx

theorem v130_entry (x : FVec Ideal S3x256 .f32) (i) :
    val_main_v130 (F := Ideal) x i = x (idx_main_v129 (idx_main_v130 i)) := by
  rw [val_main_v130_apply, val_main_v129_apply]

theorem v130_fin (x : FVec Ideal S3x256 .f32) (hx : ∀ i, x i ≠ ⊤ ∧ x i ≠ ⊥) : ∀ i, IsFin (val_main_v130 (F := Ideal) x i) :=
  fin_of_entry x _ _ (v130_entry x) hx

theorem v135_entry (x : FVec Ideal S3x256 .f32) (i) :
    val_main_v135 (F := Ideal) x i = x (idx_main_v134 (idx_main_v135 i)) := by
  rw [val_main_v135_apply, val_main_v134_apply]

theorem v135_fin (x : FVec Ideal S3x256 .f32) (hx : ∀ i, x i ≠ ⊤ ∧ x i ≠ ⊥) : ∀ i, IsFin (val_main_v135 (F := Ideal) x i) :=
  fin_of_entry x _ _ (v135_entry x) hx

theorem v135_nonneg (x : FVec Ideal S3x256 .f32) (hx : ∀ i, 0 ≤ x i) : ∀ i, 0 ≤ val_main_v135 (F := Ideal) x i :=
  nonneg_of_entry x _ _ (v135_entry x) hx

theorem v143_entry (x : FVec Ideal S3x256 .f32) (i) :
    val_main_v143 (F := Ideal) x i = x (idx_main_v142 (idx_main_v143 i)) := by
  rw [val_main_v143_apply, val_main_v142_apply]

theorem v143_fin (x : FVec Ideal S3x256 .f32) (hx : ∀ i, x i ≠ ⊤ ∧ x i ≠ ⊥) : ∀ i, IsFin (val_main_v143 (F := Ideal) x i) :=
  fin_of_entry x _ _ (v143_entry x) hx

theorem v148_entry (x : FVec Ideal S3x256 .f32) (i) :
    val_main_v148 (F := Ideal) x i = x (idx_main_v147 (idx_main_v148 i)) := by
  rw [val_main_v148_apply, val_main_v147_apply]

theorem v148_fin (x : FVec Ideal S3x256 .f32) (hx : ∀ i, x i ≠ ⊤ ∧ x i ≠ ⊥) : ∀ i, IsFin (val_main_v148 (F := Ideal) x i) :=
  fin_of_entry x _ _ (v148_entry x) hx

end Cert.ReferenceIdeal.RefFinite

end
-- ==== Proof.RefHFinite.lean ====
/-
  Finiteness of the reference's three layer outputs.

  Each layer's output is, entry by entry, the textbook expression of a neighbour sum, the reciprocal clamped
  in-degree, the layer's input, two weight matrices, a bias and four normalisation rows. All of these are real
  where the arguments are (the neighbour sum as a sum of real rows, the first layer's input as an argument, the later
  layers' inputs by the previous layer), and the variance row is non-negative, so the output is real.
-/
import proofs.«149779_j9311489098206_2_alg».proof.Proof.RefFinite
import proofs.«149779_j9311489098206_2_alg».proof.Proof.RefLayers

set_option maxRecDepth 16384

noncomputable section

namespace Cert.ReferenceIdeal.RefFinite

open Cert.ReferenceIdeal Cert.ReferenceIdeal.Gen Cert.ReferenceIdeal.ReadP Idealize.ShloMosaic Sage

/-- An array of real numbers is finite entry by entry. -/
theorem fin_of_real {s : Shape} (x : FVec Ideal s .f32) (hx : ∀ i, x i ≠ ⊤ ∧ x i ≠ ⊥) : ∀ i, IsFin (x i) :=
  fun i => IsFin.of_ne (hx i).1 (hx i).2

/-- The first layer's output is real where the arguments are and the variances are non-negative. -/
theorem h1_fin (x0 : FVec Ideal S50000x128 .f32) (x1 : (⟨S2x800000, .i32⟩ : BufTy).Contents (Elt Ideal))
    (x2 x3 : FVec Ideal S128x256 .f32) (x4 : FVec Ideal S256 .f32)
    (x8 x9 x10 x11 : FVec Ideal S3x256 .f32)
    (h0 : ∀ i, x0 i ≠ ⊤ ∧ x0 i ≠ ⊥) (h2 : ∀ i, x2 i ≠ ⊤ ∧ x2 i ≠ ⊥) (h3 : ∀ i, x3 i ≠ ⊤ ∧ x3 i ≠ ⊥) (h4 : ∀ i, x4 i ≠ ⊤ ∧ x4 i ≠ ⊥)
    (h8 : ∀ i, x8 i ≠ ⊤ ∧ x8 i ≠ ⊥) (h9 : ∀ i, x9 i ≠ ⊤ ∧ x9 i ≠ ⊥) (h10 : ∀ i, x10 i ≠ ⊤ ∧ x10 i ≠ ⊥) (h11 : ∀ i, x11 i ≠ ⊤ ∧ x11 i ≠ ⊥) (hvar : ∀ i, 0 ≤ x11 i) :
    ∀ i, IsFin (val_main_v66 (F := Ideal) x0 x1 x2 x3 x4 x8 x9 x10 x11 i) := by
  intro i
  rw [congrFun (Sage.Ref.ref_h1 x0 x1 x2 x3 x4 x8 x9 x10 x11) i]
  exact layerRat_finite (N := 50000) (d := 128) (o := 256) _ _ _ _ _ _ _ _ _ _ _ _
    (fun k => by rw [RefAgg.v33_eq]; exact RefAgg.agg128_fin x0 x1 (fin_of_real x0 h0) k)
    (inv_fin x1) (fin_of_real x0 h0) (fin_of_real x2 h2) (fin_of_real x3 h3) (fin_of_real x4 h4)
    (v44_fin x10 h10) (v49_fin x11 h11) (v57_fin x8 h8) (v62_fin x9 h9) (v49_nonneg x11 hvar _)

/-- The second layer's output likewise. -/
theorem h2_fin (x0 : FVec Ideal S50000x128 .f32) (x1 : (⟨S2x800000, .i32⟩ : BufTy).Contents (Elt Ideal))
    (x2 x3 : FVec Ideal S128x256 .f32) (x4 : FVec Ideal S256 .f32)
    (x5 x6 : FVec Ideal S2x256x256 .f32) (x7 : FVec Ideal S2x256 .f32)
    (x8 x9 x10 x11 : FVec Ideal S3x256 .f32)
    (h0 : ∀ i, x0 i ≠ ⊤ ∧ x0 i ≠ ⊥) (h2 : ∀ i, x2 i ≠ ⊤ ∧ x2 i ≠ ⊥) (h3 : ∀ i, x3 i ≠ ⊤ ∧ x3 i ≠ ⊥) (h4 : ∀ i, x4 i ≠ ⊤ ∧ x4 i ≠ ⊥)
    (h5 : ∀ i, x5 i ≠ ⊤ ∧ x5 i ≠ ⊥) (h6 : ∀ i, x6 i ≠ ⊤ ∧ x6 i ≠ ⊥) (h7 : ∀ i, x7 i ≠ ⊤ ∧ x7 i ≠ ⊥)
    (h8 : ∀ i, x8 i ≠ ⊤ ∧ x8 i ≠ ⊥) (h9 : ∀ i, x9 i ≠ ⊤ ∧ x9 i ≠ ⊥) (h10 : ∀ i, x10 i ≠ ⊤ ∧ x10 i ≠ ⊥) (h11 : ∀ i, x11 i ≠ ⊤ ∧ x11 i ≠ ⊥) (hvar : ∀ i, 0 ≤ x11 i) :
    ∀ i, IsFin (val_main_v109 (F := Ideal) x0 x1 x2 x3 x4 x5 x6 x7 x8 x9 x10 x11 i) := by
  intro i
  have f1 := h1_fin x0 x1 x2 x3 x4 x8 x9 x10 x11 h0 h2 h3 h4 h8 h9 h10 h11 hvar
  rw [congrFun (Sage.Ref.ref_h2 x0 x1 x2 x3 x4 x5 x6 x7 x8 x9 x10 x11) i]
  exact layerRat_finite (N := 50000) (d := 256) (o := 256) _ _ _ _ _ _ _ _ _ _ _ _
    (fun k => by rw [RefAgg.v76_eq]; exact RefAgg.agg256_fin _ x1 f1 k)
    (inv_fin x1) f1 (v13_fin x5 h5) (v17_fin x6 h6) (v21_fin x7 h7)
    (v87_fin x10 h10) (v92_fin x11 h11) (v100_fin x8 h8) (v105_fin x9 h9) (v92_nonneg x11 hvar _)

/-- The third layer's output likewise. -/
theorem h3_fin (x0 : FVec Ideal S50000x128 .f32) (x1 : (⟨S2x800000, .i32⟩ : BufTy).Contents (Elt Ideal))
    (x2 x3 : FVec Ideal S128x256 .f32) (x4 : FVec Ideal S256 .f32)
    (x5 x6 : FVec Ideal S2x256x256 .f32) (x7 : FVec Ideal S2x256 .f32)
    (x8 x9 x10 x11 : FVec Ideal S3x256 .f32)
    (h0 : ∀ i, x0 i ≠ ⊤ ∧ x0 i ≠ ⊥) (h2 : ∀ i, x2 i ≠ ⊤ ∧ x2 i ≠ ⊥) (h3 : ∀ i, x3 i ≠ ⊤ ∧ x3 i ≠ ⊥) (h4 : ∀ i, x4 i ≠ ⊤ ∧ x4 i ≠ ⊥)
    (h5 : ∀ i, x5 i ≠ ⊤ ∧ x5 i ≠ ⊥) (h6 : ∀ i, x6 i ≠ ⊤ ∧ x6 i ≠ ⊥) (h7 : ∀ i, x7 i ≠ ⊤ ∧ x7 i ≠ ⊥)
    (h8 : ∀ i, x8 i ≠ ⊤ ∧ x8 i ≠ ⊥) (h9 : ∀ i, x9 i ≠ ⊤ ∧ x9 i ≠ ⊥) (h10 : ∀ i, x10 i ≠ ⊤ ∧ x10 i ≠ ⊥) (h11 : ∀ i, x11 i ≠ ⊤ ∧ x11 i ≠ ⊥) (hvar : ∀ i, 0 ≤ x11 i) :
    ∀ i, IsFin (val_main_v152 (F := Ideal) x0 x1 x2 x3 x4 x5 x6 x7 x8 x9 x10 x11 i) := by
  intro i
  have f2 := h2_fin x0 x1 x2 x3 x4 x5 x6 x7 x8 x9 x10 x11 h0 h2 h3 h4 h5 h6 h7 h8 h9 h10 h11 hvar
  rw [congrFun (Sage.Ref.ref_h3 x0 x1 x2 x3 x4 x5 x6 x7 x8 x9 x10 x11) i]
  exact layerRat_finite (N := 50000) (d := 256) (o := 256) _ _ _ _ _ _ _ _ _ _ _ _
    (fun k => by rw [RefAgg.v119_eq]; exact RefAgg.agg256_fin _ x1 f2 k)
    (inv_fin x1) f2 (v15_fin x5 h5) (v19_fin x6 h6) (v23_fin x7 h7)
    (v130_fin x10 h10) (v135_fin x11 h11) (v143_fin x8 h8) (v148_fin x9 h9) (v135_nonneg x11 hvar _)

end Cert.ReferenceIdeal.RefFinite

end
-- ==== Proof.PreFacts.lean ====
/-
  The precondition read as facts about the sixteen argument arrays over the extended reals.

  The precondition is a conjunction of sixteen tests. Fifteen of them say, of one real-valued argument array `a`,
  that every entry satisfies `|a i| < +∞`, where `|x|` is `max x (-x)` and `+∞` is the value of the pattern
  `0x7F800000`; over the extended reals this holds exactly when `a i` is neither `⊤` nor `⊥`, that is, when it is
  a real number. The sixteenth says that every entry of the variance array is `≥ 0`, zero being the value of the
  all-zero pattern. Each test is a conjunction over all entries (a reduction by `and` from 1 into a single word),
  and the tests are joined by `and`; a conjunction of one-bit words equal to 1 has every conjunct equal to 1.
  The integer argument (the edge list) is not constrained.
-/
import proofs.«149779_j9311489098206_2_alg».proof.Defs
import Idealize.ShloMosaic.Lib.ValueIdx
import Idealize.ShloMosaic.Lib.ReduceAll

noncomputable section

namespace Sage

open Idealize.ShloMosaic Idealize.ShloMosaic.ValueIdx Idealize.SL.Sem Cert.Pre_finite_inputs

/-- The rank-zero shape has exactly one index. -/
instance subsingleton_scalar_idx : Subsingleton S_.Idx := ⟨fun a b => funext fun d => d.elim0⟩

/-- The pattern `0x7F800000` denotes `+∞`. -/
theorem ofBits_inf : Ideal.ofBits .f32 0x7F800000#32 = (⊤ : EReal) := by simp [Ideal.ofBits, Ideal.ieee]

/-- The all-zero pattern denotes zero. -/
theorem ofBits_zero : Ideal.ofBits .f32 0x00000000#32 = (0 : EReal) := by simp [Ideal.ofBits, Ideal.ieee]

/-- `|x| < +∞` over the extended reals: `x` is neither infinity. -/
theorem real_of_abs_lt_top (x : EReal)
    (h : Ideal.cmp .olt (max x (-x)) (Ideal.ofBits .f32 0x7F800000#32) = 1#1) : x ≠ ⊤ ∧ x ≠ ⊥ := by
  rw [ofBits_inf] at h
  induction x using EReal.rec with
  | bot => simp [Ideal.cmp] at h
  | top => simp [Ideal.cmp] at h
  | coe r => exact ⟨EReal.coe_ne_top r, EReal.coe_ne_bot r⟩

/-- A truth value written as a one-bit word is 1 exactly when it is true. -/
theorem ofBool_eq_one (b : Bool) : BitVec.ofBool b = 1#1 ↔ b = true := by cases b <;> decide

/-- `x ≥ 0` where zero is the value of the all-zero pattern. -/
theorem nonneg_of_ge_zero (x : EReal)
    (h : Ideal.cmp .oge x (Ideal.ofBits .f32 0x00000000#32) = 1#1) : 0 ≤ x := by
  rw [ofBits_zero] at h
  simp only [Ideal.cmp, ofBool_eq_one, decide_eq_true_eq] at h
  exact h

/-- One test `all (|a| < +∞)`: every entry of `a` is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) (i : s.Idx) : a i ≠ ⊤ ∧ a i ≠ ⊥ :=
  real_of_abs_lt_top (a i) (Host.reduce_andi_all _ _ hr hu ix0 e i)

/-- The test `all (a ≥ 0)`: every entry of `a` is non-negative. -/
theorem all_nonneg {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .oge a (broadcastInDim s ![] hb (constant (F := Ideal) S_ .f32 0x00000000#32)))
          (constantI S_ 1 1#1) hr hu ix0 = 1#1) (i : s.Idx) : 0 ≤ a i :=
  nonneg_of_ge_zero (a i) (Host.reduce_andi_all _ _ hr hu ix0 e i)

/-- What the precondition says of the argument arrays: every entry of every real-valued argument is a real number,
    and every variance is non-negative. -/
structure RealInputs
    (x : FVec Ideal S50000x128 .f32) (wNei0 wRoot0 : FVec Ideal S128x256 .f32) (b0 : FVec Ideal S256 .f32)
    (wNei wRoot : FVec Ideal S2x256x256 .f32) (b : FVec Ideal S2x256 .f32)
    (gamma beta mean var : FVec Ideal S3x256 .f32) (w1 : FVec Ideal S256x128 .f32) (b1 : FVec Ideal S128 .f32)
    (w2 : FVec Ideal S128x2 .f32) (b2 : FVec Ideal S2 .f32) : Prop where
  x_real : ∀ i, x i ≠ ⊤ ∧ x i ≠ ⊥
  wNei0_real : ∀ i, wNei0 i ≠ ⊤ ∧ wNei0 i ≠ ⊥
  wRoot0_real : ∀ i, wRoot0 i ≠ ⊤ ∧ wRoot0 i ≠ ⊥
  b0_real : ∀ i, b0 i ≠ ⊤ ∧ b0 i ≠ ⊥
  wNei_real : ∀ i, wNei i ≠ ⊤ ∧ wNei i ≠ ⊥
  wRoot_real : ∀ i, wRoot i ≠ ⊤ ∧ wRoot i ≠ ⊥
  b_real : ∀ i, b i ≠ ⊤ ∧ b i ≠ ⊥
  gamma_real : ∀ i, gamma i ≠ ⊤ ∧ gamma i ≠ ⊥
  beta_real : ∀ i, beta i ≠ ⊤ ∧ beta i ≠ ⊥
  mean_real : ∀ i, mean i ≠ ⊤ ∧ mean i ≠ ⊥
  var_real : ∀ i, var i ≠ ⊤ ∧ var i ≠ ⊥
  w1_real : ∀ i, w1 i ≠ ⊤ ∧ w1 i ≠ ⊥
  b1_real : ∀ i, b1 i ≠ ⊤ ∧ b1 i ≠ ⊥
  w2_real : ∀ i, w2 i ≠ ⊤ ∧ w2 i ≠ ⊥
  b2_real : ∀ i, b2 i ≠ ⊤ ∧ b2 i ≠ ⊥
  var_nonneg : ∀ i, 0 ≤ var i

variable [Cert.Pre_finite_inputs.Facts]

/-- THE PRECONDITION DECODED, for any sixteen argument arrays. -/
theorem pre_facts
    (a0 : FVec Ideal S50000x128 .f32) (a1 : IVec S2x800000 32) (a2 a3 : FVec Ideal S128x256 .f32)
    (a4 : FVec Ideal S256 .f32) (a5 a6 : FVec Ideal S2x256x256 .f32) (a7 : FVec Ideal S2x256 .f32)
    (a8 a9 a10 a11 : FVec Ideal S3x256 .f32) (a12 : FVec Ideal S256x128 .f32) (a13 : FVec Ideal S128 .f32)
    (a14 : FVec Ideal S128x2 .f32) (a15 : FVec Ideal S2 .f32)
    (h : Cert.Pre_finite_inputs.fn (F := Ideal) a0 a1 a2 a3 a4 a5 a6 a7 a8 a9 a10 a11 a12 a13 a14 a15 = fun _ => 1#1) :
    RealInputs a0 a2 a3 a4 a5 a6 a7 a8 a9 a10 a11 a12 a13 a14 a15 := by
  have e := congrFun h ix0
  dsimp only [fn, fn_part1, fn_part2, fn_part3, fn_part4] at e
  simp only [andi, IntOp.andi_eq_one] at e
  obtain ⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, ev⟩ := e
  exact ⟨all_real a0 _ _ _ e0, all_real a2 _ _ _ e2, all_real a3 _ _ _ e3, all_real a4 _ _ _ e4,
    all_real a5 _ _ _ e5, all_real a6 _ _ _ e6, all_real a7 _ _ _ e7, all_real a8 _ _ _ e8,
    all_real a9 _ _ _ e9, all_real a10 _ _ _ e10, all_real a11 _ _ _ e11, all_real a12 _ _ _ e12,
    all_real a13 _ _ _ e13, all_real a14 _ _ _ e14, all_real a15 _ _ _ e15, all_nonneg a11 _ _ _ ev⟩

/-- The precondition of the first program, at a device: its argument arrays there are real, its variances non-negative. -/
theorem pre_kernel
    (m : (ℓ : Loc Cert.KernelIdeal.nD Cert.KernelIdeal.τ Cert.KernelIdeal.sig) → Buf (Elt Ideal) ℓ)
    (h : Cert.Pre_KernelIdeal m) (c : Dev Cert.KernelIdeal.nD) :
    RealInputs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)) :=
  pre_facts _ _ _ _ _ _ _ _ _ _ _ _ _ _ _ _ (h c)

/-- The same of the second program's argument arrays, from its own precondition. -/
theorem pre_reference
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    RealInputs
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
      (m ((c.tc : Thread Cert.ReferenceIdeal.nD Cert.ReferenceIdeal.τ).loc Cert.ReferenceIdeal.main_arg13))
      (m ((c.tc : Thread Cert.ReferenceIdeal.nD Cert.ReferenceIdeal.τ).loc Cert.ReferenceIdeal.main_arg14))
      (m ((c.tc : Thread Cert.ReferenceIdeal.nD Cert.ReferenceIdeal.τ).loc Cert.ReferenceIdeal.main_arg15)) :=
  pre_facts _ _ _ _ _ _ _ _ _ _ _ _ _ _ _ _ (h c)

end Sage

end
-- ==== Proof.KValue.lean ====
/-
  The kernel program's value, stage by stage, against the reference's stages.

  Each pipelined region leaves in its output array the layer of the arrays it found (one entry per node and
  feature). Those arrays are host-computed: the neighbour sum of the previous features, the reciprocal clamped
  in-degree as a column, the weights, the bias row and the folded normalisation rows
  `scale = gamma · rsqrt (var + eps)`, `shift = beta - mean · scale`. With every input finite and the variances
  non-negative the folded affine map is the textbook normalisation, entry by entry, so the region's output is the
  reference's layer; the next region then sums the same features, and so on to the classifier head, where the two
  spellings of the log-softmax agree on finite logits.
-/
import proofs.«149779_j9311489098206_2_alg».proof.Proof.KHops
import proofs.«149779_j9311489098206_2_alg».proof.Proof.KHost0
import proofs.«149779_j9311489098206_2_alg».proof.Proof.KHost0P
import proofs.«149779_j9311489098206_2_alg».proof.Proof.KHost0A
import proofs.«149779_j9311489098206_2_alg».proof.Proof.KHost1
import proofs.«149779_j9311489098206_2_alg».proof.Proof.KHost2
import proofs.«149779_j9311489098206_2_alg».proof.Proof.KReg0
import proofs.«149779_j9311489098206_2_alg».proof.Proof.KReg1
import proofs.«149779_j9311489098206_2_alg».proof.Proof.KReg2
import proofs.«149779_j9311489098206_2_alg».proof.Proof.RefLayers
import proofs.«149779_j9311489098206_2_alg».proof.Proof.RefHead
import proofs.«149779_j9311489098206_2_alg».proof.Proof.RefFinite
import proofs.«149779_j9311489098206_2_alg».proof.Proof.RefHFinite
import proofs.«149779_j9311489098206_2_alg».proof.Proof.PreFacts

set_option maxRecDepth 16384

noncomputable section

namespace Cert.KernelIdeal.KValue

open Cert.KernelIdeal Cert.KernelIdeal.Gen Idealize.ShloMosaic Idealize.ShloMosaic.TcCoe Idealize.ShloMosaic.StableHlo
open Idealize.ShloMosaic.ValueIdx Idealize.SL.Sem Sage
open Cert.ReferenceIdeal.ReadP Cert.ReferenceIdeal.RefFinite Cert.ReferenceIdeal.RefAgg

/-- An array none of whose entries is infinite has finite entries. -/
theorem fr {ι : Type} {x : ι → EReal} (h : ∀ i, x i ≠ ⊤ ∧ x i ≠ ⊥) : ∀ i, IsFin (x i) :=
  fun i => IsFin.of_ne (h i).1 (h i).2

variable (m : (ℓ : Loc nD τ sig) → Buf (Elt Ideal) ℓ) (ρ : Dev nD → PrngReg) (c : Dev nD)
variable (RI : Sage.RealInputs (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))
include RI

set_option maxHeartbeats 4000000 in
/-- The first region's output array is the reference's first layer. -/
theorem stage0 : W2 (F := Ideal) m ρ c (Proc.devRef .tc main_v62)
    = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) := by
  rw [KHops.out0, KReg0.final0 (V1 m ρ) c, Sage.Ref.ref_h1]
  funext i
  have e0 : V1 m ρ c (Pipeline.arrRef spec0 0) = val_main_v33 (F := Ideal) (m ((c : Thread nD τ).loc main_arg0)) (m ((c : Thread nD τ).loc main_arg1)) := KHost.W1_v44 m ρ c
  have e2 : V1 m ρ c (Pipeline.arrRef spec0 2) = (m ((c : Thread nD τ).loc main_arg0)) := KHost.W1_v33 m ρ c
  have e3 : V1 m ρ c (Pipeline.arrRef spec0 3) = (m ((c : Thread nD τ).loc main_arg2)) := KHost.W1_v25 m ρ c
  have e4 : V1 m ρ c (Pipeline.arrRef spec0 4) = (m ((c : Thread nD τ).loc main_arg3)) := KHost.W1_v28 m ρ c
  rw [e0, e2, e3, e4]
  exact Sage.layer_eq (N := 50000) (d := 128) (o := 256) _ (V1 m ρ c (Pipeline.arrRef spec0 1)) (val_main_v11 (F := Ideal) (m ((c : Thread nD τ).loc main_arg1))) _ _ _
    (V1 m ρ c (Pipeline.arrRef spec0 5)) (V1 m ρ c (Pipeline.arrRef spec0 6)) (V1 m ρ c (Pipeline.arrRef spec0 7))
    (m ((c : Thread nD τ).loc main_arg4)) (val_main_v44 (F := Ideal) (m ((c : Thread nD τ).loc main_arg10))) (val_main_v49 (F := Ideal) (m ((c : Thread nD τ).loc main_arg11))) (val_main_v57 (F := Ideal) (m ((c : Thread nD τ).loc main_arg8))) (val_main_v62 (F := Ideal) (m ((c : Thread nD τ).loc main_arg9)))
    (i 0) (i 1)
    (fun k => by rw [v33_eq]; exact agg128_fin _ _ (fr RI.x_real) k)
    (inv_fin _) (fr RI.x_real) (fr RI.wNei0_real) (fr RI.wRoot0_real) (fr RI.b0_real)
    (v44_fin _ RI.mean_real) (v49_fin _ RI.var_real) (v57_fin _ RI.gamma_real) (v62_fin _ RI.beta_real)
    (v49_nonneg _ RI.var_nonneg _)
    (KHost.W1_v12 m ρ c (i 0)) (KHost.W1_v59 m ρ c (i 1)) (KHost.W1_v60 m ρ c (i 1)) (KHost.W1_v61 m ρ c (i 1))

set_option maxHeartbeats 4000000 in
/-- The second region's output array is the reference's second layer. -/
theorem stage1 : W4 (F := Ideal) m ρ c (Proc.devRef .tc main_v91)
    = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [KHops.out1, KReg1.final1 (V3 m ρ) c, Sage.Ref.ref_h2]
  funext i
  have s0 := stage0 m ρ c RI
  have e0 : V3 m ρ c (Pipeline.arrRef spec1 0) = agg256 (val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))) (m ((c : Thread nD τ).loc main_arg1)) :=
    KHost.after1_v73 (W2 m ρ c) _ _ s0 ((KHops.W2_main_v1 m ρ c).trans (KHost.W1_v1 m ρ c)) ((KHops.W2_main_v3 m ρ c).trans (KHost.W1_v3 m ρ c))
  have e2 : V3 m ρ c (Pipeline.arrRef spec1 2) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) := (KHost.after1_v62 (W2 m ρ c)).trans s0
  have e3 : V3 m ρ c (Pipeline.arrRef spec1 3) = val_main_v13 (F := Ideal) (m ((c : Thread nD τ).loc main_arg5)) := (KHost.after1_v26 (W2 m ρ c)).trans ((KHops.W2_main_v26 m ρ c).trans (KHost.W1_v26 m ρ c))
  have e4 : V3 m ρ c (Pipeline.arrRef spec1 4) = val_main_v17 (F := Ideal) (m ((c : Thread nD τ).loc main_arg6)) := (KHost.after1_v29 (W2 m ρ c)).trans ((KHops.W2_main_v29 m ρ c).trans (KHost.W1_v29 m ρ c))
  have e1 : V3 m ρ c (Pipeline.arrRef spec1 1) = W1 m ρ c (Proc.devRef .tc main_v12) := (KHost.after1_v12 (W2 m ρ c)).trans (KHops.W2_v12 m ρ c)
  rw [e0, e2, e3, e4, ← v76_eq]
  exact Sage.layer_eq (N := 50000) (d := 256) (o := 256) _ (V3 m ρ c (Pipeline.arrRef spec1 1)) (val_main_v11 (F := Ideal) (m ((c : Thread nD τ).loc main_arg1))) _ _ _
    (V3 m ρ c (Pipeline.arrRef spec1 5)) (V3 m ρ c (Pipeline.arrRef spec1 6)) (V3 m ρ c (Pipeline.arrRef spec1 7))
    (val_main_v21 (F := Ideal) (m ((c : Thread nD τ).loc main_arg7))) (val_main_v87 (F := Ideal) (m ((c : Thread nD τ).loc main_arg10))) (val_main_v92 (F := Ideal) (m ((c : Thread nD τ).loc main_arg11))) (val_main_v100 (F := Ideal) (m ((c : Thread nD τ).loc main_arg8))) (val_main_v105 (F := Ideal) (m ((c : Thread nD τ).loc main_arg9)))
    (i 0) (i 1)
    (fun k => by rw [v76_eq]; exact agg256_fin _ _ (Cert.ReferenceIdeal.RefFinite.h1_fin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) RI.x_real RI.wNei0_real RI.wRoot0_real RI.b0_real RI.gamma_real RI.beta_real RI.mean_real RI.var_real RI.var_nonneg) k)
    (inv_fin _) (Cert.ReferenceIdeal.RefFinite.h1_fin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) RI.x_real RI.wNei0_real RI.wRoot0_real RI.b0_real RI.gamma_real RI.beta_real RI.mean_real RI.var_real RI.var_nonneg) (v13_fin _ RI.wNei_real) (v17_fin _ RI.wRoot_real) (v21_fin _ RI.b_real)
    (v87_fin _ RI.mean_real) (v92_fin _ RI.var_real) (v100_fin _ RI.gamma_real) (v105_fin _ RI.beta_real)
    (v92_nonneg _ RI.var_nonneg _)
    (by rw [e1]; exact KHost.W1_v12 m ρ c (i 0))
    (KHost.after1_v88 (W2 m ρ c) _ ((KHops.W2_main_v22 m ρ c).trans (KHost.W1_v22 m ρ c)) (i 1))
    (KHost.after1_v89 (W2 m ρ c) _ _ ((KHops.W2_main_arg8 m ρ c).trans (KHost.W1_arg8 m ρ c)) ((KHops.W2_main_arg11 m ρ c).trans (KHost.W1_arg11 m ρ c)) (i 1))
    (KHost.after1_v90 (W2 m ρ c) _ _ _ _ ((KHops.W2_main_arg8 m ρ c).trans (KHost.W1_arg8 m ρ c)) ((KHops.W2_main_arg9 m ρ c).trans (KHost.W1_arg9 m ρ c)) ((KHops.W2_main_arg10 m ρ c).trans (KHost.W1_arg10 m ρ c)) ((KHops.W2_main_arg11 m ρ c).trans (KHost.W1_arg11 m ρ c)) (i 1))

set_option maxHeartbeats 8000000 in
/-- The third region's output array — the program's result — is the reference's result. -/
theorem stage2 : W6 (F := Ideal) m ρ c (Proc.devRef .tc main_v122)
    = val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [KHops.out2, KReg2.final2 (V5 m ρ) c, Sage.Ref.ref_out]
  funext i
  have s1 := stage1 m ρ c RI
  have e0 : V5 m ρ c (Pipeline.arrRef spec2 0) = agg256 (val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg1)) :=
    KHost.after2_v102 (W4 m ρ c) _ _ s1 ((KHops.W4_main_v1 m ρ c).trans ((KHost.after1_v1 (W2 m ρ c)).trans ((KHops.W2_main_v1 m ρ c).trans (KHost.W1_v1 m ρ c)))) ((KHops.W4_main_v3 m ρ c).trans ((KHost.after1_v3 (W2 m ρ c)).trans ((KHops.W2_main_v3 m ρ c).trans (KHost.W1_v3 m ρ c))))
  have e2 : V5 m ρ c (Pipeline.arrRef spec2 2) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := (KHost.after2_v91 (W4 m ρ c)).trans s1
  have e3 : V5 m ρ c (Pipeline.arrRef spec2 3) = val_main_v15 (F := Ideal) (m ((c : Thread nD τ).loc main_arg5)) := (KHost.after2_v27 (W4 m ρ c)).trans ((KHops.W4_main_v27 m ρ c).trans ((KHost.after1_v27 (W2 m ρ c)).trans ((KHops.W2_main_v27 m ρ c).trans (KHost.W1_v27 m ρ c))))
  have e4 : V5 m ρ c (Pipeline.arrRef spec2 4) = val_main_v19 (F := Ideal) (m ((c : Thread nD τ).loc main_arg6)) := (KHost.after2_v30 (W4 m ρ c)).trans ((KHops.W4_main_v30 m ρ c).trans ((KHost.after1_v30 (W2 m ρ c)).trans ((KHops.W2_main_v30 m ρ c).trans (KHost.W1_v30 m ρ c))))
  have e8 : V5 m ρ c (Pipeline.arrRef spec2 8) = (m ((c : Thread nD τ).loc main_arg12)) := (KHost.after2_v31 (W4 m ρ c)).trans ((KHops.W4_main_v31 m ρ c).trans ((KHost.after1_v31 (W2 m ρ c)).trans ((KHops.W2_main_v31 m ρ c).trans (KHost.W1_v31 m ρ c))))
  have e10 : V5 m ρ c (Pipeline.arrRef spec2 10) = (m ((c : Thread nD τ).loc main_arg14)) := (KHost.after2_v32 (W4 m ρ c)).trans ((KHops.W4_main_v32 m ρ c).trans ((KHost.after1_v32 (W2 m ρ c)).trans ((KHops.W2_main_v32 m ρ c).trans (KHost.W1_v32 m ρ c))))
  have e1 : V5 m ρ c (Pipeline.arrRef spec2 1) = W1 m ρ c (Proc.devRef .tc main_v12) :=
    (KHost.after2_v12 (W4 m ρ c)).trans ((KHops.W4_v12 m ρ c).trans ((KHost.after1_v12 (W2 m ρ c)).trans (KHops.W2_v12 m ρ c)))
  rw [e0, e2, e3, e4, e8, e10, ← v119_eq]
  refine Sage.head_eq (N := 50000) (d := 256) (o := 256) (e := 128) _ (V5 m ρ c (Pipeline.arrRef spec2 1)) _ _ _
    (V5 m ρ c (Pipeline.arrRef spec2 5)) (V5 m ρ c (Pipeline.arrRef spec2 6)) (V5 m ρ c (Pipeline.arrRef spec2 7))
    (val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) _ (V5 m ρ c (Pipeline.arrRef spec2 9)) (m ((c : Thread nD τ).loc main_arg13)) _ (V5 m ρ c (Pipeline.arrRef spec2 11)) (m ((c : Thread nD τ).loc main_arg15))
    (i 0) (i 1) ?_ (Cert.ReferenceIdeal.RefFinite.h3_fin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) RI.x_real RI.wNei0_real RI.wRoot0_real RI.b0_real RI.wNei_real RI.wRoot_real RI.b_real RI.gamma_real RI.beta_real RI.mean_real RI.var_real RI.var_nonneg) (fr RI.w1_real) (fr RI.b1_real) (fr RI.w2_real) (fr RI.b2_real)
    (fun k => KHost.after2_v120 (W4 m ρ c) _ ((KHops.W4_main_arg13 m ρ c).trans ((KHost.after1_arg13 (W2 m ρ c)).trans ((KHops.W2_main_arg13 m ρ c).trans (KHost.W1_arg13 m ρ c)))) k)
    (fun c' => KHost.after2_v121 (W4 m ρ c) _ ((KHops.W4_main_arg15 m ρ c).trans ((KHost.after1_arg15 (W2 m ρ c)).trans ((KHops.W2_main_arg15 m ρ c).trans (KHost.W1_arg15 m ρ c)))) c')
  intro n k
  refine (Sage.layer_eq (N := 50000) (d := 256) (o := 256) _ (V5 m ρ c (Pipeline.arrRef spec2 1)) (val_main_v11 (F := Ideal) (m ((c : Thread nD τ).loc main_arg1))) _ _ _
    (V5 m ρ c (Pipeline.arrRef spec2 5)) (V5 m ρ c (Pipeline.arrRef spec2 6)) (V5 m ρ c (Pipeline.arrRef spec2 7))
    (val_main_v23 (F := Ideal) (m ((c : Thread nD τ).loc main_arg7))) (val_main_v130 (F := Ideal) (m ((c : Thread nD τ).loc main_arg10))) (val_main_v135 (F := Ideal) (m ((c : Thread nD τ).loc main_arg11))) (val_main_v143 (F := Ideal) (m ((c : Thread nD τ).loc main_arg8))) (val_main_v148 (F := Ideal) (m ((c : Thread nD τ).loc main_arg9)))
    n k
    (fun k => by rw [v119_eq]; exact agg256_fin _ _ (Cert.ReferenceIdeal.RefFinite.h2_fin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) RI.x_real RI.wNei0_real RI.wRoot0_real RI.b0_real RI.wNei_real RI.wRoot_real RI.b_real RI.gamma_real RI.beta_real RI.mean_real RI.var_real RI.var_nonneg) k)
    (inv_fin _) (Cert.ReferenceIdeal.RefFinite.h2_fin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) RI.x_real RI.wNei0_real RI.wRoot0_real RI.b0_real RI.wNei_real RI.wRoot_real RI.b_real RI.gamma_real RI.beta_real RI.mean_real RI.var_real RI.var_nonneg) (v15_fin _ RI.wNei_real) (v19_fin _ RI.wRoot_real) (v23_fin _ RI.b_real)
    (v130_fin _ RI.mean_real) (v135_fin _ RI.var_real) (v143_fin _ RI.gamma_real) (v148_fin _ RI.beta_real)
    (v135_nonneg _ RI.var_nonneg _)
    (by rw [e1]; exact KHost.W1_v12 m ρ c n)
    (KHost.after2_v117 (W4 m ρ c) _ ((KHops.W4_main_v24 m ρ c).trans ((KHost.after1_v24 (W2 m ρ c)).trans ((KHops.W2_main_v24 m ρ c).trans (KHost.W1_v24 m ρ c)))) k)
    (KHost.after2_v118 (W4 m ρ c) _ _ ((KHops.W4_main_arg8 m ρ c).trans ((KHost.after1_arg8 (W2 m ρ c)).trans ((KHops.W2_main_arg8 m ρ c).trans (KHost.W1_arg8 m ρ c)))) ((KHops.W4_main_arg11 m ρ c).trans ((KHost.after1_arg11 (W2 m ρ c)).trans ((KHops.W2_main_arg11 m ρ c).trans (KHost.W1_arg11 m ρ c)))) k)
    (KHost.after2_v119 (W4 m ρ c) _ _ _ _ ((KHops.W4_main_arg8 m ρ c).trans ((KHost.after1_arg8 (W2 m ρ c)).trans ((KHops.W2_main_arg8 m ρ c).trans (KHost.W1_arg8 m ρ c)))) ((KHops.W4_main_arg9 m ρ c).trans ((KHost.after1_arg9 (W2 m ρ c)).trans ((KHops.W2_main_arg9 m ρ c).trans (KHost.W1_arg9 m ρ c)))) ((KHops.W4_main_arg10 m ρ c).trans ((KHost.after1_arg10 (W2 m ρ c)).trans ((KHops.W2_main_arg10 m ρ c).trans (KHost.W1_arg10 m ρ c)))) ((KHops.W4_main_arg11 m ρ c).trans ((KHost.after1_arg11 (W2 m ρ c)).trans ((KHops.W2_main_arg11 m ρ c).trans (KHost.W1_arg11 m ρ c)))) k)).trans ?_
  exact (congrFun (Sage.Ref.ref_h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (ix2 n k)).symm

end Cert.KernelIdeal.KValue

end
-- ==== Proof.RefRunRead.lean ====
/-
  The reference's run meets its stages: the term the run states for the result buffer is the last stage of the
  operation-by-operation reading, at the launch contents of the sixteen arguments. With the result dropped the run
  is the reference's frame claim.
-/
import proofs.«149779_j9311489098206_2_alg».proof.Proof.RefRunP
import proofs.«149779_j9311489098206_2_alg».proof.Proof.RefReadP

set_option maxRecDepth 200000

noncomputable section

namespace Cert.ReferenceIdeal.RefRunRead

open Cert.ReferenceIdeal Cert.ReferenceIdeal.Gen Idealize.ShloMosaic Idealize.ShloMosaic.TcCoe Idealize.SL.Sem Idealize.ShloMosaic.StableHlo

variable {F : FTy → Type} [FloatOps F]

/-- The run's composed term for the result is the last stage. -/
theorem res_eq (m : (ℓ : Loc nD τ sig) → Buf (Elt F) ℓ) (c : Dev nD) :
    Cert.ReferenceIdeal.ValueP.res_main_v162 m c = Cert.ReferenceIdeal.ReadP.val_main_v162 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold Cert.ReferenceIdeal.ValueP.res_main_v162; rfl

end Cert.ReferenceIdeal.RefRunRead

end
-- ==== Proof.Claims.lean ====
/-
  The five claims.

  The two kernel programs' frames are the pipelined-region frames of their three regions among the host stretches;
  the reference's frame is its run with the result dropped. The idealization rewrote nothing, so there is nothing to
  preserve. For the value claim both runs end at one array: the kernel's third region leaves the reference's last
  stage (finite inputs and non-negative variances make the folded batch normalisation and the two spellings of the
  log-softmax agree), and the reference's run ends at that stage of its own arguments, which agree with the kernel's.
-/
import proofs.«149779_j9311489098206_2_alg».proof.Defs
import proofs.«149779_j9311489098206_2_alg».proof.Proof.Gen.Kernel.Frame
import proofs.«149779_j9311489098206_2_alg».proof.Proof.Gen.KernelIdeal.Frame
import proofs.«149779_j9311489098206_2_alg».proof.Proof.KRun
import proofs.«149779_j9311489098206_2_alg».proof.Proof.KValue
import proofs.«149779_j9311489098206_2_alg».proof.Proof.RefRunP
import proofs.«149779_j9311489098206_2_alg».proof.Proof.RefRunRead
import proofs.«149779_j9311489098206_2_alg».proof.Proof.PreFacts
import proofs.«149779_j9311489098206_2_alg».proof.Proof.Gen.Pre_finite_inputs

set_option maxRecDepth 16384

noncomputable section

namespace Cert.Proof.Claims

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  refine ⟨fun c => Cert.ReferenceIdeal.ReadP.val_main_v162 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.KValue.stage2 m ρ c (Sage.pre_kernel m hpre c)), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13, h14, h15⟩ := hagree c
    rw [Cert.ReferenceIdeal.RefRunRead.res_eq, h0, h1, h2, h3, h4, h5, h6, h7, h8, h9, h10, h11, h12, h13, h14, h15]

end Cert.Proof.Claims

end
-- ==== Proof.lean ====
/- The proof of `Cert.Claim`.

   A three-layer graph convolution with evaluation-mode batch normalisation and a two-layer classifier head, computed
   once with the normalisation folded into an affine map and the layers tiled over the nodes, once as written in the
   textbook; under finite inputs and non-negative running variances the two end at the same array of log-probabilities.
   Proof/Spec.lean states the two arrangements entry by entry, Proof/Algebra.lean joins them on the extended reals,
   Proof/KReg0-2.lean read each tiled region as one whole-array function, Proof/KHost0-2.lean and Proof/KHops.lean read the
   host-side arrays between the regions, Proof/RefLayers.lean and Proof/RefHead.lean read the reference layer by layer,
   Proof/KValue.lean chains the stages and Proof/Claims.lean assembles the five claims. -/
import proofs.«149779_j9311489098206_2_alg».proof.Defs
import proofs.«149779_j9311489098206_2_alg».proof.Proof.Claims
import proofs.«149779_j9311489098206_2_alg».proof.Proof.Gen.Kernel
import proofs.«149779_j9311489098206_2_alg».proof.Proof.Gen.Kernel.Skeleton
import proofs.«149779_j9311489098206_2_alg».proof.Proof.Gen.Kernel.Launch
import proofs.«149779_j9311489098206_2_alg».proof.Proof.Gen.Kernel.Points
import proofs.«149779_j9311489098206_2_alg».proof.Proof.Gen.Kernel.Frame
import proofs.«149779_j9311489098206_2_alg».proof.Proof.Gen.KernelIdeal
import proofs.«149779_j9311489098206_2_alg».proof.Proof.Gen.KernelIdeal.Skeleton
import proofs.«149779_j9311489098206_2_alg».proof.Proof.Gen.KernelIdeal.Launch
import proofs.«149779_j9311489098206_2_alg».proof.Proof.Gen.KernelIdeal.Points
import proofs.«149779_j9311489098206_2_alg».proof.Proof.Gen.KernelIdeal.Frame
import proofs.«149779_j9311489098206_2_alg».proof.Proof.Gen.ReferenceIdeal
import proofs.«149779_j9311489098206_2_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
